-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v303) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S2000000 : Shape := ⟨1, ![2000000]⟩
abbrev S2x2000000 : Shape := ⟨2, ![2, 2000000]⟩
abbrev S7x6 : Shape := ⟨2, ![7, 6]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel
  bcast_S_S2000000 : S_.BroadcastsInDim S2000000 (![] : Fin 0 → Fin S2000000.rank)
  reducesTo_S2000000_S_d0 : S2000000.ReducesTo [0] S_
  bcast_S_S7x6 : S_.BroadcastsInDim S7x6 (![] : Fin 0 → Fin S7x6.rank)
  reducesTo_S7x6_S_d0_1 : S7x6.ReducesTo [0, 1] S_

variable [Facts]

def fn_part1 {F : FTy → Type} [FloatOps F] (main_v13 : IVec S_ 1) (main_v16 : IVec S7x6 1) : IVec S_ 1 :=
  let main_c_5 : IVec S_ 1 := constantI S_ 1 1#1
  let main_v17 : IVec S_ 1 := (fun x v => Host.reduce IntOp.andi x v reducesTo_S7x6_S_d0_1 h_S_) main_v16 main_c_5
  let main_v18 : IVec S_ 1 := andi main_v13 main_v17
  main_v18

def fn {F : FTy → Type} [FloatOps F] (main_arg0 : FVec F S500000 .f32) (main_arg1 : FVec F S2000000 .f32) (main_arg2 : IVec S2x2000000 32) (main_arg3 : FVec F S7x6 .f32) (main_arg4 : FVec F S7x6 .f32) : IVec S_ 1 :=
  let main_v0 : FVec F S500000 .f32 := Host.absf main_arg0
  let main_cst : FVec F S_ .f32 := constant S_ .f32 0x7F800000#32
  let main_v1 : FVec F S500000 .f32 := broadcastInDim S500000 ![] bcast_S_S500000 main_cst
  let main_v2 : IVec S500000 1 := cmpf .olt main_v0 main_v1
  let main_c : IVec S_ 1 := constantI S_ 1 1#1
  let main_v3 : IVec S_ 1 := (fun x v => Host.reduce IntOp.andi x v reducesTo_S500000_S_d0 h_S_) main_v2 main_c
  let main_v4 : FVec F S2000000 .f32 := Host.absf main_arg1
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S7x6 .f32 := Host.absf main_arg3
  let main_cst_2 : FVec F S_ .f32 := constant S_ .f32 0x7F800000#32
  let main_v10 : FVec F S7x6 .f32 := broadcastInDim S7x6 ![] bcast_S_S7x6 main_cst_2
  let main_v11 : IVec S7x6 1 := cmpf .olt main_v9 main_v10
  let main_c_3 : IVec S_ 1 := constantI S_ 1 1#1
  let main_v12 : IVec S_ 1 := (fun x v => Host.reduce IntOp.andi x v reducesTo_S7x6_S_d0_1 h_S_) main_v11 main_c_3
  let main_v13 : IVec S_ 1 := andi main_v8 main_v12
  let main_v14 : FVec F S7x6 .f32 := Host.absf main_arg4
  let main_cst_4 : FVec F S_ .f32 := constant S_ .f32 0x7F800000#32
  let main_v15 : FVec F S7x6 .f32 := broadcastInDim S7x6 ![] bcast_S_S7x6 main_cst_4
  let main_v16 : IVec S7x6 1 := cmpf .olt main_v14 main_v15
  fn_part1 (F := F) main_v13 main_v16
-- ==== Kernel.lean ====
abbrev S500000 : Shape := ⟨1, ![500000]⟩
abbrev S2000000 : Shape := ⟨1, ![2000000]⟩
abbrev S2x2000000 : Shape := ⟨2, ![2, 2000000]⟩
abbrev S7x6 : Shape := ⟨2, ![7, 6]⟩
abbrev S1x2000000 : Shape := ⟨2, ![1, 2000000]⟩
abbrev S_ : Shape := ⟨0, ![]⟩
abbrev S2000000x1 : Shape := ⟨2, ![2000000, 1]⟩
abbrev S2000000x42 : Shape := ⟨2, ![2000000, 42]⟩
abbrev S2000000x7x6 : Shape := ⟨3, ![2000000, 7, 6]⟩
abbrev S32768 : Shape := ⟨1, ![32768]⟩
abbrev S32768x42 : Shape := ⟨2, ![32768, 42]⟩
abbrev S1x6 : Shape := ⟨2, ![1, 6]⟩
abbrev S6 : Shape := ⟨1, ![6]⟩
abbrev S32768x1 : Shape := ⟨2, ![32768, 1]⟩
abbrev S32768x6 : Shape := ⟨2, ![32768, 6]⟩

abbrev nBuf : Space → Nat
  | .hbm => 21
  | .vmem => 8
  | .smem => 0
  | _ => 0

abbrev bufTy : (tb : Table) → Fin (tcTables nBuf tb) → BufTy
  | .hbm, ⟨0, _⟩ => ⟨S500000, .f32⟩
  | .hbm, ⟨1, _⟩ => ⟨S2000000, .f32⟩
  | .hbm, ⟨2, _⟩ => ⟨S2x2000000, .i32⟩
  | .hbm, ⟨3, _⟩ => ⟨S7x6, .f32⟩
  | .hbm, ⟨4, _⟩ => ⟨S7x6, .f32⟩
  | .hbm, ⟨5, _⟩ => ⟨S1x2000000, .i32⟩
  | .hbm, ⟨6, _⟩ => ⟨S2000000, .i32⟩
  | .hbm, ⟨7, _⟩ => ⟨S_, .i32⟩
  | .hbm, ⟨8, _⟩ => ⟨S2000000, .i32⟩
  | .hbm, ⟨9, _⟩ => ⟨S2000000, .i1⟩
  | .hbm, ⟨10, _⟩ => ⟨S_, .i32⟩
  | .hbm, ⟨11, _⟩ => ⟨S2000000, .i32⟩
  | .hbm, ⟨12, _⟩ => ⟨S2000000, .i32⟩
  | .hbm, ⟨13, _⟩ => ⟨S2000000, .i32⟩
  | .hbm, ⟨14, _⟩ => ⟨S2000000x1, .i32⟩
  | .hbm, ⟨15, _⟩ => ⟨S2000000, .f32⟩
  | .hbm, ⟨16, _⟩ => ⟨S_, .f32⟩
  | .hbm, ⟨17, _⟩ => ⟨S2000000, .f32⟩
  | .hbm, ⟨18, _⟩ => ⟨S2000000, .f32⟩
  | .hbm, ⟨19, _⟩ => ⟨S2000000x42, .f32⟩
  | .hbm, ⟨20, _⟩ => ⟨S2000000x7x6, .f32⟩
  | .local _ .vmem, ⟨0, _⟩ => ⟨S32768, .f32⟩
  | .local _ .vmem, ⟨1, _⟩ => ⟨S32768, .f32⟩
  | .local _ .vmem, ⟨2, _⟩ => ⟨S32768, .f32⟩
  | .local _ .vmem, ⟨3, _⟩ => ⟨S32768, .f32⟩
  | .local _ .vmem, ⟨4, _⟩ => ⟨S7x6, .f32⟩
  | .local _ .vmem, ⟨5, _⟩ => ⟨S7x6, .f32⟩
  | .local _ .vmem, ⟨6, _⟩ => ⟨S32768x42, .f32⟩
  | .local _ .vmem, ⟨7, _⟩ => ⟨S32768x42, .f32⟩
  | _, _ => ⟨S500000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_c : Ref sig .tc := ⟨.hbm, 7, rfl⟩
abbrev main_call0_v2 : Ref sig .tc := ⟨.hbm, 8, rfl⟩
abbrev main_call0_v3 : Ref sig .tc := ⟨.hbm, 9, rfl⟩
abbrev main_call0_c_0 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_cst : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![62], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32768x42 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S2000000x42_S2000000x7x6 : S2000000x42.ShapeCasts S2000000x7x6
  inb_S32768_S32768_0 : ∀ a, (![0] : Fin 1 → Nat) a + S32768.size a ≤ S32768.size a
  h_S32768 : 0 < S32768.numel
  shapeCasts_S32768_S32768 : S32768.ShapeCasts S32768
  inb_S7x6_S7x6_0_0 : ∀ a, (![0, 0] : Fin 2 → Nat) a + S7x6.size a ≤ S7x6.size a
  h_S7x6 : 0 < S7x6.numel
  slices_S7x6_o0_0_S1x6 : S7x6.Slices ![0, 0] S1x6
  shapeCasts_S1x6_S6 : S1x6.ShapeCasts S6
  shapeCasts_S32768_S32768x1 : S32768.ShapeCasts S32768x1
  shapeCasts_S6_S1x6 : S6.ShapeCasts S1x6
  broadcasts_S32768x1_S32768x6 : S32768x1.Broadcasts S32768x6
  broadcasts_S1x6_S32768x6 : S1x6.Broadcasts S32768x6
  inb_S32768x42_S32768x6_0_0 : ∀ a, (![0, 0] : Fin 2 → Nat) a + S32768x6.size a ≤ S32768x42.size a
  h_S32768x6 : 0 < S32768x6.numel
  slices_S7x6_o1_0_S1x6 : S7x6.Slices ![1, 0] S1x6
  inb_S32768x42_S32768x6_0_6 : ∀ a, (![0, 6] : Fin 2 → Nat) a + S32768x6.size a ≤ S32768x42.size a
  slices_S7x6_o2_0_S1x6 : S7x6.Slices ![2, 0] S1x6
  inb_S32768x42_S32768x6_0_12 : ∀ a, (![0, 12] : Fin 2 → Nat) a + S32768x6.size a ≤ S32768x42.size a
  slices_S7x6_o3_0_S1x6 : S7x6.Slices ![3, 0] S1x6
  inb_S32768x42_S32768x6_0_18 : ∀ a, (![0, 18] : Fin 2 → Nat) a + S32768x6.size a ≤ S32768x42.size a
  slices_S7x6_o4_0_S1x6 : S7x6.Slices ![4, 0] S1x6
  inb_S32768x42_S32768x6_0_24 : ∀ a, (![0, 24] : Fin 2 → Nat) a + S32768x6.size a ≤ S32768x42.size a
  slices_S7x6_o5_0_S1x6 : S7x6.Slices ![5, 0] S1x6
  inb_S32768x42_S32768x6_0_30 : ∀ a, (![0, 30] : Fin 2 → Nat) a + S32768x6.size a ≤ S32768x42.size a
  slices_S7x6_o6_0_S1x6 : S7x6.Slices ![6, 0] S1x6
  inb_S32768x42_S32768x6_0_36 : ∀ a, (![0, 36] : Fin 2 → Nat) a + S32768x6.size a ≤ S32768x42.size a
  gather_S500000_S2000000x1_S2000000_n_0_n_n_0_1_1_wf : GatherDims.WF S500000 S2000000x1 S2000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32768.size a < S2000000.size a
  hwx0_0 : ∀ i : grid0.Coords, EltTy.bits .f32 = 32 ∨ (Rect.unit (s := S2000000) (fun a => cc0_transform_0 i a * S32768.size a) (fun a => (Pipeline.Clip.of (cc0_transform_0 i a) (S32768.size a) (S2000000.size a)).extent (S32768.size a)) fun a => Pipeline.Clip.inb (Pipeline.Clip.ok_of (hstart0_0 i a))).WholeWords (EltTy.packing .f32)
  hwxs0_0 : ∀ i : grid0.Coords, EltTy.bits .f32 = 32 ∨ (Rect.unit (s := S32768) (fun _ => 0) (fun a => (Pipeline.Clip.of (cc0_transform_0 i a) (S32768.size a) (S2000000.size a)).extent (S32768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S32768.size a < S2000000.size a
  hwx0_1 : ∀ i : grid0.Coords, EltTy.bits .f32 = 32 ∨ (Rect.unit (s := S2000000) (fun a => cc0_transform_1 i a * S32768.size a) (fun a => (Pipeline.Clip.of (cc0_transform_1 i a) (S32768.size a) (S2000000.size a)).extent (S32768.size a)) fun a => Pipeline.Clip.inb (Pipeline.Clip.ok_of (hstart0_1 i a))).WholeWords (EltTy.packing .f32)
  hwxs0_1 : ∀ i : grid0.Coords, EltTy.bits .f32 = 32 ∨ (Rect.unit (s := S32768) (fun _ => 0) (fun a => (Pipeline.Clip.of (cc0_transform_1 i a) (S32768.size a) (S2000000.size a)).extent (S32768.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x6.size a ≤ S7x6.size a
  hwx0_2 : ∀ i : grid0.Coords, EltTy.bits .f32 = 32 ∨ (Rect.block (s := S7x6) S7x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x6.size a ≤ S7x6.size a
  hwx0_3 : ∀ i : grid0.Coords, EltTy.bits .f32 = 32 ∨ (Rect.block (s := S7x6) S7x6.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S32768x42.size a < S2000000x42.size a
  hwx0_4 : ∀ i : grid0.Coords, EltTy.bits .f32 = 32 ∨ (Rect.unit (s := S2000000x42) (fun a => cc0_transform_4 i a * S32768x42.size a) (fun a => (Pipeline.Clip.of (cc0_transform_4 i a) (S32768x42.size a) (S2000000x42.size a)).extent (S32768x42.size a)) fun a => Pipeline.Clip.inb (Pipeline.Clip.ok_of (hstart0_4 i a))).WholeWords (EltTy.packing .f32)
  hwxs0_4 : ∀ i : grid0.Coords, EltTy.bits .f32 = 32 ∨ (Rect.unit (s := S32768x42) (fun _ => 0) (fun a => (Pipeline.Clip.of (cc0_transform_4 i a) (S32768x42.size a) (S2000000x42.size a)).extent (S32768x42.size a)) fun a => (Nat.zero_add _).trans_le (Pipeline.Clip.extent_le (Pipeline.Clip.ok_of (hstart0_4 i a)))).WholeWords (EltTy.packing .f32)

variable [Facts₀]

def gather_S500000_S2000000x1_S2000000_n_0_n_n_0_1_1 : GatherDims S500000 S2000000x1 S2000000 where
  offsetDims := []
  collapsedSliceDims := [0]
  operandBatchingDims := []
  startIndicesBatchingDims := []
  startIndexMap := [0]
  indexVectorDim := 1
  sliceSizes := ![1]
  wf := gather_S500000_S2000000x1_S2000000_n_0_n_n_0_1_1_wf

abbrev win0_0 : Pipeline.Window sig grid0 :=
  Pipeline.Window.ofSpecClip (Memref.whole main_call0_v10) S32768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S32768.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg3) S7x6.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S7x6.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_call0_v11) S32768x42.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S500000 : Shape := ⟨1, ![500000]⟩
abbrev S2000000 : Shape := ⟨1, ![2000000]⟩
abbrev S2x2000000 : Shape := ⟨2, ![2, 2000000]⟩
abbrev S7x6 : Shape := ⟨2, ![7, 6]⟩
abbrev S1x2000000 : Shape := ⟨2, ![1, 2000000]⟩
abbrev S_ : Shape := ⟨0, ![]⟩
abbrev S2000000x1 : Shape := ⟨2, ![2000000, 1]⟩
abbrev S1x6 : Shape := ⟨2, ![1, 6]⟩
abbrev S6 : Shape := ⟨1, ![6]⟩
abbrev S2000000x6 : Shape := ⟨2, ![2000000, 6]⟩
abbrev S2000000x1x6 : Shape := ⟨3, ![2000000, 1, 6]⟩
abbrev S2000000x7x6 : Shape := ⟨3, ![2000000, 7, 6]⟩
abbrev S2000000x7 : Shape := ⟨2, ![2000000, 7]⟩
abbrev S2000000x1x1 : Shape := ⟨3, ![2000000, 1, 1]⟩
abbrev S2000000x7x1 : Shape := ⟨3, ![2000000, 7, 1]⟩

abbrev nBuf : Space → Nat
  | .hbm => 355
  | .vmem => 0
  | .smem => 0
  | _ => 0

abbrev hbmTy0_0 (i : Nat) : BufTy := match i % 128 with
  | 0 => ⟨S500000, .f32⟩
  | 1 => ⟨S2000000, .f32⟩
  | 2 => ⟨S2x2000000, .i32⟩
  | 3 => ⟨S7x6, .f32⟩
  | 4 => ⟨S7x6, .f32⟩
  | 5 => ⟨S1x2000000, .i32⟩
  | 6 => ⟨S2000000, .i32⟩
  | 7 => ⟨S_, .i32⟩
  | 8 => ⟨S2000000, .i32⟩
  | 9 => ⟨S2000000, .i1⟩
  | 10 => ⟨S_, .i32⟩
  | 11 => ⟨S2000000, .i32⟩
  | 12 => ⟨S2000000, .i32⟩
  | 13 => ⟨S2000000, .i32⟩
  | 14 => ⟨S2000000x1, .i32⟩
  | 15 => ⟨S2000000, .f32⟩
  | 16 => ⟨S_, .f32⟩
  | 17 => ⟨S2000000, .f32⟩
  | 18 => ⟨S2000000, .f32⟩
  | 19 => ⟨S2000000, .f32⟩
  | 20 => ⟨S2000000, .f32⟩
  | 21 => ⟨S2000000, .f32⟩
  | 22 => ⟨S_, .f32⟩
  | 23 => ⟨S2000000, .f32⟩
  | 24 => ⟨S2000000, .f32⟩
  | 25 => ⟨S_, .f32⟩
  | 26 => ⟨S2000000, .f32⟩
  | 27 => ⟨S2000000, .f32⟩
  | 28 => ⟨S2000000, .f32⟩
  | 29 => ⟨S_, .f32⟩
  | 30 => ⟨S2000000, .f32⟩
  | 31 => ⟨S2000000, .f32⟩
  | 32 => ⟨S2000000, .f32⟩
  | 33 => ⟨S2000000, .f32⟩
  | 34 => ⟨S_, .f32⟩
  | 35 => ⟨S2000000, .f32⟩
  | 36 => ⟨S2000000, .f32⟩
  | 37 => ⟨S2000000, .f32⟩
  | 38 => ⟨S2000000, .f32⟩
  | 39 => ⟨S2000000, .f32⟩
  | 40 => ⟨S_, .f32⟩
  | 41 => ⟨S2000000, .f32⟩
  | 42 => ⟨S2000000, .i1⟩
  | 43 => ⟨S2000000, .f32⟩
  | 44 => ⟨S2000000, .f32⟩
  | 45 => ⟨S1x6, .f32⟩
  | 46 => ⟨S6, .f32⟩
  | 47 => ⟨S2000000x1, .f32⟩
  | 48 => ⟨S1x6, .f32⟩
  | 49 => ⟨S6, .f32⟩
  | 50 => ⟨S1x6, .f32⟩
  | 51 => ⟨S2000000x6, .f32⟩
  | 52 => ⟨S2000000x6, .f32⟩
  | 53 => ⟨S2000000x6, .f32⟩
  | 54 => ⟨S2000000x6, .f32⟩
  | 55 => ⟨S2000000x6, .f32⟩
  | 56 => ⟨S1x6, .f32⟩
  | 57 => ⟨S2000000x6, .f32⟩
  | 58 => ⟨S2000000x6, .f32⟩
  | 59 => ⟨S1x6, .f32⟩
  | 60 => ⟨S6, .f32⟩
  | 61 => ⟨S2000000x1, .f32⟩
  | 62 => ⟨S1x6, .f32⟩
  | 63 => ⟨S6, .f32⟩
  | 64 => ⟨S1x6, .f32⟩
  | 65 => ⟨S2000000x6, .f32⟩
  | 66 => ⟨S2000000x6, .f32⟩
  | 67 => ⟨S2000000x6, .f32⟩
  | 68 => ⟨S2000000x6, .f32⟩
  | 69 => ⟨S2000000x6, .f32⟩
  | 70 => ⟨S2000000x6, .f32⟩
  | 71 => ⟨S2000000x6, .f32⟩
  | 72 => ⟨S2000000x6, .f32⟩
  | 73 => ⟨S2000000x6, .f32⟩
  | 74 => ⟨S2000000x6, .f32⟩
  | 75 => ⟨S2000000x6, .f32⟩
  | 76 => ⟨S1x6, .f32⟩
  | 77 => ⟨S2000000x6, .f32⟩
  | 78 => ⟨S2000000x6, .f32⟩
  | 79 => ⟨S1x6, .f32⟩
  | 80 => ⟨S6, .f32⟩
  | 81 => ⟨S2000000x1, .f32⟩
  | 82 => ⟨S1x6, .f32⟩
  | 83 => ⟨S6, .f32⟩
  | 84 => ⟨S1x6, .f32⟩
  | 85 => ⟨S2000000x6, .f32⟩
  | 86 => ⟨S2000000x6, .f32⟩
  | 87 => ⟨S2000000x6, .f32⟩
  | 88 => ⟨S2000000x6, .f32⟩
  | 89 => ⟨S2000000x6, .f32⟩
  | 90 => ⟨S2000000x6, .f32⟩
  | 91 => ⟨S2000000x6, .f32⟩
  | 92 => ⟨S2000000x6, .f32⟩
  | 93 => ⟨S2000000x6, .f32⟩
  | 94 => ⟨S2000000x6, .f32⟩
  | 95 => ⟨S2000000x6, .f32⟩
  | 96 => ⟨S_, .f32⟩
  | 97 => ⟨S2000000x6, .f32⟩
  | 98 => ⟨S2000000x6, .f32⟩
  | 99 => ⟨S2000000x6, .f32⟩
  | 100 => ⟨S2000000x6, .f32⟩
  | 101 => ⟨S1x6, .f32⟩
  | 102 => ⟨S2000000x6, .f32⟩
  | 103 => ⟨S2000000x6, .f32⟩
  | 104 => ⟨S1x6, .f32⟩
  | 105 => ⟨S6, .f32⟩
  | 106 => ⟨S2000000x1, .f32⟩
  | 107 => ⟨S1x6, .f32⟩
  | 108 => ⟨S6, .f32⟩
  | 109 => ⟨S1x6, .f32⟩
  | 110 => ⟨S2000000x6, .f32⟩
  | 111 => ⟨S2000000x6, .f32⟩
  | 112 => ⟨S2000000x6, .f32⟩
  | 113 => ⟨S2000000x6, .f32⟩
  | 114 => ⟨S2000000x6, .f32⟩
  | 115 => ⟨S2000000x6, .f32⟩
  | 116 => ⟨S2000000x6, .f32⟩
  | 117 => ⟨S2000000x6, .f32⟩
  | 118 => ⟨S2000000x6, .f32⟩
  | 119 => ⟨S2000000x6, .f32⟩
  | 120 => ⟨S2000000x6, .f32⟩
  | 121 => ⟨S_, .f32⟩
  | 122 => ⟨S2000000x6, .f32⟩
  | 123 => ⟨S2000000x6, .f32⟩
  | 124 => ⟨S2000000x6, .f32⟩
  | 125 => ⟨S2000000x6, .f32⟩
  | 126 => ⟨S_, .f32⟩
  | 127 => ⟨S2000000x6, .f32⟩
  | _ => ⟨S500000, .f32⟩

abbrev hbmTy0_1 (i : Nat) : BufTy := match i % 128 with
  | 0 => ⟨S2000000x6, .f32⟩
  | 1 => ⟨S2000000x6, .f32⟩
  | 2 => ⟨S2000000x6, .f32⟩
  | 3 => ⟨S1x6, .f32⟩
  | 4 => ⟨S2000000x6, .f32⟩
  | 5 => ⟨S2000000x6, .f32⟩
  | 6 => ⟨S1x6, .f32⟩
  | 7 => ⟨S6, .f32⟩
  | 8 => ⟨S2000000x1, .f32⟩
  | 9 => ⟨S1x6, .f32⟩
  | 10 => ⟨S6, .f32⟩
  | 11 => ⟨S1x6, .f32⟩
  | 12 => ⟨S2000000x6, .f32⟩
  | 13 => ⟨S2000000x6, .f32⟩
  | 14 => ⟨S2000000x6, .f32⟩
  | 15 => ⟨S2000000x6, .f32⟩
  | 16 => ⟨S2000000x6, .f32⟩
  | 17 => ⟨S2000000x6, .f32⟩
  | 18 => ⟨S2000000x6, .f32⟩
  | 19 => ⟨S2000000x6, .f32⟩
  | 20 => ⟨S2000000x6, .f32⟩
  | 21 => ⟨S2000000x6, .f32⟩
  | 22 => ⟨S2000000x6, .f32⟩
  | 23 => ⟨S_, .f32⟩
  | 24 => ⟨S2000000x6, .f32⟩
  | 25 => ⟨S2000000x6, .f32⟩
  | 26 => ⟨S2000000x6, .f32⟩
  | 27 => ⟨S2000000x6, .f32⟩
  | 28 => ⟨S_, .f32⟩
  | 29 => ⟨S2000000x6, .f32⟩
  | 30 => ⟨S2000000x6, .f32⟩
  | 31 => ⟨S2000000x6, .f32⟩
  | 32 => ⟨S2000000x6, .f32⟩
  | 33 => ⟨S_, .f32⟩
  | 34 => ⟨S2000000x6, .f32⟩
  | 35 => ⟨S2000000x6, .f32⟩
  | 36 => ⟨S2000000x6, .f32⟩
  | 37 => ⟨S2000000x6, .f32⟩
  | 38 => ⟨S1x6, .f32⟩
  | 39 => ⟨S2000000x6, .f32⟩
  | 40 => ⟨S2000000x6, .f32⟩
  | 41 => ⟨S1x6, .f32⟩
  | 42 => ⟨S6, .f32⟩
  | 43 => ⟨S2000000x1, .f32⟩
  | 44 => ⟨S1x6, .f32⟩
  | 45 => ⟨S6, .f32⟩
  | 46 => ⟨S1x6, .f32⟩
  | 47 => ⟨S2000000x6, .f32⟩
  | 48 => ⟨S2000000x6, .f32⟩
  | 49 => ⟨S2000000x6, .f32⟩
  | 50 => ⟨S2000000x6, .f32⟩
  | 51 => ⟨S2000000x6, .f32⟩
  | 52 => ⟨S2000000x6, .f32⟩
  | 53 => ⟨S2000000x6, .f32⟩
  | 54 => ⟨S2000000x6, .f32⟩
  | 55 => ⟨S2000000x6, .f32⟩
  | 56 => ⟨S2000000x6, .f32⟩
  | 57 => ⟨S2000000x6, .f32⟩
  | 58 => ⟨S_, .f32⟩
  | 59 => ⟨S2000000x6, .f32⟩
  | 60 => ⟨S2000000x6, .f32⟩
  | 61 => ⟨S2000000x6, .f32⟩
  | 62 => ⟨S2000000x6, .f32⟩
  | 63 => ⟨S_, .f32⟩
  | 64 => ⟨S2000000x6, .f32⟩
  | 65 => ⟨S2000000x6, .f32⟩
  | 66 => ⟨S2000000x6, .f32⟩
  | 67 => ⟨S2000000x6, .f32⟩
  | 68 => ⟨S_, .f32⟩
  | 69 => ⟨S2000000x6, .f32⟩
  | 70 => ⟨S2000000x6, .f32⟩
  | 71 => ⟨S2000000x6, .f32⟩
  | 72 => ⟨S2000000x6, .f32⟩
  | 73 => ⟨S_, .f32⟩
  | 74 => ⟨S2000000x6, .f32⟩
  | 75 => ⟨S2000000x6, .f32⟩
  | 76 => ⟨S2000000x6, .f32⟩
  | 77 => ⟨S2000000x6, .f32⟩
  | 78 => ⟨S1x6, .f32⟩
  | 79 => ⟨S2000000x6, .f32⟩
  | 80 => ⟨S2000000x6, .f32⟩
  | 81 => ⟨S1x6, .f32⟩
  | 82 => ⟨S6, .f32⟩
  | 83 => ⟨S2000000x1, .f32⟩
  | 84 => ⟨S1x6, .f32⟩
  | 85 => ⟨S6, .f32⟩
  | 86 => ⟨S1x6, .f32⟩
  | 87 => ⟨S2000000x6, .f32⟩
  | 88 => ⟨S2000000x6, .f32⟩
  | 89 => ⟨S2000000x6, .f32⟩
  | 90 => ⟨S2000000x6, .f32⟩
  | 91 => ⟨S2000000x6, .f32⟩
  | 92 => ⟨S2000000x6, .f32⟩
  | 93 => ⟨S2000000x6, .f32⟩
  | 94 => ⟨S2000000x6, .f32⟩
  | 95 => ⟨S2000000x6, .f32⟩
  | 96 => ⟨S2000000x6, .f32⟩
  | 97 => ⟨S2000000x6, .f32⟩
  | 98 => ⟨S_, .f32⟩
  | 99 => ⟨S2000000x6, .f32⟩
  | 100 => ⟨S2000000x6, .f32⟩
  | 101 => ⟨S2000000x6, .f32⟩
  | 102 => ⟨S2000000x6, .f32⟩
  | 103 => ⟨S_, .f32⟩
  | 104 => ⟨S2000000x6, .f32⟩
  | 105 => ⟨S2000000x6, .f32⟩
  | 106 => ⟨S2000000x6, .f32⟩
  | 107 => ⟨S2000000x6, .f32⟩
  | 108 => ⟨S_, .f32⟩
  | 109 => ⟨S2000000x6, .f32⟩
  | 110 => ⟨S2000000x6, .f32⟩
  | 111 => ⟨S2000000x6, .f32⟩
  | 112 => ⟨S2000000x6, .f32⟩
  | 113 => ⟨S_, .f32⟩
  | 114 => ⟨S2000000x6, .f32⟩
  | 115 => ⟨S2000000x6, .f32⟩
  | 116 => ⟨S2000000x6, .f32⟩
  | 117 => ⟨S2000000x6, .f32⟩
  | 118 => ⟨S_, .f32⟩
  | 119 => ⟨S2000000x6, .f32⟩
  | 120 => ⟨S2000000x6, .f32⟩
  | 121 => ⟨S2000000x6, .f32⟩
  | 122 => ⟨S2000000x6, .f32⟩
  | 123 => ⟨S1x6, .f32⟩
  | 124 => ⟨S2000000x6, .f32⟩
  | 125 => ⟨S2000000x6, .f32⟩
  | 126 => ⟨S2000000x1x6, .f32⟩
  | 127 => ⟨S2000000x1x6, .f32⟩
  | _ => ⟨S500000, .f32⟩

abbrev hbmTy0_2 (i : Nat) : BufTy := match i % 128 with
  | 0 => ⟨S2000000x1x6, .f32⟩
  | 1 => ⟨S2000000x1x6, .f32⟩
  | 2 => ⟨S2000000x1x6, .f32⟩
  | 3 => ⟨S2000000x1x6, .f32⟩
  | 4 => ⟨S2000000x1x6, .f32⟩
  | 5 => ⟨S2000000x7x6, .f32⟩
  | 6 => ⟨S2000000, .f32⟩
  | 7 => ⟨S_, .f32⟩
  | 8 => ⟨S2000000, .f32⟩
  | 9 => ⟨S_, .f32⟩
  | 10 => ⟨S2000000, .f32⟩
  | 11 => ⟨S2000000, .f32⟩
  | 12 => ⟨S2000000, .f32⟩
  | 13 => ⟨S_, .f32⟩
  | 14 => ⟨S2000000, .f32⟩
  | 15 => ⟨S2000000, .f32⟩
  | 16 => ⟨S2000000, .f32⟩
  | 17 => ⟨S_, .f32⟩
  | 18 => ⟨S2000000, .f32⟩
  | 19 => ⟨S2000000, .f32⟩
  | 20 => ⟨S_, .f32⟩
  | 21 => ⟨S2000000, .f32⟩
  | 22 => ⟨S2000000, .f32⟩
  | 23 => ⟨S2000000, .f32⟩
  | 24 => ⟨S_, .f32⟩
  | 25 => ⟨S2000000, .f32⟩
  | 26 => ⟨S2000000, .f32⟩
  | 27 => ⟨S2000000, .f32⟩
  | 28 => ⟨S_, .f32⟩
  | 29 => ⟨S2000000, .f32⟩
  | 30 => ⟨S2000000, .f32⟩
  | 31 => ⟨S_, .f32⟩
  | 32 => ⟨S2000000, .f32⟩
  | 33 => ⟨S2000000, .f32⟩
  | 34 => ⟨S2000000, .f32⟩
  | 35 => ⟨S_, .f32⟩
  | 36 => ⟨S2000000, .f32⟩
  | 37 => ⟨S2000000, .f32⟩
  | 38 => ⟨S2000000, .f32⟩
  | 39 => ⟨S_, .f32⟩
  | 40 => ⟨S2000000, .f32⟩
  | 41 => ⟨S2000000, .f32⟩
  | 42 => ⟨S_, .f32⟩
  | 43 => ⟨S2000000, .f32⟩
  | 44 => ⟨S2000000, .f32⟩
  | 45 => ⟨S2000000, .f32⟩
  | 46 => ⟨S_, .f32⟩
  | 47 => ⟨S2000000, .f32⟩
  | 48 => ⟨S2000000, .f32⟩
  | 49 => ⟨S2000000, .f32⟩
  | 50 => ⟨S_, .f32⟩
  | 51 => ⟨S2000000, .f32⟩
  | 52 => ⟨S2000000, .f32⟩
  | 53 => ⟨S_, .f32⟩
  | 54 => ⟨S2000000, .f32⟩
  | 55 => ⟨S2000000, .f32⟩
  | 56 => ⟨S2000000, .f32⟩
  | 57 => ⟨S_, .f32⟩
  | 58 => ⟨S2000000, .f32⟩
  | 59 => ⟨S2000000, .f32⟩
  | 60 => ⟨S2000000, .f32⟩
  | 61 => ⟨S_, .f32⟩
  | 62 => ⟨S2000000, .f32⟩
  | 63 => ⟨S2000000, .f32⟩
  | 64 => ⟨S_, .f32⟩
  | 65 => ⟨S2000000, .f32⟩
  | 66 => ⟨S2000000, .f32⟩
  | 67 => ⟨S_, .f32⟩
  | 68 => ⟨S2000000, .f32⟩
  | 69 => ⟨S2000000, .f32⟩
  | 70 => ⟨S_, .f32⟩
  | 71 => ⟨S2000000, .f32⟩
  | 72 => ⟨S2000000, .f32⟩
  | 73 => ⟨S_, .f32⟩
  | 74 => ⟨S2000000, .f32⟩
  | 75 => ⟨S2000000, .f32⟩
  | 76 => ⟨S_, .f32⟩
  | 77 => ⟨S2000000, .f32⟩
  | 78 => ⟨S2000000, .f32⟩
  | 79 => ⟨S_, .f32⟩
  | 80 => ⟨S2000000, .f32⟩
  | 81 => ⟨S2000000, .f32⟩
  | 82 => ⟨S_, .f32⟩
  | 83 => ⟨S2000000, .f32⟩
  | 84 => ⟨S2000000, .f32⟩
  | 85 => ⟨S2000000x1, .f32⟩
  | 86 => ⟨S2000000x1, .f32⟩
  | 87 => ⟨S2000000x1, .f32⟩
  | 88 => ⟨S2000000x1, .f32⟩
  | 89 => ⟨S2000000x1, .f32⟩
  | 90 => ⟨S2000000x1, .f32⟩
  | 91 => ⟨S2000000x1, .f32⟩
  | 92 => ⟨S2000000x7, .f32⟩
  | 93 => ⟨S2000000x1x1, .f32⟩
  | 94 => ⟨S2000000x7x6, .f32⟩
  | 95 => ⟨S2000000x7x6, .f32⟩
  | 96 => ⟨S2000000x7x1, .f32⟩
  | 97 => ⟨S2000000x7x6, .f32⟩
  | 98 => ⟨S2000000x7x6, .f32⟩
  | _ => ⟨S500000, .f32⟩

abbrev hbmTy (i : Nat) : BufTy := match i / 128 with
  | 0 => hbmTy0_0 i
  | 1 => hbmTy0_1 i
  | 2 => hbmTy0_2 i
  | _ => ⟨S500000, .f32⟩

abbrev bufTy : (tb : Table) → Fin (tcTables nBuf tb) → BufTy
  | .hbm, ⟨i, _⟩ => hbmTy i
  | _, _ => ⟨S500000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_cst_6 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_cst_7 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_cst_8 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_cst_9 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_cst_10 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_cst_11 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_cst_12 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_cst_13 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_cst_14 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_v178 : Ref sig .tc := ⟨.hbm, 200, rfl⟩
abbrev main_cst_15 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_cst_16 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_cst_17 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_cst_18 : Ref sig .tc := ⟨.hbm, 236, rfl⟩
abbrev main_v211 : Ref sig .tc := ⟨.hbm, 237, rfl⟩
abbrev main_v212 : Ref sig .tc := ⟨.hbm, 238, rfl⟩
abbrev main_v213 : Ref sig .tc := ⟨.hbm, 239, rfl⟩
abbrev main_v214 : Ref sig .tc := ⟨.hbm, 240, rfl⟩
abbrev main_cst_19 : Ref sig .tc := ⟨.hbm, 241, rfl⟩
abbrev main_v215 : Ref sig .tc := ⟨.hbm, 242, rfl⟩
abbrev main_v216 : Ref sig .tc := ⟨.hbm, 243, rfl⟩
abbrev main_v217 : Ref sig .tc := ⟨.hbm, 244, rfl⟩
abbrev main_v218 : Ref sig .tc := ⟨.hbm, 245, rfl⟩
abbrev main_cst_20 : Ref sig .tc := ⟨.hbm, 246, rfl⟩
abbrev main_v219 : Ref sig .tc := ⟨.hbm, 247, rfl⟩
abbrev main_v220 : Ref sig .tc := ⟨.hbm, 248, rfl⟩
abbrev main_v221 : Ref sig .tc := ⟨.hbm, 249, rfl⟩
abbrev main_v222 : Ref sig .tc := ⟨.hbm, 250, rfl⟩
abbrev main_v223 : Ref sig .tc := ⟨.hbm, 251, rfl⟩
abbrev main_v224 : Ref sig .tc := ⟨.hbm, 252, rfl⟩
abbrev main_v225 : Ref sig .tc := ⟨.hbm, 253, rfl⟩
abbrev main_v226 : Ref sig .tc := ⟨.hbm, 254, rfl⟩
abbrev main_v227 : Ref sig .tc := ⟨.hbm, 255, rfl⟩
abbrev main_v228 : Ref sig .tc := ⟨.hbm, 256, rfl⟩
abbrev main_v229 : Ref sig .tc := ⟨.hbm, 257, rfl⟩
abbrev main_v230 : Ref sig .tc := ⟨.hbm, 258, rfl⟩
abbrev main_v231 : Ref sig .tc := ⟨.hbm, 259, rfl⟩
abbrev main_v232 : Ref sig .tc := ⟨.hbm, 260, rfl⟩
abbrev main_v233 : Ref sig .tc := ⟨.hbm, 261, rfl⟩
abbrev main_v234 : Ref sig .tc := ⟨.hbm, 262, rfl⟩
abbrev main_cst_21 : Ref sig .tc := ⟨.hbm, 263, rfl⟩
abbrev main_v235 : Ref sig .tc := ⟨.hbm, 264, rfl⟩
abbrev main_cst_22 : Ref sig .tc := ⟨.hbm, 265, rfl⟩
abbrev main_v236 : Ref sig .tc := ⟨.hbm, 266, rfl⟩
abbrev main_v237 : Ref sig .tc := ⟨.hbm, 267, rfl⟩
abbrev main_v238 : Ref sig .tc := ⟨.hbm, 268, rfl⟩
abbrev main_cst_23 : Ref sig .tc := ⟨.hbm, 269, rfl⟩
abbrev main_v239 : Ref sig .tc := ⟨.hbm, 270, rfl⟩
abbrev main_v240 : Ref sig .tc := ⟨.hbm, 271, rfl⟩
abbrev main_v241 : Ref sig .tc := ⟨.hbm, 272, rfl⟩
abbrev main_cst_24 : Ref sig .tc := ⟨.hbm, 273, rfl⟩
abbrev main_v242 : Ref sig .tc := ⟨.hbm, 274, rfl⟩
abbrev main_v243 : Ref sig .tc := ⟨.hbm, 275, rfl⟩
abbrev main_cst_25 : Ref sig .tc := ⟨.hbm, 276, rfl⟩
abbrev main_v244 : Ref sig .tc := ⟨.hbm, 277, rfl⟩
abbrev main_v245 : Ref sig .tc := ⟨.hbm, 278, rfl⟩
abbrev main_v246 : Ref sig .tc := ⟨.hbm, 279, rfl⟩
abbrev main_cst_26 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_cst_27 : Ref sig .tc := ⟨.hbm, 284, rfl⟩
abbrev main_v250 : Ref sig .tc := ⟨.hbm, 285, rfl⟩
abbrev main_v251 : Ref sig .tc := ⟨.hbm, 286, rfl⟩
abbrev main_cst_28 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_cst_29 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_cst_30 : Ref sig .tc := ⟨.hbm, 295, rfl⟩
abbrev main_v258 : Ref sig .tc := ⟨.hbm, 296, rfl⟩
abbrev main_v259 : Ref sig .tc := ⟨.hbm, 297, rfl⟩
abbrev main_cst_31 : Ref sig .tc := ⟨.hbm, 298, rfl⟩
abbrev main_v260 : Ref sig .tc := ⟨.hbm, 299, rfl⟩
abbrev main_v261 : Ref sig .tc := ⟨.hbm, 300, rfl⟩
abbrev main_v262 : Ref sig .tc := ⟨.hbm, 301, rfl⟩
abbrev main_cst_32 : Ref sig .tc := ⟨.hbm, 302, rfl⟩
abbrev main_v263 : Ref sig .tc := ⟨.hbm, 303, rfl⟩
abbrev main_v264 : Ref sig .tc := ⟨.hbm, 304, rfl⟩
abbrev main_v265 : Ref sig .tc := ⟨.hbm, 305, rfl⟩
abbrev main_cst_33 : Ref sig .tc := ⟨.hbm, 306, rfl⟩
abbrev main_v266 : Ref sig .tc := ⟨.hbm, 307, rfl⟩
abbrev main_v267 : Ref sig .tc := ⟨.hbm, 308, rfl⟩
abbrev main_cst_34 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_cst_35 : Ref sig .tc := ⟨.hbm, 313, rfl⟩
abbrev main_v271 : Ref sig .tc := ⟨.hbm, 314, rfl⟩
abbrev main_v272 : Ref sig .tc := ⟨.hbm, 315, rfl⟩
abbrev main_v273 : Ref sig .tc := ⟨.hbm, 316, rfl⟩
abbrev main_cst_36 : Ref sig .tc := ⟨.hbm, 317, rfl⟩
abbrev main_v274 : Ref sig .tc := ⟨.hbm, 318, rfl⟩
abbrev main_v275 : Ref sig .tc := ⟨.hbm, 319, rfl⟩
abbrev main_cst_37 : Ref sig .tc := ⟨.hbm, 320, rfl⟩
abbrev main_v276 : Ref sig .tc := ⟨.hbm, 321, rfl⟩
abbrev main_v277 : Ref sig .tc := ⟨.hbm, 322, rfl⟩
abbrev main_cst_38 : Ref sig .tc := ⟨.hbm, 323, rfl⟩
abbrev main_v278 : Ref sig .tc := ⟨.hbm, 324, rfl⟩
abbrev main_v279 : Ref sig .tc := ⟨.hbm, 325, rfl⟩
abbrev main_cst_39 : Ref sig .tc := ⟨.hbm, 326, rfl⟩
abbrev main_v280 : Ref sig .tc := ⟨.hbm, 327, rfl⟩
abbrev main_v281 : Ref sig .tc := ⟨.hbm, 328, rfl⟩
abbrev main_cst_40 : Ref sig .tc := ⟨.hbm, 329, rfl⟩
abbrev main_v282 : Ref sig .tc := ⟨.hbm, 330, rfl⟩
abbrev main_v283 : Ref sig .tc := ⟨.hbm, 331, rfl⟩
abbrev main_cst_41 : Ref sig .tc := ⟨.hbm, 332, rfl⟩
abbrev main_v284 : Ref sig .tc := ⟨.hbm, 333, rfl⟩
abbrev main_v285 : Ref sig .tc := ⟨.hbm, 334, rfl⟩
abbrev main_cst_42 : Ref sig .tc := ⟨.hbm, 335, rfl⟩
abbrev main_v286 : Ref sig .tc := ⟨.hbm, 336, rfl⟩
abbrev main_v287 : Ref sig .tc := ⟨.hbm, 337, rfl⟩
abbrev main_cst_43 : Ref sig .tc := ⟨.hbm, 338, rfl⟩
abbrev main_v288 : Ref sig .tc := ⟨.hbm, 339, rfl⟩
abbrev main_v289 : Ref sig .tc := ⟨.hbm, 340, rfl⟩
abbrev main_v290 : Ref sig .tc := ⟨.hbm, 341, rfl⟩
abbrev main_v291 : Ref sig .tc := ⟨.hbm, 342, rfl⟩
abbrev main_v292 : Ref sig .tc := ⟨.hbm, 343, rfl⟩
abbrev main_v293 : Ref sig .tc := ⟨.hbm, 344, rfl⟩
abbrev main_v294 : Ref sig .tc := ⟨.hbm, 345, rfl⟩
abbrev main_v295 : Ref sig .tc := ⟨.hbm, 346, rfl⟩
abbrev main_v296 : Ref sig .tc := ⟨.hbm, 347, rfl⟩
abbrev main_v297 : Ref sig .tc := ⟨.hbm, 348, rfl⟩
abbrev main_v298 : Ref sig .tc := ⟨.hbm, 349, rfl⟩
abbrev main_v299 : Ref sig .tc := ⟨.hbm, 350, rfl⟩
abbrev main_v300 : Ref sig .tc := ⟨.hbm, 351, rfl⟩
abbrev main_v301 : Ref sig .tc := ⟨.hbm, 352, rfl⟩
abbrev main_v302 : Ref sig .tc := ⟨.hbm, 353, rfl⟩
abbrev main_v303 : Ref sig .tc := ⟨.hbm, 354, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S7x6_S1x6_0_0 : S7x6.Slices ![0, 0] S1x6
  shapeCasts_S1x6_S6 : S1x6.ShapeCasts S6
  bcast_S6_S1x6_1 : S6.BroadcastsInDim S1x6 (![1] : Fin 1 → Fin S1x6.rank)
  bcast_S2000000x1_S2000000x6_0_1 : S2000000x1.BroadcastsInDim S2000000x6 (![0, 1] : Fin 2 → Fin S2000000x6.rank)
  bcast_S1x6_S2000000x6_0_1 : S1x6.BroadcastsInDim S2000000x6 (![0, 1] : Fin 2 → Fin S2000000x6.rank)
  slices_S7x6_S1x6_1_0 : S7x6.Slices ![1, 0] S1x6
  slices_S7x6_S1x6_2_0 : S7x6.Slices ![2, 0] S1x6
  bcast_S_S2000000x6 : S_.BroadcastsInDim S2000000x6 (![] : Fin 0 → Fin S2000000x6.rank)
  slices_S7x6_S1x6_3_0 : S7x6.Slices ![3, 0] S1x6
  slices_S7x6_S1x6_4_0 : S7x6.Slices ![4, 0] S1x6
  slices_S7x6_S1x6_5_0 : S7x6.Slices ![5, 0] S1x6
  slices_S7x6_S1x6_6_0 : S7x6.Slices ![6, 0] S1x6
  bcast_S2000000x6_S2000000x1x6_0_2 : S2000000x6.BroadcastsInDim S2000000x1x6 (![0, 2] : Fin 2 → Fin S2000000x1x6.rank)
  concatenates_S2000000x1x6_S2000000x1x6_S2000000x1x6_S2000000x1x6_S2000000x1x6_S2000000x1x6_S2000000x1x6_S2000000x7x6_d1 : Shape.Concatenates [S2000000x1x6, S2000000x1x6, S2000000x1x6, S2000000x1x6, S2000000x1x6, S2000000x1x6, S2000000x1x6] S2000000x7x6 1
  concatenates_S2000000x1_S2000000x1_S2000000x1_S2000000x1_S2000000x1_S2000000x1_S2000000x1_S2000000x7_d1 : Shape.Concatenates [S2000000x1, S2000000x1, S2000000x1, S2000000x1, S2000000x1, S2000000x1, S2000000x1] S2000000x7 1
  bcast_S2000000_S2000000x1x1_0 : S2000000.BroadcastsInDim S2000000x1x1 (![0] : Fin 1 → Fin S2000000x1x1.rank)
  bcast_S2000000x1x1_S2000000x7x6_0_1_2 : S2000000x1x1.BroadcastsInDim S2000000x7x6 (![0, 1, 2] : Fin 3 → Fin S2000000x7x6.rank)
  bcast_S2000000x7_S2000000x7x1_0_1 : S2000000x7.BroadcastsInDim S2000000x7x1 (![0, 1] : Fin 2 → Fin S2000000x7x1.rank)
  bcast_S2000000x7x1_S2000000x7x6_0_1_2 : S2000000x7x1.BroadcastsInDim S2000000x7x6 (![0, 1, 2] : Fin 3 → Fin S2000000x7x6.rank)
  gather_S500000_S2000000x1_S2000000_n_0_n_n_0_1_1_wf : GatherDims.WF S500000 S2000000x1 S2000000 [] [0] [] [0] [] 1 ![1]

variable [Facts₀]

def gather_S500000_S2000000x1_S2000000_n_0_n_n_0_1_1 : GatherDims S500000 S2000000x1 S2000000 where
  offsetDims := []
  collapsedSliceDims := [0]
  operandBatchingDims := []
  startIndicesBatchingDims := []
  startIndexMap := [0]
  indexVectorDim := 1
  sliceSizes := ![1]
  wf := gather_S500000_S2000000x1_S2000000_n_0_n_n_0_1_1_wf

class Facts : Prop extends Facts₀ where

variable [Facts]
-- ==== Proof.KBOut.lean ====
/-
  What the kernel body leaves in the output block, as one function of the four input blocks.

  The body reads a block of scaled distances `x0` and of angles `x1` (32768 rows each) and the two 7×6 tables
  `x2` (the Bessel roots) and `x3` (the normalisers), and writes, for each order l = 0 … 6, the 32768×6 slab
  envelope(d) · (N_l · j_l(d · z_l)) · (c_l · P_l(cos θ)) into columns 6l … 6l+5 of the 32768×42 output block.
  `pay l` is slab l as a function of the four inputs; the seven slabs tile the block, so the block after the
  body is the overlay `out` of the seven.
-/
import proofs.«157165_j27994596835747_2_alg».proof.Proof.Gen.Kernel.Skeleton
import Idealize.ShloMosaic.Lib.Pipeline.FrameBody
import Idealize.ShloMosaic.Lib.Writes

set_option maxRecDepth 16384

noncomputable section

namespace Cert.Kernel.Hand

open Idealize.ShloMosaic Idealize.SL.Sem Cert.Kernel Cert.Kernel.Gen

variable {F : FTy → Type} [FloatOps F]

/-- Columns 6l … 6l+5 of the output block, all 32768 rows. -/
abbrev r0 : Rect S32768x42 := Rect.unit (s := S32768x42) ![0, 0] S32768x6.size inb_S32768x42_S32768x6_0_0
abbrev r1 : Rect S32768x42 := Rect.unit (s := S32768x42) ![0, 6] S32768x6.size inb_S32768x42_S32768x6_0_6
abbrev r2 : Rect S32768x42 := Rect.unit (s := S32768x42) ![0, 12] S32768x6.size inb_S32768x42_S32768x6_0_12
abbrev r3 : Rect S32768x42 := Rect.unit (s := S32768x42) ![0, 18] S32768x6.size inb_S32768x42_S32768x6_0_18
abbrev r4 : Rect S32768x42 := Rect.unit (s := S32768x42) ![0, 24] S32768x6.size inb_S32768x42_S32768x6_0_24
abbrev r5 : Rect S32768x42 := Rect.unit (s := S32768x42) ![0, 30] S32768x6.size inb_S32768x42_S32768x6_0_30
abbrev r6 : Rect S32768x42 := Rect.unit (s := S32768x42) ![0, 36] S32768x6.size inb_S32768x42_S32768x6_0_36

/-- The scaled distance, the envelope, cos θ and the Legendre values P_2 … P_6 at cos θ, each a 32768-vector. -/
def dist (x0 : Vec F S32768 .f32) : FVec F S32768 .f32 := k0_pay2 x0
def env (x0 : Vec F S32768 .f32) : FVec F S32768 .f32 := k0_pay3 x0
def cosT (x1 : Vec F S32768 .f32) : FVec F S32768 .f32 := k0_pay4 x1
def leg2 (x1 : Vec F S32768 .f32) : FVec F S32768 .f32 := k0_pay6 x1
def leg3 (x1 : Vec F S32768 .f32) : FVec F S32768 .f32 :=
  k0_pay9 (cosT x1) (k0_pay7 x1) (k0_pay8 (F := F))
def leg4 (x1 : Vec F S32768 .f32) : FVec F S32768 .f32 :=
  k0_pay10 (cosT x1) (leg2 x1) (k0_pay7 x1) (k0_pay8 (F := F))
def leg5 (x1 : Vec F S32768 .f32) : FVec F S32768 .f32 :=
  k0_pay11 (cosT x1) (leg2 x1) (k0_pay7 x1) (k0_pay8 (F := F))
def leg6 (x1 : Vec F S32768 .f32) : FVec F S32768 .f32 :=
  k0_pay12 (cosT x1) (leg2 x1) (k0_pay7 x1) (k0_pay8 (F := F))

/-- Slab l of the output block: envelope · (N_l · j_l(d · z_l)) · (c_l · P_l(cos θ)). -/
def pay0 (x0 x1 : Vec F S32768 .f32) (x2 x3 : Vec F S7x6 .f32) : FVec F S32768x6 .f32 :=
  k0_pay15 (k0_pay13 (dist x0) x2 x3 (env x0)) (k0_pay14 (k0_pay5 (F := F)))
def pay1 (x0 x1 : Vec F S32768 .f32) (x2 x3 : Vec F S7x6 .f32) : FVec F S32768x6 .f32 :=
  k0_pay16 (dist x0) x2 x3 (env x0) (cosT x1)
def pay2 (x0 x1 : Vec F S32768 .f32) (x2 x3 : Vec F S7x6 .f32) : FVec F S32768x6 .f32 :=
  k0_pay19 (env x0) (leg2 x1) (k0_pay17 (dist x0) x2) (k0_pay18 x3)
def pay3 (x0 x1 : Vec F S32768 .f32) (x2 x3 : Vec F S7x6 .f32) : FVec F S32768x6 .f32 :=
  k0_pay20 (dist x0) x2 x3 (env x0) (leg3 x1)
def pay4 (x0 x1 : Vec F S32768 .f32) (x2 x3 : Vec F S7x6 .f32) : FVec F S32768x6 .f32 :=
  k0_pay23 (dist x0) (env x0) (leg4 x1) (k0_pay21 x2) (k0_pay22 x3)
def pay5 (x0 x1 : Vec F S32768 .f32) (x2 x3 : Vec F S7x6 .f32) : FVec F S32768x6 .f32 :=
  k0_pay29 (env x0) (leg5 x1) (k0_pay24 x3) (k0_pay25 (dist x0) x2) (k0_pay26 (dist x0) x2) (k0_pay27 (dist x0) x2)
    (k0_pay28 (dist x0) x2)
def pay6 (x0 x1 : Vec F S32768 .f32) (x2 x3 : Vec F S7x6 .f32) : FVec F S32768x6 .f32 :=
  k0_pay1 (env x0) (leg6 x1) (k0_pay30 x3) (k0_pay31 (dist x0) x2) (k0_pay32 (dist x0) x2) (k0_pay33 (dist x0) x2)

/-- The seven stores of the body, last first. -/
def pieces (x0 x1 : Vec F S32768 .f32) (x2 x3 : Vec F S7x6 .f32) : List (View.Piece (Elt F) S32768x42 .f32) :=
  [⟨r6, pay6 x0 x1 x2 x3⟩, ⟨r5, pay5 x0 x1 x2 x3⟩, ⟨r4, pay4 x0 x1 x2 x3⟩, ⟨r3, pay3 x0 x1 x2 x3⟩,
   ⟨r2, pay2 x0 x1 x2 x3⟩, ⟨r1, pay1 x0 x1 x2 x3⟩, ⟨r0, pay0 x0 x1 x2 x3⟩]

/-- The output block after the body. -/
def out (x0 x1 : Vec F S32768 .f32) (x2 x3 : Vec F S7x6 .f32) : Vec F S32768x42 .f32 :=
  View.canon (pieces x0 x1 x2 x3)

/-- The seven column ranges tile the 42 columns, so the slabs cover the block. -/
theorem cover (x0 x1 : Vec F S32768 .f32) (x2 x3 : Vec F S7x6 .f32) (y : S32768x42.Idx) :
    ∃ pc ∈ pieces x0 x1 x2 x3, y ∈ pc.1.set :=
  View.cover_of_tiled (pieces x0 x1 x2 x3) S32768x6.size (by rfl) y

end Cert.Kernel.Hand

end
-- ==== Proof.KBDat.lean ====
/-
  The proof data of the one pipelined call: what each staging buffer holds after the body at each grid point.

  The distance block and the angle block overhang the arrays at the last grid point; past the arrays' end the
  staging rows hold words nothing names, and the proof data fill those rows with the zero word. The two tables
  are whole blocks. The output buffer holds the body's result `out` of the four.
-/
import proofs.«157165_j27994596835747_2_alg».proof.Proof.KBOut
import proofs.«157165_j27994596835747_2_alg».proof.Proof.Gen.Kernel.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The distance block at point `t` as the body sees it: the rows inside the array, the zero word past its end. -/
def blk0 (c : Dev nD) (t : Fin cfg0.N) : Vec F S32768 .f32 :=
  win0_0.fill (grid0.coords t) (fun _ => FloatOps.ofBits .f32 0#32) (Gen.iblk m c 0 t)
/-- The angle block likewise. -/
def blk1 (c : Dev nD) (t : Fin cfg0.N) : Vec F S32768 .f32 :=
  win0_1.fill (grid0.coords t) (fun _ => FloatOps.ofBits .f32 0#32) (Gen.iblk m c 1 t)

/-- The proof data on core `c`: the arrays as the call finds them; after the body the two clipped input buffers at
    their filled blocks, the two tables at their blocks, the output buffer at the body's result of those. -/
def dats (_ : Fin 1) (c : Dev nD) : Dat τ (Elt F) Unit ℕ (UR sig nD τ) ℕ cfg0 c where
  A w := Gen.V m c (Pipeline.arrRef spec0 w)
  after w t := match w with
    | ⟨0, _⟩ => blk0 m c t
    | ⟨1, _⟩ => blk1 m c t
    | ⟨2, _⟩ => Gen.iblk m c 2 t
    | ⟨3, _⟩ => Gen.iblk m c 3 t
    | ⟨4, _⟩ => out (blk0 m c t) (blk1 m c t) (Gen.iblk m c 2 t) (Gen.iblk m c 3 t)
  Φ _ := Pipeline.ΦA spec0 c
  q _ := fullShare
  owed _ := 0

theorem A_eq (c : Dev nD) (w : Fin cfg0.W) : (dats m 0 c).A w = Gen.V m c (Pipeline.arrRef spec0 w) := by
  dsimp only [dats]

theorem after0_0 (c : Dev nD) (t : Fin cfg0.N) : (dats m 0 c).after 0 t = blk0 m c t := by dsimp only [dats]
theorem after0_1 (c : Dev nD) (t : Fin cfg0.N) : (dats m 0 c).after 1 t = blk1 m c t := by dsimp only [dats]
theorem after0_2 (c : Dev nD) (t : Fin cfg0.N) : (dats m 0 c).after 2 t = Gen.iblk m c 2 t := by dsimp only [dats]
theorem after0_3 (c : Dev nD) (t : Fin cfg0.N) : (dats m 0 c).after 3 t = Gen.iblk m c 3 t := by dsimp only [dats]
theorem after0_4 (c : Dev nD) (t : Fin cfg0.N) :
    (dats m 0 c).after 4 t = out (blk0 m c t) (blk1 m c t) (Gen.iblk m c 2 t) (Gen.iblk m c 3 t) := by dsimp only [dats]

end Cert.Kernel.Hand

end
-- ==== Proof.KBBodyExec.lean ====
/-
  The kernel body as a triple: on whole staging memrefs, the four inputs at read contents and the output at any
  contents, the body runs to the continuation with the inputs as they were and the output block at `out` of them.
-/
import proofs.«157165_j27994596835747_2_alg».proof.Proof.KBOut
import proofs.«157165_j27994596835747_2_alg».proof.Proof.Gen.Kernel.Frame
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body: four whole loads, then seven stores of the slabs (each after a load of the slab nothing reads). -/
theorem sound_kernel (c : Dev nD) (E : Set ℕ) (i : grid0.Coords)
    (arg1 : Memref sig .tc .vmem S32768 .f32) (harg1 : arg1.IsWhole) (arg2 : Memref sig .tc .vmem S32768 .f32) (harg2 : arg2.IsWhole)
    (arg3 : Memref sig .tc .vmem S7x6 .f32) (harg3 : arg3.IsWhole) (arg4 : Memref sig .tc .vmem S7x6 .f32) (harg4 : arg4.IsWhole)
    (arg5 : Memref sig .tc .vmem S32768x42 .f32) (harg5 : arg5.IsWhole)
    (x0 x1 : Vec F S32768 .f32) (x2 x3 : Vec F S7x6 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out x0 x1 x2 x3)) -∗ K ⟨⟩))
      ⊢ wp frame (wpE (defs₀ (F := F)) Variants.none c none) E
          (cc0__mpnn_kernel i arg1 harg1 arg2 harg2 arg3 harg3 arg4 harg4 arg5 harg5) K := by
  simp only [cc0__mpnn_kernel_eq_skeleton]; unfold cc0__mpnn_kernel_skel
  simp only [k0_part1_eq_skeleton, k0_part2_eq_skeleton, k0_part3_eq_skeleton, k0_part4_eq_skeleton,
    k0_part5_eq_skeleton, k0_part6_eq_skeleton]
  unfold k0_part1_skel k0_part2_skel k0_part3_skel k0_part4_skel k0_part5_skel k0_part6_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  have hz1 : (![0] : Fin 1 → Nat) = fun _ => 0 := funext fun a => by fin_cases a; rfl
  have hz2 : (![0, 0] : Fin 2 → Nat) = fun _ => 0 := funext fun a => by fin_cases a <;> rfl
  simp only [View.readAt_eq_ld, View.ld_unit_zero (S := S32768) hz1, View.ld_unit_zero (S := S7x6) hz2]
  exact View.read_writes_eq_canon _ _ _ (cover _ _ _ _)

end Cert.Kernel.Hand

end
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.Spec.lean ====
/-
  The scalar form of the computation: one entry of the result from one scaled distance d, one angle θ, one root z
  and one normaliser n.

  envelope(d) = 1/d − 28 d⁵ + 48 d⁶ − 21 d⁷ for d < 1, and 0 otherwise;
  j_0(x) = sin x / x, j_1(x) = sin x / x² − cos x / x, j_k(x) = (2k−1)/x · j_{k−1}(x) − j_{k−2}(x);
  P_0 = 1, P_1(c) = c, P_k(c) = ((2k−1) c P_{k−1}(c) − (k−1) P_{k−2}(c)) / k;
  entry_l = (envelope(d) · (n · j_l(d z))) · (c_l · P_l(cos θ)), with c_l the single-precision value of √((2l+1)/4π).

  Everything is written with the float operations of an arbitrary instance, in the order in which both programs
  apply them; only the envelope is written twice, once as each program computes it (a selection against a product
  with a 0/1 mask, and two groupings of d⁵), and the two are shown equal over the extended reals.
-/
import Idealize.ShloMosaic.PureOps
import Idealize.ShloMosaic.PureOps.Ideal

noncomputable section

namespace Cert.Spec

open Idealize.ShloMosaic

variable {F : FTy → Type} [FloatOps F]

/-- A single-precision literal. -/
abbrev lit (w : BitVec 32) : F .f32 := FloatOps.ofBits (F := F) .f32 w

/-! ## The spherical Bessel functions by the upward recurrence -/

def sJ0 (x : F .f32) : F .f32 := FloatOps.divf (FloatOps.sin x) x
def sJ1 (x : F .f32) : F .f32 :=
  FloatOps.subf (FloatOps.divf (FloatOps.sin x) (FloatOps.mulf x x)) (FloatOps.divf (FloatOps.cos x) x)
def sJ2 (x : F .f32) : F .f32 := FloatOps.subf (FloatOps.mulf (FloatOps.divf (lit 0x40400000#32) x) (sJ1 x)) (sJ0 x)
def sJ3 (x : F .f32) : F .f32 := FloatOps.subf (FloatOps.mulf (FloatOps.divf (lit 0x40A00000#32) x) (sJ2 x)) (sJ1 x)
def sJ4 (x : F .f32) : F .f32 := FloatOps.subf (FloatOps.mulf (FloatOps.divf (lit 0x40E00000#32) x) (sJ3 x)) (sJ2 x)
def sJ5 (x : F .f32) : F .f32 := FloatOps.subf (FloatOps.mulf (FloatOps.divf (lit 0x41100000#32) x) (sJ4 x)) (sJ3 x)
def sJ6 (x : F .f32) : F .f32 := FloatOps.subf (FloatOps.mulf (FloatOps.divf (lit 0x41300000#32) x) (sJ5 x)) (sJ4 x)

/-! ## The Legendre polynomials by Bonnet's recurrence -/

def sP2 (c : F .f32) : F .f32 :=
  FloatOps.divf (FloatOps.subf (FloatOps.mulf (FloatOps.mulf (lit 0x40400000#32) c) c)
    (FloatOps.mulf (lit 0x3F800000#32) (lit 0x3F800000#32))) (lit 0x40000000#32)
def sP3 (c : F .f32) : F .f32 :=
  FloatOps.divf (FloatOps.subf (FloatOps.mulf (FloatOps.mulf (lit 0x40A00000#32) c) (sP2 c))
    (FloatOps.mulf (lit 0x40000000#32) c)) (lit 0x40400000#32)
def sP4 (c : F .f32) : F .f32 :=
  FloatOps.divf (FloatOps.subf (FloatOps.mulf (FloatOps.mulf (lit 0x40E00000#32) c) (sP3 c))
    (FloatOps.mulf (lit 0x40400000#32) (sP2 c))) (lit 0x40800000#32)
def sP5 (c : F .f32) : F .f32 :=
  FloatOps.divf (FloatOps.subf (FloatOps.mulf (FloatOps.mulf (lit 0x41100000#32) c) (sP4 c))
    (FloatOps.mulf (lit 0x40800000#32) (sP3 c))) (lit 0x40A00000#32)
def sP6 (c : F .f32) : F .f32 :=
  FloatOps.divf (FloatOps.subf (FloatOps.mulf (FloatOps.mulf (lit 0x41300000#32) c) (sP5 c))
    (FloatOps.mulf (lit 0x40A00000#32) (sP4 c))) (lit 0x40C00000#32)

/-! ## The envelope, as each program computes it -/

/-- d⁵ as ((((d·d)·d)·d)·d). -/
def pow5K (d : F .f32) : F .f32 := FloatOps.mulf (FloatOps.mulf (FloatOps.mulf (FloatOps.mulf d d) d) d) d
/-- d⁵ as d·((d·d)·(d·d)). -/
def pow5R (d : F .f32) : F .f32 := FloatOps.mulf d (FloatOps.mulf (FloatOps.mulf d d) (FloatOps.mulf d d))

/-- 1/d − 28 p + 48 p d − 21 p d d, p standing for d⁵. -/
def envPoly (d p : F .f32) : F .f32 :=
  FloatOps.addf (FloatOps.addf (FloatOps.addf (FloatOps.divf (lit 0x3F800000#32) d) (FloatOps.mulf (lit 0xC1E00000#32) p))
    (FloatOps.mulf (FloatOps.mulf (lit 0x42400000#32) p) d))
    (FloatOps.mulf (FloatOps.mulf (FloatOps.mulf (lit 0xC1A80000#32) p) d) d)

/-- The envelope by selection: the polynomial where d < 1, else 0. -/
def envK (d : F .f32) : F .f32 :=
  Scalar.select (FloatOps.cmpf .olt d (lit 0x3F800000#32)) (envPoly d (pow5K d)) (lit 0x00000000#32)

/-- The envelope by a mask: the polynomial times the 0/1 value of (d < 1). -/
def envR (d : F .f32) : F .f32 :=
  FloatOps.mulf (envPoly d (pow5R d)) (FloatOps.uitofp .f32 (FloatOps.cmpf .olt d (lit 0x3F800000#32)))

/-! ## One entry of each of the seven slabs -/

/-- (e · (n · j)) · (k · p): envelope e, normaliser n, radial value j, angular constant k, Legendre value p. -/
def slab (e n j k p : F .f32) : F .f32 := FloatOps.mulf (FloatOps.mulf e (FloatOps.mulf n j)) (FloatOps.mulf k p)

def out0 (e d a z n : F .f32) : F .f32 := slab e n (sJ0 (FloatOps.mulf d z)) (lit 0x3E906EBB#32) (lit 0x3F800000#32)
def out1 (e d a z n : F .f32) : F .f32 := slab e n (sJ1 (FloatOps.mulf d z)) (lit 0x3EFA2A1C#32) (FloatOps.cos a)
def out2 (e d a z n : F .f32) : F .f32 := slab e n (sJ2 (FloatOps.mulf d z)) (lit 0x3F217B01#32) (sP2 (FloatOps.cos a))
def out3 (e d a z n : F .f32) : F .f32 := slab e n (sJ3 (FloatOps.mulf d z)) (lit 0x3F3F10F8#32) (sP3 (FloatOps.cos a))
def out4 (e d a z n : F .f32) : F .f32 := slab e n (sJ4 (FloatOps.mulf d z)) (lit 0x3F58A618#32) (sP4 (FloatOps.cos a))
def out5 (e d a z n : F .f32) : F .f32 := slab e n (sJ5 (FloatOps.mulf d z)) (lit 0x3F6F83A7#32) (sP5 (FloatOps.cos a))
def out6 (e d a z n : F .f32) : F .f32 := slab e n (sJ6 (FloatOps.mulf d z)) (lit 0x3F823092#32) (sP6 (FloatOps.cos a))

end Cert.Spec

end
-- ==== Proof.KBRow.lean ====
/-
  The output block entry by entry.

  Every arithmetic operation of the body acts entry by entry, a column broadcast of a 32768-vector reads row r of it
  at every entry (r, j), and a row of a 7×6 table spread over the 32768 rows reads entry j of that row everywhere.
  So entry (r, j) of slab l is the scalar form of the computation at the scaled distance and the angle of row r
  and at entry (l, j) of the two tables; in particular row r of the output block depends only on row r of the
  distance block and of the angle block.
-/
import proofs.«157165_j27994596835747_2_alg».proof.Proof.KBOut
import proofs.«157165_j27994596835747_2_alg».proof.Proof.LibColumn
import proofs.«157165_j27994596835747_2_alg».proof.Proof.Spec

set_option maxRecDepth 16384

noncomputable section

namespace Cert.Kernel.Hand

open Idealize.ShloMosaic Idealize.SL.Sem Cert.Kernel Cert.Kernel.Gen
open Idealize.ShloMosaic.ValueIdx

variable {F : FTy → Type} [FloatOps F]

/-! ## The layout operations of the body read at an entry -/

/-- A 32768-vector spread over the six columns. -/
abbrev col (v : FVec F S32768 .f32) : FVec F S32768x6 .f32 :=
  broadcastTo S32768x6 (shapeCast S32768x1 v shapeCasts_S32768_S32768x1) broadcasts_S32768x1_S32768x6

/-- Row l of a 7×6 table spread over the 32768 rows. -/
abbrev tab (l : ℕ) (x : Vec F S7x6 .f32) (h : S7x6.Slices ![l, 0] S1x6) : FVec F S32768x6 .f32 :=
  broadcastTo S32768x6 (shapeCast S1x6 (shapeCast S6 (extractStridedSlice S1x6 ![l, 0] x h) shapeCasts_S1x6_S6)
    shapeCasts_S6_S1x6) broadcasts_S1x6_S32768x6

/-- The spread vector reads its row. -/
theorem col_apply (v : FVec F S32768 .f32) (r : Fin 32768) (j : Fin 6) : col v (ix2 r j) = v (ix1 r) :=
  (Cert.Lib.broadcastTo_a1_ab_apply _ _ r j).trans (Cert.Lib.shapeCast_a_a1_apply v _ r 0)

/-- The spread table row reads entry (l, j) of the table. -/
theorem tab_apply (l : ℕ) (hl : l < 7) (x : Vec F S7x6 .f32) (h : S7x6.Slices ![l, 0] S1x6) (r : Fin 32768) (j : Fin 6) :
    tab l x h (ix2 r j) = x (ix2 (⟨l, hl⟩ : Fin 7) j) := by
  refine (broadcastTo_1b_ab_apply _ _ r j).trans ?_
  refine (shapeCast_a_1a_apply _ _ 0 j).trans ?_
  refine (shapeCast_1a_a_apply _ _ j).trans ?_
  refine extractStridedSlice_apply _ x h _ _ fun a => ?_
  match a with
  | ⟨0, _⟩ => show l = l + 0; omega
  | ⟨1, _⟩ => show j.val = 0 + j.val; omega

/-! ## The 32768-vectors -/

theorem dist_apply (x0 : Vec F S32768 .f32) (i : S32768.Idx) : dist x0 i = x0 i := by
  unfold dist k0_pay2
  exact congrFun (shapeCast_self x0 _) i

theorem env_apply (x0 : Vec F S32768 .f32) (i : S32768.Idx) : env x0 i = Cert.Spec.envK (x0 i) := by
  refine Eq.trans (?_ : env x0 i = Cert.Spec.envK (dist x0 i)) (by rw [dist_apply])
  rfl

theorem cosT_apply (x1 : Vec F S32768 .f32) (i : S32768.Idx) : cosT x1 i = FloatOps.cos (x1 i) := rfl
theorem leg2_apply (x1 : Vec F S32768 .f32) (i : S32768.Idx) : leg2 x1 i = Cert.Spec.sP2 (FloatOps.cos (x1 i)) := rfl
theorem leg3_apply (x1 : Vec F S32768 .f32) (i : S32768.Idx) : leg3 x1 i = Cert.Spec.sP3 (FloatOps.cos (x1 i)) := rfl
theorem leg4_apply (x1 : Vec F S32768 .f32) (i : S32768.Idx) : leg4 x1 i = Cert.Spec.sP4 (FloatOps.cos (x1 i)) := rfl
theorem leg5_apply (x1 : Vec F S32768 .f32) (i : S32768.Idx) : leg5 x1 i = Cert.Spec.sP5 (FloatOps.cos (x1 i)) := rfl
theorem leg6_apply (x1 : Vec F S32768 .f32) (i : S32768.Idx) : leg6 x1 i = Cert.Spec.sP6 (FloatOps.cos (x1 i)) := rfl

/-! ## The seven slabs entry by entry -/

section Slabs
variable (x0 x1 : Vec F S32768 .f32) (x2 x3 : Vec F S7x6 .f32) (r : Fin 32768) (j : Fin 6)

theorem pay0_apply : pay0 x0 x1 x2 x3 (ix2 r j)
    = Cert.Spec.out0 (Cert.Spec.envK (x0 (ix1 r))) (x0 (ix1 r)) (x1 (ix1 r)) (x2 (ix2 (⟨0, by omega⟩ : Fin 7) j))
        (x3 (ix2 (⟨0, by omega⟩ : Fin 7) j)) := by
  refine Eq.trans (?_ : _ = Cert.Spec.out0 (col (env x0) (ix2 r j)) (col (dist x0) (ix2 r j)) (x1 (ix1 r))
    (tab 0 x2 slices_S7x6_o0_0_S1x6 (ix2 r j)) (tab 0 x3 slices_S7x6_o0_0_S1x6 (ix2 r j))) ?_
  · rfl
  · rw [col_apply (env x0) r j, col_apply (dist x0) r j, tab_apply 0 (by omega) x2 _ r j, tab_apply 0 (by omega) x3 _ r j,
      env_apply, dist_apply]

theorem pay1_apply : pay1 x0 x1 x2 x3 (ix2 r j)
    = Cert.Spec.out1 (Cert.Spec.envK (x0 (ix1 r))) (x0 (ix1 r)) (x1 (ix1 r)) (x2 (ix2 (⟨1, by omega⟩ : Fin 7) j))
        (x3 (ix2 (⟨1, by omega⟩ : Fin 7) j)) := by
  refine Eq.trans (?_ : _ = Cert.Spec.out1 (col (env x0) (ix2 r j)) (col (dist x0) (ix2 r j)) (col x1 (ix2 r j))
    (tab 1 x2 slices_S7x6_o1_0_S1x6 (ix2 r j)) (tab 1 x3 slices_S7x6_o1_0_S1x6 (ix2 r j))) ?_
  · rfl
  · rw [col_apply (env x0) r j, col_apply (dist x0) r j, col_apply x1 r j, tab_apply 1 (by omega) x2 _ r j,
      tab_apply 1 (by omega) x3 _ r j, env_apply, dist_apply]

theorem pay2_apply : pay2 x0 x1 x2 x3 (ix2 r j)
    = Cert.Spec.out2 (Cert.Spec.envK (x0 (ix1 r))) (x0 (ix1 r)) (x1 (ix1 r)) (x2 (ix2 (⟨2, by omega⟩ : Fin 7) j))
        (x3 (ix2 (⟨2, by omega⟩ : Fin 7) j)) := by
  refine Eq.trans (?_ : _ = Cert.Spec.out2 (col (env x0) (ix2 r j)) (col (dist x0) (ix2 r j)) (col x1 (ix2 r j))
    (tab 2 x2 slices_S7x6_o2_0_S1x6 (ix2 r j)) (tab 2 x3 slices_S7x6_o2_0_S1x6 (ix2 r j))) ?_
  · rfl
  · rw [col_apply (env x0) r j, col_apply (dist x0) r j, col_apply x1 r j, tab_apply 2 (by omega) x2 _ r j,
      tab_apply 2 (by omega) x3 _ r j, env_apply, dist_apply]

theorem pay3_apply : pay3 x0 x1 x2 x3 (ix2 r j)
    = Cert.Spec.out3 (Cert.Spec.envK (x0 (ix1 r))) (x0 (ix1 r)) (x1 (ix1 r)) (x2 (ix2 (⟨3, by omega⟩ : Fin 7) j))
        (x3 (ix2 (⟨3, by omega⟩ : Fin 7) j)) := by
  refine Eq.trans (?_ : _ = Cert.Spec.out3 (col (env x0) (ix2 r j)) (col (dist x0) (ix2 r j)) (col x1 (ix2 r j))
    (tab 3 x2 slices_S7x6_o3_0_S1x6 (ix2 r j)) (tab 3 x3 slices_S7x6_o3_0_S1x6 (ix2 r j))) ?_
  · rfl
  · rw [col_apply (env x0) r j, col_apply (dist x0) r j, col_apply x1 r j, tab_apply 3 (by omega) x2 _ r j,
      tab_apply 3 (by omega) x3 _ r j, env_apply, dist_apply]

theorem pay4_apply : pay4 x0 x1 x2 x3 (ix2 r j)
    = Cert.Spec.out4 (Cert.Spec.envK (x0 (ix1 r))) (x0 (ix1 r)) (x1 (ix1 r)) (x2 (ix2 (⟨4, by omega⟩ : Fin 7) j))
        (x3 (ix2 (⟨4, by omega⟩ : Fin 7) j)) := by
  refine Eq.trans (?_ : _ = Cert.Spec.out4 (col (env x0) (ix2 r j)) (col (dist x0) (ix2 r j)) (col x1 (ix2 r j))
    (tab 4 x2 slices_S7x6_o4_0_S1x6 (ix2 r j)) (tab 4 x3 slices_S7x6_o4_0_S1x6 (ix2 r j))) ?_
  · rfl
  · rw [col_apply (env x0) r j, col_apply (dist x0) r j, col_apply x1 r j, tab_apply 4 (by omega) x2 _ r j,
      tab_apply 4 (by omega) x3 _ r j, env_apply, dist_apply]

theorem pay5_apply : pay5 x0 x1 x2 x3 (ix2 r j)
    = Cert.Spec.out5 (Cert.Spec.envK (x0 (ix1 r))) (x0 (ix1 r)) (x1 (ix1 r)) (x2 (ix2 (⟨5, by omega⟩ : Fin 7) j))
        (x3 (ix2 (⟨5, by omega⟩ : Fin 7) j)) := by
  refine Eq.trans (?_ : _ = Cert.Spec.out5 (col (env x0) (ix2 r j)) (col (dist x0) (ix2 r j)) (col x1 (ix2 r j))
    (tab 5 x2 slices_S7x6_o5_0_S1x6 (ix2 r j)) (tab 5 x3 slices_S7x6_o5_0_S1x6 (ix2 r j))) ?_
  · rfl
  · rw [col_apply (env x0) r j, col_apply (dist x0) r j, col_apply x1 r j, tab_apply 5 (by omega) x2 _ r j,
      tab_apply 5 (by omega) x3 _ r j, env_apply, dist_apply]

theorem pay6_apply : pay6 x0 x1 x2 x3 (ix2 r j)
    = Cert.Spec.out6 (Cert.Spec.envK (x0 (ix1 r))) (x0 (ix1 r)) (x1 (ix1 r)) (x2 (ix2 (⟨6, by omega⟩ : Fin 7) j))
        (x3 (ix2 (⟨6, by omega⟩ : Fin 7) j)) := by
  refine Eq.trans (?_ : _ = Cert.Spec.out6 (col (env x0) (ix2 r j)) (col (dist x0) (ix2 r j)) (col x1 (ix2 r j))
    (tab 6 x2 slices_S7x6_o6_0_S1x6 (ix2 r j)) (tab 6 x3 slices_S7x6_o6_0_S1x6 (ix2 r j))) ?_
  · rfl
  · rw [col_apply (env x0) r j, col_apply (dist x0) r j, col_apply x1 r j, tab_apply 6 (by omega) x2 _ r j,
      tab_apply 6 (by omega) x3 _ r j, env_apply, dist_apply]

end Slabs

/-! ## The slab under each column of the output block -/

/-- A column outside [c, c+6) is not in the block of columns c … c+5. -/
theorem not_mem_cols (c : ℕ) (inb : ∀ a, (![0, c] : Fin 2 → ℕ) a + S32768x6.size a ≤ S32768x42.size a) (r : Fin 32768)
    (q : Fin 42) (h : q.val < c ∨ c + 6 ≤ q.val) :
    (ix2 r q : S32768x42.Idx) ∉ (Rect.unit (s := S32768x42) ![0, c] S32768x6.size inb).set := by
  intro hm
  have h1 : c ≤ q.val ∧ q.val < c + 6 := (Rect.mem_set_unit.mp hm) (1 : Fin 2)
  omega

/-- Entry (r, c + j) of the block is entry (r, j) of the block of columns c … c+5. -/
theorem cols_emb (c : ℕ) (inb : ∀ a, (![0, c] : Fin 2 → ℕ) a + S32768x6.size a ≤ S32768x42.size a) (r : Fin 32768)
    (j : Fin 6) (hq : c + j.val < 42) :
    (ix2 r (⟨c + j.val, hq⟩ : Fin 42) : S32768x42.Idx)
      = (Rect.unit (s := S32768x42) ![0, c] S32768x6.size inb).emb (ix2 r j : S32768x6.Idx) := by
  funext a
  apply Fin.ext
  rw [Rect.emb_apply]
  match a with
  | ⟨0, _⟩ => show r.val = 0 + 1 * r.val; omega
  | ⟨1, _⟩ => show c + j.val = c + 1 * j.val; omega

section SlabSel
variable (x0 x1 : Vec F S32768 .f32) (x2 x3 : Vec F S7x6 .f32) (r : Fin 32768) (j : Fin 6)

theorem out_slab6 : out x0 x1 x2 x3 (ix2 r ⟨6 * 6 + j.val, by omega⟩) = pay6 x0 x1 x2 x3 (ix2 r j) := by
  unfold out pieces
  have e : (ix2 r (⟨6 * 6 + j.val, by omega⟩ : Fin 42) : S32768x42.Idx) = r6.emb (ix2 r j : S32768x6.Idx) :=
    cols_emb 36 _ r j (by omega)
  rw [e]
  exact View.canon_cons_emb r6 _ _ _

theorem out_slab5 : out x0 x1 x2 x3 (ix2 r ⟨6 * 5 + j.val, by omega⟩) = pay5 x0 x1 x2 x3 (ix2 r j) := by
  unfold out pieces
  have n6 : (ix2 r (⟨6 * 5 + j.val, by omega⟩ : Fin 42) : S32768x42.Idx) ∉ (r6 : Rect S32768x42).set :=
    not_mem_cols 36 _ r ⟨6 * 5 + j.val, by omega⟩ (Or.inl (by show 6 * 5 + j.val < 36; omega))
  rw [View.canon_cons_of_not_mem (⟨r6, pay6 x0 x1 x2 x3⟩ : View.Piece (Elt F) S32768x42 .f32) _ n6]
  have e : (ix2 r (⟨6 * 5 + j.val, by omega⟩ : Fin 42) : S32768x42.Idx) = r5.emb (ix2 r j : S32768x6.Idx) :=
    cols_emb 30 _ r j (by omega)
  rw [e]
  exact View.canon_cons_emb r5 _ _ _

theorem out_slab4 : out x0 x1 x2 x3 (ix2 r ⟨6 * 4 + j.val, by omega⟩) = pay4 x0 x1 x2 x3 (ix2 r j) := by
  unfold out pieces
  have n6 : (ix2 r (⟨6 * 4 + j.val, by omega⟩ : Fin 42) : S32768x42.Idx) ∉ (r6 : Rect S32768x42).set :=
    not_mem_cols 36 _ r ⟨6 * 4 + j.val, by omega⟩ (Or.inl (by show 6 * 4 + j.val < 36; omega))
  have n5 : (ix2 r (⟨6 * 4 + j.val, by omega⟩ : Fin 42) : S32768x42.Idx) ∉ (r5 : Rect S32768x42).set :=
    not_mem_cols 30 _ r ⟨6 * 4 + j.val, by omega⟩ (Or.inl (by show 6 * 4 + j.val < 30; omega))
  rw [View.canon_cons_of_not_mem (⟨r6, pay6 x0 x1 x2 x3⟩ : View.Piece (Elt F) S32768x42 .f32) _ n6, View.canon_cons_of_not_mem (⟨r5, pay5 x0 x1 x2 x3⟩ : View.Piece (Elt F) S32768x42 .f32) _ n5]
  have e : (ix2 r (⟨6 * 4 + j.val, by omega⟩ : Fin 42) : S32768x42.Idx) = r4.emb (ix2 r j : S32768x6.Idx) :=
    cols_emb 24 _ r j (by omega)
  rw [e]
  exact View.canon_cons_emb r4 _ _ _

theorem out_slab3 : out x0 x1 x2 x3 (ix2 r ⟨6 * 3 + j.val, by omega⟩) = pay3 x0 x1 x2 x3 (ix2 r j) := by
  unfold out pieces
  have n6 : (ix2 r (⟨6 * 3 + j.val, by omega⟩ : Fin 42) : S32768x42.Idx) ∉ (r6 : Rect S32768x42).set :=
    not_mem_cols 36 _ r ⟨6 * 3 + j.val, by omega⟩ (Or.inl (by show 6 * 3 + j.val < 36; omega))
  have n5 : (ix2 r (⟨6 * 3 + j.val, by omega⟩ : Fin 42) : S32768x42.Idx) ∉ (r5 : Rect S32768x42).set :=
    not_mem_cols 30 _ r ⟨6 * 3 + j.val, by omega⟩ (Or.inl (by show 6 * 3 + j.val < 30; omega))
  have n4 : (ix2 r (⟨6 * 3 + j.val, by omega⟩ : Fin 42) : S32768x42.Idx) ∉ (r4 : Rect S32768x42).set :=
    not_mem_cols 24 _ r ⟨6 * 3 + j.val, by omega⟩ (Or.inl (by show 6 * 3 + j.val < 24; omega))
  rw [View.canon_cons_of_not_mem (⟨r6, pay6 x0 x1 x2 x3⟩ : View.Piece (Elt F) S32768x42 .f32) _ n6, View.canon_cons_of_not_mem (⟨r5, pay5 x0 x1 x2 x3⟩ : View.Piece (Elt F) S32768x42 .f32) _ n5, View.canon_cons_of_not_mem (⟨r4, pay4 x0 x1 x2 x3⟩ : View.Piece (Elt F) S32768x42 .f32) _ n4]
  have e : (ix2 r (⟨6 * 3 + j.val, by omega⟩ : Fin 42) : S32768x42.Idx) = r3.emb (ix2 r j : S32768x6.Idx) :=
    cols_emb 18 _ r j (by omega)
  rw [e]
  exact View.canon_cons_emb r3 _ _ _

theorem out_slab2 : out x0 x1 x2 x3 (ix2 r ⟨6 * 2 + j.val, by omega⟩) = pay2 x0 x1 x2 x3 (ix2 r j) := by
  unfold out pieces
  have n6 : (ix2 r (⟨6 * 2 + j.val, by omega⟩ : Fin 42) : S32768x42.Idx) ∉ (r6 : Rect S32768x42).set :=
    not_mem_cols 36 _ r ⟨6 * 2 + j.val, by omega⟩ (Or.inl (by show 6 * 2 + j.val < 36; omega))
  have n5 : (ix2 r (⟨6 * 2 + j.val, by omega⟩ : Fin 42) : S32768x42.Idx) ∉ (r5 : Rect S32768x42).set :=
    not_mem_cols 30 _ r ⟨6 * 2 + j.val, by omega⟩ (Or.inl (by show 6 * 2 + j.val < 30; omega))
  have n4 : (ix2 r (⟨6 * 2 + j.val, by omega⟩ : Fin 42) : S32768x42.Idx) ∉ (r4 : Rect S32768x42).set :=
    not_mem_cols 24 _ r ⟨6 * 2 + j.val, by omega⟩ (Or.inl (by show 6 * 2 + j.val < 24; omega))
  have n3 : (ix2 r (⟨6 * 2 + j.val, by omega⟩ : Fin 42) : S32768x42.Idx) ∉ (r3 : Rect S32768x42).set :=
    not_mem_cols 18 _ r ⟨6 * 2 + j.val, by omega⟩ (Or.inl (by show 6 * 2 + j.val < 18; omega))
  rw [View.canon_cons_of_not_mem (⟨r6, pay6 x0 x1 x2 x3⟩ : View.Piece (Elt F) S32768x42 .f32) _ n6, View.canon_cons_of_not_mem (⟨r5, pay5 x0 x1 x2 x3⟩ : View.Piece (Elt F) S32768x42 .f32) _ n5, View.canon_cons_of_not_mem (⟨r4, pay4 x0 x1 x2 x3⟩ : View.Piece (Elt F) S32768x42 .f32) _ n4, View.canon_cons_of_not_mem (⟨r3, pay3 x0 x1 x2 x3⟩ : View.Piece (Elt F) S32768x42 .f32) _ n3]
  have e : (ix2 r (⟨6 * 2 + j.val, by omega⟩ : Fin 42) : S32768x42.Idx) = r2.emb (ix2 r j : S32768x6.Idx) :=
    cols_emb 12 _ r j (by omega)
  rw [e]
  exact View.canon_cons_emb r2 _ _ _

theorem out_slab1 : out x0 x1 x2 x3 (ix2 r ⟨6 * 1 + j.val, by omega⟩) = pay1 x0 x1 x2 x3 (ix2 r j) := by
  unfold out pieces
  have n6 : (ix2 r (⟨6 * 1 + j.val, by omega⟩ : Fin 42) : S32768x42.Idx) ∉ (r6 : Rect S32768x42).set :=
    not_mem_cols 36 _ r ⟨6 * 1 + j.val, by omega⟩ (Or.inl (by show 6 * 1 + j.val < 36; omega))
  have n5 : (ix2 r (⟨6 * 1 + j.val, by omega⟩ : Fin 42) : S32768x42.Idx) ∉ (r5 : Rect S32768x42).set :=
    not_mem_cols 30 _ r ⟨6 * 1 + j.val, by omega⟩ (Or.inl (by show 6 * 1 + j.val < 30; omega))
  have n4 : (ix2 r (⟨6 * 1 + j.val, by omega⟩ : Fin 42) : S32768x42.Idx) ∉ (r4 : Rect S32768x42).set :=
    not_mem_cols 24 _ r ⟨6 * 1 + j.val, by omega⟩ (Or.inl (by show 6 * 1 + j.val < 24; omega))
  have n3 : (ix2 r (⟨6 * 1 + j.val, by omega⟩ : Fin 42) : S32768x42.Idx) ∉ (r3 : Rect S32768x42).set :=
    not_mem_cols 18 _ r ⟨6 * 1 + j.val, by omega⟩ (Or.inl (by show 6 * 1 + j.val < 18; omega))
  have n2 : (ix2 r (⟨6 * 1 + j.val, by omega⟩ : Fin 42) : S32768x42.Idx) ∉ (r2 : Rect S32768x42).set :=
    not_mem_cols 12 _ r ⟨6 * 1 + j.val, by omega⟩ (Or.inl (by show 6 * 1 + j.val < 12; omega))
  rw [View.canon_cons_of_not_mem (⟨r6, pay6 x0 x1 x2 x3⟩ : View.Piece (Elt F) S32768x42 .f32) _ n6, View.canon_cons_of_not_mem (⟨r5, pay5 x0 x1 x2 x3⟩ : View.Piece (Elt F) S32768x42 .f32) _ n5, View.canon_cons_of_not_mem (⟨r4, pay4 x0 x1 x2 x3⟩ : View.Piece (Elt F) S32768x42 .f32) _ n4, View.canon_cons_of_not_mem (⟨r3, pay3 x0 x1 x2 x3⟩ : View.Piece (Elt F) S32768x42 .f32) _ n3, View.canon_cons_of_not_mem (⟨r2, pay2 x0 x1 x2 x3⟩ : View.Piece (Elt F) S32768x42 .f32) _ n2]
  have e : (ix2 r (⟨6 * 1 + j.val, by omega⟩ : Fin 42) : S32768x42.Idx) = r1.emb (ix2 r j : S32768x6.Idx) :=
    cols_emb 6 _ r j (by omega)
  rw [e]
  exact View.canon_cons_emb r1 _ _ _

theorem out_slab0 : out x0 x1 x2 x3 (ix2 r ⟨6 * 0 + j.val, by omega⟩) = pay0 x0 x1 x2 x3 (ix2 r j) := by
  unfold out pieces
  have n6 : (ix2 r (⟨6 * 0 + j.val, by omega⟩ : Fin 42) : S32768x42.Idx) ∉ (r6 : Rect S32768x42).set :=
    not_mem_cols 36 _ r ⟨6 * 0 + j.val, by omega⟩ (Or.inl (by show 6 * 0 + j.val < 36; omega))
  have n5 : (ix2 r (⟨6 * 0 + j.val, by omega⟩ : Fin 42) : S32768x42.Idx) ∉ (r5 : Rect S32768x42).set :=
    not_mem_cols 30 _ r ⟨6 * 0 + j.val, by omega⟩ (Or.inl (by show 6 * 0 + j.val < 30; omega))
  have n4 : (ix2 r (⟨6 * 0 + j.val, by omega⟩ : Fin 42) : S32768x42.Idx) ∉ (r4 : Rect S32768x42).set :=
    not_mem_cols 24 _ r ⟨6 * 0 + j.val, by omega⟩ (Or.inl (by show 6 * 0 + j.val < 24; omega))
  have n3 : (ix2 r (⟨6 * 0 + j.val, by omega⟩ : Fin 42) : S32768x42.Idx) ∉ (r3 : Rect S32768x42).set :=
    not_mem_cols 18 _ r ⟨6 * 0 + j.val, by omega⟩ (Or.inl (by show 6 * 0 + j.val < 18; omega))
  have n2 : (ix2 r (⟨6 * 0 + j.val, by omega⟩ : Fin 42) : S32768x42.Idx) ∉ (r2 : Rect S32768x42).set :=
    not_mem_cols 12 _ r ⟨6 * 0 + j.val, by omega⟩ (Or.inl (by show 6 * 0 + j.val < 12; omega))
  have n1 : (ix2 r (⟨6 * 0 + j.val, by omega⟩ : Fin 42) : S32768x42.Idx) ∉ (r1 : Rect S32768x42).set :=
    not_mem_cols 6 _ r ⟨6 * 0 + j.val, by omega⟩ (Or.inl (by show 6 * 0 + j.val < 6; omega))
  rw [View.canon_cons_of_not_mem (⟨r6, pay6 x0 x1 x2 x3⟩ : View.Piece (Elt F) S32768x42 .f32) _ n6, View.canon_cons_of_not_mem (⟨r5, pay5 x0 x1 x2 x3⟩ : View.Piece (Elt F) S32768x42 .f32) _ n5, View.canon_cons_of_not_mem (⟨r4, pay4 x0 x1 x2 x3⟩ : View.Piece (Elt F) S32768x42 .f32) _ n4, View.canon_cons_of_not_mem (⟨r3, pay3 x0 x1 x2 x3⟩ : View.Piece (Elt F) S32768x42 .f32) _ n3, View.canon_cons_of_not_mem (⟨r2, pay2 x0 x1 x2 x3⟩ : View.Piece (Elt F) S32768x42 .f32) _ n2, View.canon_cons_of_not_mem (⟨r1, pay1 x0 x1 x2 x3⟩ : View.Piece (Elt F) S32768x42 .f32) _ n1]
  have e : (ix2 r (⟨6 * 0 + j.val, by omega⟩ : Fin 42) : S32768x42.Idx) = r0.emb (ix2 r j : S32768x6.Idx) :=
    cols_emb 0 _ r j (by omega)
  rw [e]
  exact View.canon_cons_emb r0 _ _ _

end SlabSel

/-! ## Row r of the output block depends only on row r of the two input blocks -/

theorem col_lt (l : ℕ) (hl : l < 7) (j : Fin 6) : 6 * l + j.val < 42 := by
  have := j.isLt
  omega

/-- Row-locality, column 6l + j. -/
theorem out_congr_slab (x0 x0' x1 x1' : Vec F S32768 .f32) (x2 x3 : Vec F S7x6 .f32) (r r' : Fin 32768) (l : ℕ)
    (hl : l < 7) (j : Fin 6) (h0 : x0 (ix1 r) = x0' (ix1 r')) (h1 : x1 (ix1 r) = x1' (ix1 r')) :
    out x0 x1 x2 x3 (ix2 r ⟨6 * l + j.val, col_lt l hl j⟩) = out x0' x1' x2 x3 (ix2 r' ⟨6 * l + j.val, col_lt l hl j⟩) := by
  rcases (by omega : l = 0 ∨ l = 1 ∨ l = 2 ∨ l = 3 ∨ l = 4 ∨ l = 5 ∨ l = 6) with rfl | rfl | rfl | rfl | rfl | rfl | rfl
  · rw [out_slab0, out_slab0, pay0_apply, pay0_apply, h0, h1]
  · rw [out_slab1, out_slab1, pay1_apply, pay1_apply, h0, h1]
  · rw [out_slab2, out_slab2, pay2_apply, pay2_apply, h0, h1]
  · rw [out_slab3, out_slab3, pay3_apply, pay3_apply, h0, h1]
  · rw [out_slab4, out_slab4, pay4_apply, pay4_apply, h0, h1]
  · rw [out_slab5, out_slab5, pay5_apply, pay5_apply, h0, h1]
  · rw [out_slab6, out_slab6, pay6_apply, pay6_apply, h0, h1]

theorem out_congr (x0 x0' x1 x1' : Vec F S32768 .f32) (x2 x3 : Vec F S7x6 .f32) (r r' : Fin 32768) (q : Fin 42)
    (h0 : x0 (ix1 r) = x0' (ix1 r')) (h1 : x1 (ix1 r) = x1' (ix1 r')) :
    out x0 x1 x2 x3 (ix2 r q) = out x0' x1' x2 x3 (ix2 r' q) := by
  have hq := q.isLt
  have key := out_congr_slab x0 x0' x1 x1' x2 x3 r r' (q.val / 6) (by omega) ⟨q.val % 6, Nat.mod_lt _ (by omega)⟩ h0 h1
  have e : (⟨6 * (q.val / 6) + (⟨q.val % 6, Nat.mod_lt _ (by omega)⟩ : Fin 6).val,
      col_lt (q.val / 6) (by omega) ⟨q.val % 6, Nat.mod_lt _ (by omega)⟩⟩ : Fin 42) = q :=
    Fin.ext (by show 6 * (q.val / 6) + q.val % 6 = q.val; omega)
  rw [e] at key
  exact key

end Cert.Kernel.Hand

end
-- ==== Proof.KBBody.lean ====
/-
  The frame run of the kernel: what each staging buffer holds when the body runs at a grid point, the body's
  obligation at every point, and the run of the program around the pipeline.

  The blocks of the two long inputs and of the output overhang their arrays at the last grid point, so their
  transfers move only the rows inside the arrays. A staging buffer's rows past the array's end hold words nothing
  names; the body computes on them too, but a row of the output block depends only on the same row of the two
  input blocks, so on the rows a write-back moves the output block is what it is with those rows at zero.
-/
import proofs.«157165_j27994596835747_2_alg».proof.Proof.KBDat
import proofs.«157165_j27994596835747_2_alg».proof.Proof.KBBodyExec
import proofs.«157165_j27994596835747_2_alg».proof.Proof.KBRow
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Rows a transfer moves -/

/-- Where a transfer moves the index, what the buffer held before the fetch does not matter. -/
theorem fill_congr_moved {sg : RefSig} {G : Pipeline.Grid} (w : Pipeline.Window sg G) {α : Type} (i : G.Coords)
    (d d' : w.block.Idx → α) (g : (w.xblock i).Idx → α) (j : w.block.Idx) (h : w.moved i j = true) :
    w.fill i d g j = w.fill i d' g j := by
  unfold Pipeline.Window.fill; rw [dif_pos h, dif_pos h]

/-- The three clipped windows cut alike along the rows. -/
theorem xsize4_eq0 (i : grid0.Coords) : win0_4.xsize i 0 = win0_0.xsize i 0 := rfl
theorem xsize4_eq1 (i : grid0.Coords) : win0_4.xsize i 0 = win0_1.xsize i 0 := rfl

/-- On the rows the output's write-back moves, the output block depends on the input blocks only on the rows their
    fetches move. -/
theorem cut_out_congr (i : grid0.Coords) (X0 X0' X1 X1' : Vec F S32768 .f32) (z n : Vec F S7x6 .f32)
    (h0 : ∀ j, win0_0.moved i j = true → X0 j = X0' j) (h1 : ∀ j, win0_1.moved i j = true → X1 j = X1' j) :
    win0_4.cut i (out X0 X1 z n) = win0_4.cut i (out X0' X1' z n) := by
  funext j
  show out X0 X1 z n (win0_4.xinj i j) = out X0' X1' z n (win0_4.xinj i j)
  have hr : (j 0).val < 32768 := Nat.lt_of_lt_of_le (j 0).isLt (win0_4.xsize_le i 0)
  have hq : (j 1).val < 42 := Nat.lt_of_lt_of_le (j 1).isLt (win0_4.xsize_le i 1)
  have hy : win0_4.xinj i j = ValueIdx.ix2 (⟨(j 0).val, hr⟩ : Fin 32768) (⟨(j 1).val, hq⟩ : Fin 42) := by
    funext a; match a with | ⟨0, _⟩ => rfl | ⟨1, _⟩ => rfl
  rw [hy]
  refine out_congr X0 X0' X1 X1' z n _ _ _ (h0 _ ?_) (h1 _ ?_)
  · rw [Pipeline.Window.moved_iff]; intro a
    match a with
    | ⟨0, _⟩ => exact (xsize4_eq0 i) ▸ (j 0).isLt
  · rw [Pipeline.Window.moved_iff]; intro a
    match a with
    | ⟨0, _⟩ => exact (xsize4_eq1 i) ▸ (j 0).isLt

variable (m : (ℓ : Loc nD τ sig) → Buf (Elt F) ℓ) (ρ : Dev nD → PrngReg)

/-! ## What the body finds -/

/-- The two long inputs are fetched at every point: the block on the rows inside the array, `d` past them. -/
theorem before0_0 (c : Dev nD) (t : Fin cfg0.N) (d) :
    (dats m 0 c).before 0 t d = win0_0.fill (grid0.coords t) d (Gen.iblk m c 0 t) := by
  unfold Dat.before; rw [if_pos (Gen.fetch0_0 t)]; unfold Dat.fetched Dat.blockOf Gen.iblk; rw [A_eq]
theorem before0_1 (c : Dev nD) (t : Fin cfg0.N) (d) :
    (dats m 0 c).before 1 t d = win0_1.fill (grid0.coords t) d (Gen.iblk m c 1 t) := by
  unfold Dat.before; rw [if_pos (Gen.fetch0_1 t)]; unfold Dat.fetched Dat.blockOf Gen.iblk; rw [A_eq]
/-- The two tables are fetched once and kept. -/
theorem before0_2 (c : Dev nD) (t : Fin cfg0.N) (d) : (dats m 0 c).before 2 t d = Gen.iblk m c 2 t :=
  Gen.before0_2_of m (dats m 0 c) (A_eq m c 2) (after0_2 m c) t d
theorem before0_3 (c : Dev nD) (t : Fin cfg0.N) (d) : (dats m 0 c).before 3 t d = Gen.iblk m c 3 t :=
  Gen.before0_3_of m (dats m 0 c) (A_eq m c 3) (after0_3 m c) t d
/-- The output is written back at every point: its buffer is fresh at each. -/
theorem before0_4 (c : Dev nD) (t : Fin cfg0.N) (d) : (dats m 0 c).before 4 t d = d :=
  (dats m 0 c).before_out_reset 4 rfl t (by
    by_cases h : t.val = 0
    · exact .inl h
    · exact .inr ⟨h, Gen.flush0_4 _⟩) d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the three clipped windows' buffers stated on the rows their transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ (∃ d, owns (c : Thread nD τ) (st0_1 t) fullShare
        ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare
        ((cfg0.win 4).fill (cfg0.grid.coords t) d ((cfg0.win 4).cut (cfg0.grid.coords t) ((dats m 0 c).after 4 t)))))

set_option maxHeartbeats 1000000 in
/-- The body at any point: the inputs' buffers hold their blocks, the clipped ones filled out past the array's end
    with what the buffer held; the body leaves them so and the output's buffer at `out` of them, which on the rows
    the write-back moves is `out` of the zero-filled blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3, before0_4 m c t d4]
  iapply (sound_kernel (F := F) c Set.univ (grid0.coords t) _ _ _ _ _ _ _ _ _ _
    (win0_0.fill (grid0.coords t) d0 (Gen.iblk m c 0 t)) (win0_1.fill (grid0.coords t) d1 (Gen.iblk m c 1 t))
    (Gen.iblk m c 2 t) (Gen.iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  have hx0 : win0_0.cut (grid0.coords t) (blk0 m c t) = Gen.iblk m c 0 t := win0_0.cut_fill _ _ _
  have hx1 : win0_1.cut (grid0.coords t) (blk1 m c t) = Gen.iblk m c 1 t := win0_1.cut_fill _ _ _
  have hx4 : win0_4.fill (grid0.coords t)
        (out (win0_0.fill (grid0.coords t) d0 (Gen.iblk m c 0 t)) (win0_1.fill (grid0.coords t) d1 (Gen.iblk m c 1 t))
          (Gen.iblk m c 2 t) (Gen.iblk m c 3 t))
        (win0_4.cut (grid0.coords t) (out (blk0 m c t) (blk1 m c t) (Gen.iblk m c 2 t) (Gen.iblk m c 3 t)))
      = out (win0_0.fill (grid0.coords t) d0 (Gen.iblk m c 0 t)) (win0_1.fill (grid0.coords t) d1 (Gen.iblk m c 1 t))
          (Gen.iblk m c 2 t) (Gen.iblk m c 3 t) :=
    win0_4.fill_congr_cut _ (cut_out_congr (grid0.coords t) _ (blk0 m c t) _ (blk1 m c t) _ _
      (fun j hj => fill_congr_moved win0_0 (grid0.coords t) d0 _ (Gen.iblk m c 0 t) j hj)
      (fun j hj => fill_congr_moved win0_1 (grid0.coords t) d1 _ (Gen.iblk m c 1 t) j hj))
  isplitl [H0]
  · iexists d0
    change _ ⊢ owns (c : Thread nD τ) (st0_0 t) fullShare
      (win0_0.fill (grid0.coords t) d0 (win0_0.cut (grid0.coords t) (blk0 m c t)))
    rw [hx0]
  isplitl [H1]
  · iexists d1
    change _ ⊢ owns (c : Thread nD τ) (st0_1 t) fullShare
      (win0_1.fill (grid0.coords t) d1 (win0_1.cut (grid0.coords t) (blk1 m c t)))
    rw [hx1]
  isplitl [H2]; · iexact H2
  isplitl [H3]; · iexact H3
  iexists (out (win0_0.fill (grid0.coords t) d0 (Gen.iblk m c 0 t)) (win0_1.fill (grid0.coords t) d1 (Gen.iblk m c 1 t))
          (Gen.iblk m c 2 t) (Gen.iblk m c 3 t))
  change _ ⊢ owns (c : Thread nD τ) (st0_4 t) fullShare (win0_4.fill (grid0.coords t) _
    (win0_4.cut (grid0.coords t) (out (blk0 m c t) (blk1 m c t) (Gen.iblk m c 2 t) (Gen.iblk m c 3 t))))
  rw [hx4]

/-- The body's obligation at every point (no point is idle; windows 0, 1 and 4 are the clipped ones). -/
theorem body_obligation (c : Dev nD) :
    BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the
    program on the TensorCores terminates, and every final state has every array of the pipeline at the contents the
    proof data determine and every other unscoped buffer as the lines after the pipeline leave it. -/
theorem run_main : θ_run defs (onTc (τ := τ) (main (F := F))) (s₀ m ρ)
    (Pipeline.FramePost cfgs (dats m) 0 (Pipeline.afterTail₀ cfgs (dats m) 0 (Gen.V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := Gen.V0 m) (opss := [hostOps1]) (hsub := Gen.sfx_sub) (hfresh := Gen.sfx_fresh)
    (hkeep := Gen.sfx_keeps) (hmain := Gen.hmain m Variants.none) (hA := A_eq m) (hΦ := fun _ _ => rfl)

/-- The frame: the program leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_of m ρ (dats m) (A_eq m) (run_main m ρ)

end Cert.Kernel.Hand

end
-- ==== Proof.KIOut.lean ====
/-
  What the kernel body leaves in the output block, as one function of the four input blocks.

  The body reads a block of scaled distances `x0` and of angles `x1` (32768 rows each) and the two 7×6 tables
  `x2` (the Bessel roots) and `x3` (the normalisers), and writes, for each order l = 0 … 6, the 32768×6 slab
  envelope(d) · (N_l · j_l(d · z_l)) · (c_l · P_l(cos θ)) into columns 6l … 6l+5 of the 32768×42 output block.
  `pay l` is slab l as a function of the four inputs; the seven slabs tile the block, so the block after the
  body is the overlay `out` of the seven.
-/
import proofs.«157165_j27994596835747_2_alg».proof.Proof.Gen.KernelIdeal.Skeleton
import Idealize.ShloMosaic.Lib.Pipeline.FrameBody
import Idealize.ShloMosaic.Lib.Writes

set_option maxRecDepth 16384

noncomputable section

namespace Cert.KernelIdeal.Hand

open Idealize.ShloMosaic Idealize.SL.Sem Cert.KernelIdeal Cert.KernelIdeal.Gen

variable {F : FTy → Type} [FloatOps F]

/-- Columns 6l … 6l+5 of the output block, all 32768 rows. -/
abbrev r0 : Rect S32768x42 := Rect.unit (s := S32768x42) ![0, 0] S32768x6.size inb_S32768x42_S32768x6_0_0
abbrev r1 : Rect S32768x42 := Rect.unit (s := S32768x42) ![0, 6] S32768x6.size inb_S32768x42_S32768x6_0_6
abbrev r2 : Rect S32768x42 := Rect.unit (s := S32768x42) ![0, 12] S32768x6.size inb_S32768x42_S32768x6_0_12
abbrev r3 : Rect S32768x42 := Rect.unit (s := S32768x42) ![0, 18] S32768x6.size inb_S32768x42_S32768x6_0_18
abbrev r4 : Rect S32768x42 := Rect.unit (s := S32768x42) ![0, 24] S32768x6.size inb_S32768x42_S32768x6_0_24
abbrev r5 : Rect S32768x42 := Rect.unit (s := S32768x42) ![0, 30] S32768x6.size inb_S32768x42_S32768x6_0_30
abbrev r6 : Rect S32768x42 := Rect.unit (s := S32768x42) ![0, 36] S32768x6.size inb_S32768x42_S32768x6_0_36

/-- The scaled distance, the envelope, cos θ and the Legendre values P_2 … P_6 at cos θ, each a 32768-vector. -/
def dist (x0 : Vec F S32768 .f32) : FVec F S32768 .f32 := k0_pay2 x0
def env (x0 : Vec F S32768 .f32) : FVec F S32768 .f32 := k0_pay3 x0
def cosT (x1 : Vec F S32768 .f32) : FVec F S32768 .f32 := k0_pay4 x1
def leg2 (x1 : Vec F S32768 .f32) : FVec F S32768 .f32 := k0_pay6 x1
def leg3 (x1 : Vec F S32768 .f32) : FVec F S32768 .f32 :=
  k0_pay9 (cosT x1) (k0_pay7 x1) (k0_pay8 (F := F))
def leg4 (x1 : Vec F S32768 .f32) : FVec F S32768 .f32 :=
  k0_pay10 (cosT x1) (leg2 x1) (k0_pay7 x1) (k0_pay8 (F := F))
def leg5 (x1 : Vec F S32768 .f32) : FVec F S32768 .f32 :=
  k0_pay11 (cosT x1) (leg2 x1) (k0_pay7 x1) (k0_pay8 (F := F))
def leg6 (x1 : Vec F S32768 .f32) : FVec F S32768 .f32 :=
  k0_pay12 (cosT x1) (leg2 x1) (k0_pay7 x1) (k0_pay8 (F := F))

/-- Slab l of the output block: envelope · (N_l · j_l(d · z_l)) · (c_l · P_l(cos θ)). -/
def pay0 (x0 x1 : Vec F S32768 .f32) (x2 x3 : Vec F S7x6 .f32) : FVec F S32768x6 .f32 :=
  k0_pay15 (k0_pay13 (dist x0) x2 x3 (env x0)) (k0_pay14 (k0_pay5 (F := F)))
def pay1 (x0 x1 : Vec F S32768 .f32) (x2 x3 : Vec F S7x6 .f32) : FVec F S32768x6 .f32 :=
  k0_pay16 (dist x0) x2 x3 (env x0) (cosT x1)
def pay2 (x0 x1 : Vec F S32768 .f32) (x2 x3 : Vec F S7x6 .f32) : FVec F S32768x6 .f32 :=
  k0_pay19 (env x0) (leg2 x1) (k0_pay17 (dist x0) x2) (k0_pay18 x3)
def pay3 (x0 x1 : Vec F S32768 .f32) (x2 x3 : Vec F S7x6 .f32) : FVec F S32768x6 .f32 :=
  k0_pay20 (dist x0) x2 x3 (env x0) (leg3 x1)
def pay4 (x0 x1 : Vec F S32768 .f32) (x2 x3 : Vec F S7x6 .f32) : FVec F S32768x6 .f32 :=
  k0_pay23 (dist x0) (env x0) (leg4 x1) (k0_pay21 x2) (k0_pay22 x3)
def pay5 (x0 x1 : Vec F S32768 .f32) (x2 x3 : Vec F S7x6 .f32) : FVec F S32768x6 .f32 :=
  k0_pay29 (env x0) (leg5 x1) (k0_pay24 x3) (k0_pay25 (dist x0) x2) (k0_pay26 (dist x0) x2) (k0_pay27 (dist x0) x2)
    (k0_pay28 (dist x0) x2)
def pay6 (x0 x1 : Vec F S32768 .f32) (x2 x3 : Vec F S7x6 .f32) : FVec F S32768x6 .f32 :=
  k0_pay1 (env x0) (leg6 x1) (k0_pay30 x3) (k0_pay31 (dist x0) x2) (k0_pay32 (dist x0) x2) (k0_pay33 (dist x0) x2)

/-- The seven stores of the body, last first. -/
def pieces (x0 x1 : Vec F S32768 .f32) (x2 x3 : Vec F S7x6 .f32) : List (View.Piece (Elt F) S32768x42 .f32) :=
  [⟨r6, pay6 x0 x1 x2 x3⟩, ⟨r5, pay5 x0 x1 x2 x3⟩, ⟨r4, pay4 x0 x1 x2 x3⟩, ⟨r3, pay3 x0 x1 x2 x3⟩,
   ⟨r2, pay2 x0 x1 x2 x3⟩, ⟨r1, pay1 x0 x1 x2 x3⟩, ⟨r0, pay0 x0 x1 x2 x3⟩]

/-- The output block after the body. -/
def out (x0 x1 : Vec F S32768 .f32) (x2 x3 : Vec F S7x6 .f32) : Vec F S32768x42 .f32 :=
  View.canon (pieces x0 x1 x2 x3)

/-- The seven column ranges tile the 42 columns, so the slabs cover the block. -/
theorem cover (x0 x1 : Vec F S32768 .f32) (x2 x3 : Vec F S7x6 .f32) (y : S32768x42.Idx) :
    ∃ pc ∈ pieces x0 x1 x2 x3, y ∈ pc.1.set :=
  View.cover_of_tiled (pieces x0 x1 x2 x3) S32768x6.size (by rfl) y

end Cert.KernelIdeal.Hand

end
-- ==== Proof.KIDat.lean ====
/-
  The proof data of the one pipelined call: what each staging buffer holds after the body at each grid point.

  The distance block and the angle block overhang the arrays at the last grid point; past the arrays' end the
  staging rows hold words nothing names, and the proof data fill those rows with the zero word. The two tables
  are whole blocks. The output buffer holds the body's result `out` of the four.
-/
import proofs.«157165_j27994596835747_2_alg».proof.Proof.KIOut
import proofs.«157165_j27994596835747_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- The distance block at point `t` as the body sees it: the rows inside the array, the zero word past its end. -/
def blk0 (c : Dev nD) (t : Fin cfg0.N) : Vec F S32768 .f32 :=
  win0_0.fill (grid0.coords t) (fun _ => FloatOps.ofBits .f32 0#32) (Gen.iblk m c 0 t)
/-- The angle block likewise. -/
def blk1 (c : Dev nD) (t : Fin cfg0.N) : Vec F S32768 .f32 :=
  win0_1.fill (grid0.coords t) (fun _ => FloatOps.ofBits .f32 0#32) (Gen.iblk m c 1 t)

/-- The proof data on core `c`: the arrays as the call finds them; after the body the two clipped input buffers at
    their filled blocks, the two tables at their blocks, the output buffer at the body's result of those. -/
def dats (_ : Fin 1) (c : Dev nD) : Dat τ (Elt F) Unit ℕ (UR sig nD τ) ℕ cfg0 c where
  A w := Gen.V m c (Pipeline.arrRef spec0 w)
  after w t := match w with
    | ⟨0, _⟩ => blk0 m c t
    | ⟨1, _⟩ => blk1 m c t
    | ⟨2, _⟩ => Gen.iblk m c 2 t
    | ⟨3, _⟩ => Gen.iblk m c 3 t
    | ⟨4, _⟩ => out (blk0 m c t) (blk1 m c t) (Gen.iblk m c 2 t) (Gen.iblk m c 3 t)
  Φ _ := Pipeline.ΦA spec0 c
  q _ := fullShare
  owed _ := 0

theorem A_eq (c : Dev nD) (w : Fin cfg0.W) : (dats m 0 c).A w = Gen.V m c (Pipeline.arrRef spec0 w) := by
  dsimp only [dats]

theorem after0_0 (c : Dev nD) (t : Fin cfg0.N) : (dats m 0 c).after 0 t = blk0 m c t := by dsimp only [dats]
theorem after0_1 (c : Dev nD) (t : Fin cfg0.N) : (dats m 0 c).after 1 t = blk1 m c t := by dsimp only [dats]
theorem after0_2 (c : Dev nD) (t : Fin cfg0.N) : (dats m 0 c).after 2 t = Gen.iblk m c 2 t := by dsimp only [dats]
theorem after0_3 (c : Dev nD) (t : Fin cfg0.N) : (dats m 0 c).after 3 t = Gen.iblk m c 3 t := by dsimp only [dats]
theorem after0_4 (c : Dev nD) (t : Fin cfg0.N) :
    (dats m 0 c).after 4 t = out (blk0 m c t) (blk1 m c t) (Gen.iblk m c 2 t) (Gen.iblk m c 3 t) := by dsimp only [dats]

end Cert.KernelIdeal.Hand

end
-- ==== Proof.KIRow.lean ====
/-
  The output block entry by entry.

  Every arithmetic operation of the body acts entry by entry, a column broadcast of a 32768-vector reads row r of it
  at every entry (r, j), and a row of a 7×6 table spread over the 32768 rows reads entry j of that row everywhere.
  So entry (r, j) of slab l is the scalar form of the computation at the scaled distance and the angle of row r
  and at entry (l, j) of the two tables; in particular row r of the output block depends only on row r of the
  distance block and of the angle block.
-/
import proofs.«157165_j27994596835747_2_alg».proof.Proof.KIOut
import proofs.«157165_j27994596835747_2_alg».proof.Proof.LibColumn
import proofs.«157165_j27994596835747_2_alg».proof.Proof.Spec

set_option maxRecDepth 16384

noncomputable section

namespace Cert.KernelIdeal.Hand

open Idealize.ShloMosaic Idealize.SL.Sem Cert.KernelIdeal Cert.KernelIdeal.Gen
open Idealize.ShloMosaic.ValueIdx

variable {F : FTy → Type} [FloatOps F]

/-! ## The layout operations of the body read at an entry -/

/-- A 32768-vector spread over the six columns. -/
abbrev col (v : FVec F S32768 .f32) : FVec F S32768x6 .f32 :=
  broadcastTo S32768x6 (shapeCast S32768x1 v shapeCasts_S32768_S32768x1) broadcasts_S32768x1_S32768x6

/-- Row l of a 7×6 table spread over the 32768 rows. -/
abbrev tab (l : ℕ) (x : Vec F S7x6 .f32) (h : S7x6.Slices ![l, 0] S1x6) : FVec F S32768x6 .f32 :=
  broadcastTo S32768x6 (shapeCast S1x6 (shapeCast S6 (extractStridedSlice S1x6 ![l, 0] x h) shapeCasts_S1x6_S6)
    shapeCasts_S6_S1x6) broadcasts_S1x6_S32768x6

/-- The spread vector reads its row. -/
theorem col_apply (v : FVec F S32768 .f32) (r : Fin 32768) (j : Fin 6) : col v (ix2 r j) = v (ix1 r) :=
  (Cert.Lib.broadcastTo_a1_ab_apply _ _ r j).trans (Cert.Lib.shapeCast_a_a1_apply v _ r 0)

/-- The spread table row reads entry (l, j) of the table. -/
theorem tab_apply (l : ℕ) (hl : l < 7) (x : Vec F S7x6 .f32) (h : S7x6.Slices ![l, 0] S1x6) (r : Fin 32768) (j : Fin 6) :
    tab l x h (ix2 r j) = x (ix2 (⟨l, hl⟩ : Fin 7) j) := by
  refine (broadcastTo_1b_ab_apply _ _ r j).trans ?_
  refine (shapeCast_a_1a_apply _ _ 0 j).trans ?_
  refine (shapeCast_1a_a_apply _ _ j).trans ?_
  refine extractStridedSlice_apply _ x h _ _ fun a => ?_
  match a with
  | ⟨0, _⟩ => show l = l + 0; omega
  | ⟨1, _⟩ => show j.val = 0 + j.val; omega

/-! ## The 32768-vectors -/

theorem dist_apply (x0 : Vec F S32768 .f32) (i : S32768.Idx) : dist x0 i = x0 i := by
  unfold dist k0_pay2
  exact congrFun (shapeCast_self x0 _) i

theorem env_apply (x0 : Vec F S32768 .f32) (i : S32768.Idx) : env x0 i = Cert.Spec.envK (x0 i) := by
  refine Eq.trans (?_ : env x0 i = Cert.Spec.envK (dist x0 i)) (by rw [dist_apply])
  rfl

theorem cosT_apply (x1 : Vec F S32768 .f32) (i : S32768.Idx) : cosT x1 i = FloatOps.cos (x1 i) := rfl
theorem leg2_apply (x1 : Vec F S32768 .f32) (i : S32768.Idx) : leg2 x1 i = Cert.Spec.sP2 (FloatOps.cos (x1 i)) := rfl
theorem leg3_apply (x1 : Vec F S32768 .f32) (i : S32768.Idx) : leg3 x1 i = Cert.Spec.sP3 (FloatOps.cos (x1 i)) := rfl
theorem leg4_apply (x1 : Vec F S32768 .f32) (i : S32768.Idx) : leg4 x1 i = Cert.Spec.sP4 (FloatOps.cos (x1 i)) := rfl
theorem leg5_apply (x1 : Vec F S32768 .f32) (i : S32768.Idx) : leg5 x1 i = Cert.Spec.sP5 (FloatOps.cos (x1 i)) := rfl
theorem leg6_apply (x1 : Vec F S32768 .f32) (i : S32768.Idx) : leg6 x1 i = Cert.Spec.sP6 (FloatOps.cos (x1 i)) := rfl

/-! ## The seven slabs entry by entry -/

section Slabs
variable (x0 x1 : Vec F S32768 .f32) (x2 x3 : Vec F S7x6 .f32) (r : Fin 32768) (j : Fin 6)

theorem pay0_apply : pay0 x0 x1 x2 x3 (ix2 r j)
    = Cert.Spec.out0 (Cert.Spec.envK (x0 (ix1 r))) (x0 (ix1 r)) (x1 (ix1 r)) (x2 (ix2 (⟨0, by omega⟩ : Fin 7) j))
        (x3 (ix2 (⟨0, by omega⟩ : Fin 7) j)) := by
  refine Eq.trans (?_ : _ = Cert.Spec.out0 (col (env x0) (ix2 r j)) (col (dist x0) (ix2 r j)) (x1 (ix1 r))
    (tab 0 x2 slices_S7x6_o0_0_S1x6 (ix2 r j)) (tab 0 x3 slices_S7x6_o0_0_S1x6 (ix2 r j))) ?_
  · rfl
  · rw [col_apply (env x0) r j, col_apply (dist x0) r j, tab_apply 0 (by omega) x2 _ r j, tab_apply 0 (by omega) x3 _ r j,
      env_apply, dist_apply]

theorem pay1_apply : pay1 x0 x1 x2 x3 (ix2 r j)
    = Cert.Spec.out1 (Cert.Spec.envK (x0 (ix1 r))) (x0 (ix1 r)) (x1 (ix1 r)) (x2 (ix2 (⟨1, by omega⟩ : Fin 7) j))
        (x3 (ix2 (⟨1, by omega⟩ : Fin 7) j)) := by
  refine Eq.trans (?_ : _ = Cert.Spec.out1 (col (env x0) (ix2 r j)) (col (dist x0) (ix2 r j)) (col x1 (ix2 r j))
    (tab 1 x2 slices_S7x6_o1_0_S1x6 (ix2 r j)) (tab 1 x3 slices_S7x6_o1_0_S1x6 (ix2 r j))) ?_
  · rfl
  · rw [col_apply (env x0) r j, col_apply (dist x0) r j, col_apply x1 r j, tab_apply 1 (by omega) x2 _ r j,
      tab_apply 1 (by omega) x3 _ r j, env_apply, dist_apply]

theorem pay2_apply : pay2 x0 x1 x2 x3 (ix2 r j)
    = Cert.Spec.out2 (Cert.Spec.envK (x0 (ix1 r))) (x0 (ix1 r)) (x1 (ix1 r)) (x2 (ix2 (⟨2, by omega⟩ : Fin 7) j))
        (x3 (ix2 (⟨2, by omega⟩ : Fin 7) j)) := by
  refine Eq.trans (?_ : _ = Cert.Spec.out2 (col (env x0) (ix2 r j)) (col (dist x0) (ix2 r j)) (col x1 (ix2 r j))
    (tab 2 x2 slices_S7x6_o2_0_S1x6 (ix2 r j)) (tab 2 x3 slices_S7x6_o2_0_S1x6 (ix2 r j))) ?_
  · rfl
  · rw [col_apply (env x0) r j, col_apply (dist x0) r j, col_apply x1 r j, tab_apply 2 (by omega) x2 _ r j,
      tab_apply 2 (by omega) x3 _ r j, env_apply, dist_apply]

theorem pay3_apply : pay3 x0 x1 x2 x3 (ix2 r j)
    = Cert.Spec.out3 (Cert.Spec.envK (x0 (ix1 r))) (x0 (ix1 r)) (x1 (ix1 r)) (x2 (ix2 (⟨3, by omega⟩ : Fin 7) j))
        (x3 (ix2 (⟨3, by omega⟩ : Fin 7) j)) := by
  refine Eq.trans (?_ : _ = Cert.Spec.out3 (col (env x0) (ix2 r j)) (col (dist x0) (ix2 r j)) (col x1 (ix2 r j))
    (tab 3 x2 slices_S7x6_o3_0_S1x6 (ix2 r j)) (tab 3 x3 slices_S7x6_o3_0_S1x6 (ix2 r j))) ?_
  · rfl
  · rw [col_apply (env x0) r j, col_apply (dist x0) r j, col_apply x1 r j, tab_apply 3 (by omega) x2 _ r j,
      tab_apply 3 (by omega) x3 _ r j, env_apply, dist_apply]

theorem pay4_apply : pay4 x0 x1 x2 x3 (ix2 r j)
    = Cert.Spec.out4 (Cert.Spec.envK (x0 (ix1 r))) (x0 (ix1 r)) (x1 (ix1 r)) (x2 (ix2 (⟨4, by omega⟩ : Fin 7) j))
        (x3 (ix2 (⟨4, by omega⟩ : Fin 7) j)) := by
  refine Eq.trans (?_ : _ = Cert.Spec.out4 (col (env x0) (ix2 r j)) (col (dist x0) (ix2 r j)) (col x1 (ix2 r j))
    (tab 4 x2 slices_S7x6_o4_0_S1x6 (ix2 r j)) (tab 4 x3 slices_S7x6_o4_0_S1x6 (ix2 r j))) ?_
  · rfl
  · rw [col_apply (env x0) r j, col_apply (dist x0) r j, col_apply x1 r j, tab_apply 4 (by omega) x2 _ r j,
      tab_apply 4 (by omega) x3 _ r j, env_apply, dist_apply]

theorem pay5_apply : pay5 x0 x1 x2 x3 (ix2 r j)
    = Cert.Spec.out5 (Cert.Spec.envK (x0 (ix1 r))) (x0 (ix1 r)) (x1 (ix1 r)) (x2 (ix2 (⟨5, by omega⟩ : Fin 7) j))
        (x3 (ix2 (⟨5, by omega⟩ : Fin 7) j)) := by
  refine Eq.trans (?_ : _ = Cert.Spec.out5 (col (env x0) (ix2 r j)) (col (dist x0) (ix2 r j)) (col x1 (ix2 r j))
    (tab 5 x2 slices_S7x6_o5_0_S1x6 (ix2 r j)) (tab 5 x3 slices_S7x6_o5_0_S1x6 (ix2 r j))) ?_
  · rfl
  · rw [col_apply (env x0) r j, col_apply (dist x0) r j, col_apply x1 r j, tab_apply 5 (by omega) x2 _ r j,
      tab_apply 5 (by omega) x3 _ r j, env_apply, dist_apply]

theorem pay6_apply : pay6 x0 x1 x2 x3 (ix2 r j)
    = Cert.Spec.out6 (Cert.Spec.envK (x0 (ix1 r))) (x0 (ix1 r)) (x1 (ix1 r)) (x2 (ix2 (⟨6, by omega⟩ : Fin 7) j))
        (x3 (ix2 (⟨6, by omega⟩ : Fin 7) j)) := by
  refine Eq.trans (?_ : _ = Cert.Spec.out6 (col (env x0) (ix2 r j)) (col (dist x0) (ix2 r j)) (col x1 (ix2 r j))
    (tab 6 x2 slices_S7x6_o6_0_S1x6 (ix2 r j)) (tab 6 x3 slices_S7x6_o6_0_S1x6 (ix2 r j))) ?_
  · rfl
  · rw [col_apply (env x0) r j, col_apply (dist x0) r j, col_apply x1 r j, tab_apply 6 (by omega) x2 _ r j,
      tab_apply 6 (by omega) x3 _ r j, env_apply, dist_apply]

end Slabs

/-! ## The slab under each column of the output block -/

/-- A column outside [c, c+6) is not in the block of columns c … c+5. -/
theorem not_mem_cols (c : ℕ) (inb : ∀ a, (![0, c] : Fin 2 → ℕ) a + S32768x6.size a ≤ S32768x42.size a) (r : Fin 32768)
    (q : Fin 42) (h : q.val < c ∨ c + 6 ≤ q.val) :
    (ix2 r q : S32768x42.Idx) ∉ (Rect.unit (s := S32768x42) ![0, c] S32768x6.size inb).set := by
  intro hm
  have h1 : c ≤ q.val ∧ q.val < c + 6 := (Rect.mem_set_unit.mp hm) (1 : Fin 2)
  omega

/-- Entry (r, c + j) of the block is entry (r, j) of the block of columns c … c+5. -/
theorem cols_emb (c : ℕ) (inb : ∀ a, (![0, c] : Fin 2 → ℕ) a + S32768x6.size a ≤ S32768x42.size a) (r : Fin 32768)
    (j : Fin 6) (hq : c + j.val < 42) :
    (ix2 r (⟨c + j.val, hq⟩ : Fin 42) : S32768x42.Idx)
      = (Rect.unit (s := S32768x42) ![0, c] S32768x6.size inb).emb (ix2 r j : S32768x6.Idx) := by
  funext a
  apply Fin.ext
  rw [Rect.emb_apply]
  match a with
  | ⟨0, _⟩ => show r.val = 0 + 1 * r.val; omega
  | ⟨1, _⟩ => show c + j.val = c + 1 * j.val; omega

section SlabSel
variable (x0 x1 : Vec F S32768 .f32) (x2 x3 : Vec F S7x6 .f32) (r : Fin 32768) (j : Fin 6)

theorem out_slab6 : out x0 x1 x2 x3 (ix2 r ⟨6 * 6 + j.val, by omega⟩) = pay6 x0 x1 x2 x3 (ix2 r j) := by
  unfold out pieces
  have e : (ix2 r (⟨6 * 6 + j.val, by omega⟩ : Fin 42) : S32768x42.Idx) = r6.emb (ix2 r j : S32768x6.Idx) :=
    cols_emb 36 _ r j (by omega)
  rw [e]
  exact View.canon_cons_emb r6 _ _ _

theorem out_slab5 : out x0 x1 x2 x3 (ix2 r ⟨6 * 5 + j.val, by omega⟩) = pay5 x0 x1 x2 x3 (ix2 r j) := by
  unfold out pieces
  have n6 : (ix2 r (⟨6 * 5 + j.val, by omega⟩ : Fin 42) : S32768x42.Idx) ∉ (r6 : Rect S32768x42).set :=
    not_mem_cols 36 _ r ⟨6 * 5 + j.val, by omega⟩ (Or.inl (by show 6 * 5 + j.val < 36; omega))
  rw [View.canon_cons_of_not_mem (⟨r6, pay6 x0 x1 x2 x3⟩ : View.Piece (Elt F) S32768x42 .f32) _ n6]
  have e : (ix2 r (⟨6 * 5 + j.val, by omega⟩ : Fin 42) : S32768x42.Idx) = r5.emb (ix2 r j : S32768x6.Idx) :=
    cols_emb 30 _ r j (by omega)
  rw [e]
  exact View.canon_cons_emb r5 _ _ _

theorem out_slab4 : out x0 x1 x2 x3 (ix2 r ⟨6 * 4 + j.val, by omega⟩) = pay4 x0 x1 x2 x3 (ix2 r j) := by
  unfold out pieces
  have n6 : (ix2 r (⟨6 * 4 + j.val, by omega⟩ : Fin 42) : S32768x42.Idx) ∉ (r6 : Rect S32768x42).set :=
    not_mem_cols 36 _ r ⟨6 * 4 + j.val, by omega⟩ (Or.inl (by show 6 * 4 + j.val < 36; omega))
  have n5 : (ix2 r (⟨6 * 4 + j.val, by omega⟩ : Fin 42) : S32768x42.Idx) ∉ (r5 : Rect S32768x42).set :=
    not_mem_cols 30 _ r ⟨6 * 4 + j.val, by omega⟩ (Or.inl (by show 6 * 4 + j.val < 30; omega))
  rw [View.canon_cons_of_not_mem (⟨r6, pay6 x0 x1 x2 x3⟩ : View.Piece (Elt F) S32768x42 .f32) _ n6, View.canon_cons_of_not_mem (⟨r5, pay5 x0 x1 x2 x3⟩ : View.Piece (Elt F) S32768x42 .f32) _ n5]
  have e : (ix2 r (⟨6 * 4 + j.val, by omega⟩ : Fin 42) : S32768x42.Idx) = r4.emb (ix2 r j : S32768x6.Idx) :=
    cols_emb 24 _ r j (by omega)
  rw [e]
  exact View.canon_cons_emb r4 _ _ _

theorem out_slab3 : out x0 x1 x2 x3 (ix2 r ⟨6 * 3 + j.val, by omega⟩) = pay3 x0 x1 x2 x3 (ix2 r j) := by
  unfold out pieces
  have n6 : (ix2 r (⟨6 * 3 + j.val, by omega⟩ : Fin 42) : S32768x42.Idx) ∉ (r6 : Rect S32768x42).set :=
    not_mem_cols 36 _ r ⟨6 * 3 + j.val, by omega⟩ (Or.inl (by show 6 * 3 + j.val < 36; omega))
  have n5 : (ix2 r (⟨6 * 3 + j.val, by omega⟩ : Fin 42) : S32768x42.Idx) ∉ (r5 : Rect S32768x42).set :=
    not_mem_cols 30 _ r ⟨6 * 3 + j.val, by omega⟩ (Or.inl (by show 6 * 3 + j.val < 30; omega))
  have n4 : (ix2 r (⟨6 * 3 + j.val, by omega⟩ : Fin 42) : S32768x42.Idx) ∉ (r4 : Rect S32768x42).set :=
    not_mem_cols 24 _ r ⟨6 * 3 + j.val, by omega⟩ (Or.inl (by show 6 * 3 + j.val < 24; omega))
  rw [View.canon_cons_of_not_mem (⟨r6, pay6 x0 x1 x2 x3⟩ : View.Piece (Elt F) S32768x42 .f32) _ n6, View.canon_cons_of_not_mem (⟨r5, pay5 x0 x1 x2 x3⟩ : View.Piece (Elt F) S32768x42 .f32) _ n5, View.canon_cons_of_not_mem (⟨r4, pay4 x0 x1 x2 x3⟩ : View.Piece (Elt F) S32768x42 .f32) _ n4]
  have e : (ix2 r (⟨6 * 3 + j.val, by omega⟩ : Fin 42) : S32768x42.Idx) = r3.emb (ix2 r j : S32768x6.Idx) :=
    cols_emb 18 _ r j (by omega)
  rw [e]
  exact View.canon_cons_emb r3 _ _ _

theorem out_slab2 : out x0 x1 x2 x3 (ix2 r ⟨6 * 2 + j.val, by omega⟩) = pay2 x0 x1 x2 x3 (ix2 r j) := by
  unfold out pieces
  have n6 : (ix2 r (⟨6 * 2 + j.val, by omega⟩ : Fin 42) : S32768x42.Idx) ∉ (r6 : Rect S32768x42).set :=
    not_mem_cols 36 _ r ⟨6 * 2 + j.val, by omega⟩ (Or.inl (by show 6 * 2 + j.val < 36; omega))
  have n5 : (ix2 r (⟨6 * 2 + j.val, by omega⟩ : Fin 42) : S32768x42.Idx) ∉ (r5 : Rect S32768x42).set :=
    not_mem_cols 30 _ r ⟨6 * 2 + j.val, by omega⟩ (Or.inl (by show 6 * 2 + j.val < 30; omega))
  have n4 : (ix2 r (⟨6 * 2 + j.val, by omega⟩ : Fin 42) : S32768x42.Idx) ∉ (r4 : Rect S32768x42).set :=
    not_mem_cols 24 _ r ⟨6 * 2 + j.val, by omega⟩ (Or.inl (by show 6 * 2 + j.val < 24; omega))
  have n3 : (ix2 r (⟨6 * 2 + j.val, by omega⟩ : Fin 42) : S32768x42.Idx) ∉ (r3 : Rect S32768x42).set :=
    not_mem_cols 18 _ r ⟨6 * 2 + j.val, by omega⟩ (Or.inl (by show 6 * 2 + j.val < 18; omega))
  rw [View.canon_cons_of_not_mem (⟨r6, pay6 x0 x1 x2 x3⟩ : View.Piece (Elt F) S32768x42 .f32) _ n6, View.canon_cons_of_not_mem (⟨r5, pay5 x0 x1 x2 x3⟩ : View.Piece (Elt F) S32768x42 .f32) _ n5, View.canon_cons_of_not_mem (⟨r4, pay4 x0 x1 x2 x3⟩ : View.Piece (Elt F) S32768x42 .f32) _ n4, View.canon_cons_of_not_mem (⟨r3, pay3 x0 x1 x2 x3⟩ : View.Piece (Elt F) S32768x42 .f32) _ n3]
  have e : (ix2 r (⟨6 * 2 + j.val, by omega⟩ : Fin 42) : S32768x42.Idx) = r2.emb (ix2 r j : S32768x6.Idx) :=
    cols_emb 12 _ r j (by omega)
  rw [e]
  exact View.canon_cons_emb r2 _ _ _

theorem out_slab1 : out x0 x1 x2 x3 (ix2 r ⟨6 * 1 + j.val, by omega⟩) = pay1 x0 x1 x2 x3 (ix2 r j) := by
  unfold out pieces
  have n6 : (ix2 r (⟨6 * 1 + j.val, by omega⟩ : Fin 42) : S32768x42.Idx) ∉ (r6 : Rect S32768x42).set :=
    not_mem_cols 36 _ r ⟨6 * 1 + j.val, by omega⟩ (Or.inl (by show 6 * 1 + j.val < 36; omega))
  have n5 : (ix2 r (⟨6 * 1 + j.val, by omega⟩ : Fin 42) : S32768x42.Idx) ∉ (r5 : Rect S32768x42).set :=
    not_mem_cols 30 _ r ⟨6 * 1 + j.val, by omega⟩ (Or.inl (by show 6 * 1 + j.val < 30; omega))
  have n4 : (ix2 r (⟨6 * 1 + j.val, by omega⟩ : Fin 42) : S32768x42.Idx) ∉ (r4 : Rect S32768x42).set :=
    not_mem_cols 24 _ r ⟨6 * 1 + j.val, by omega⟩ (Or.inl (by show 6 * 1 + j.val < 24; omega))
  have n3 : (ix2 r (⟨6 * 1 + j.val, by omega⟩ : Fin 42) : S32768x42.Idx) ∉ (r3 : Rect S32768x42).set :=
    not_mem_cols 18 _ r ⟨6 * 1 + j.val, by omega⟩ (Or.inl (by show 6 * 1 + j.val < 18; omega))
  have n2 : (ix2 r (⟨6 * 1 + j.val, by omega⟩ : Fin 42) : S32768x42.Idx) ∉ (r2 : Rect S32768x42).set :=
    not_mem_cols 12 _ r ⟨6 * 1 + j.val, by omega⟩ (Or.inl (by show 6 * 1 + j.val < 12; omega))
  rw [View.canon_cons_of_not_mem (⟨r6, pay6 x0 x1 x2 x3⟩ : View.Piece (Elt F) S32768x42 .f32) _ n6, View.canon_cons_of_not_mem (⟨r5, pay5 x0 x1 x2 x3⟩ : View.Piece (Elt F) S32768x42 .f32) _ n5, View.canon_cons_of_not_mem (⟨r4, pay4 x0 x1 x2 x3⟩ : View.Piece (Elt F) S32768x42 .f32) _ n4, View.canon_cons_of_not_mem (⟨r3, pay3 x0 x1 x2 x3⟩ : View.Piece (Elt F) S32768x42 .f32) _ n3, View.canon_cons_of_not_mem (⟨r2, pay2 x0 x1 x2 x3⟩ : View.Piece (Elt F) S32768x42 .f32) _ n2]
  have e : (ix2 r (⟨6 * 1 + j.val, by omega⟩ : Fin 42) : S32768x42.Idx) = r1.emb (ix2 r j : S32768x6.Idx) :=
    cols_emb 6 _ r j (by omega)
  rw [e]
  exact View.canon_cons_emb r1 _ _ _

theorem out_slab0 : out x0 x1 x2 x3 (ix2 r ⟨6 * 0 + j.val, by omega⟩) = pay0 x0 x1 x2 x3 (ix2 r j) := by
  unfold out pieces
  have n6 : (ix2 r (⟨6 * 0 + j.val, by omega⟩ : Fin 42) : S32768x42.Idx) ∉ (r6 : Rect S32768x42).set :=
    not_mem_cols 36 _ r ⟨6 * 0 + j.val, by omega⟩ (Or.inl (by show 6 * 0 + j.val < 36; omega))
  have n5 : (ix2 r (⟨6 * 0 + j.val, by omega⟩ : Fin 42) : S32768x42.Idx) ∉ (r5 : Rect S32768x42).set :=
    not_mem_cols 30 _ r ⟨6 * 0 + j.val, by omega⟩ (Or.inl (by show 6 * 0 + j.val < 30; omega))
  have n4 : (ix2 r (⟨6 * 0 + j.val, by omega⟩ : Fin 42) : S32768x42.Idx) ∉ (r4 : Rect S32768x42).set :=
    not_mem_cols 24 _ r ⟨6 * 0 + j.val, by omega⟩ (Or.inl (by show 6 * 0 + j.val < 24; omega))
  have n3 : (ix2 r (⟨6 * 0 + j.val, by omega⟩ : Fin 42) : S32768x42.Idx) ∉ (r3 : Rect S32768x42).set :=
    not_mem_cols 18 _ r ⟨6 * 0 + j.val, by omega⟩ (Or.inl (by show 6 * 0 + j.val < 18; omega))
  have n2 : (ix2 r (⟨6 * 0 + j.val, by omega⟩ : Fin 42) : S32768x42.Idx) ∉ (r2 : Rect S32768x42).set :=
    not_mem_cols 12 _ r ⟨6 * 0 + j.val, by omega⟩ (Or.inl (by show 6 * 0 + j.val < 12; omega))
  have n1 : (ix2 r (⟨6 * 0 + j.val, by omega⟩ : Fin 42) : S32768x42.Idx) ∉ (r1 : Rect S32768x42).set :=
    not_mem_cols 6 _ r ⟨6 * 0 + j.val, by omega⟩ (Or.inl (by show 6 * 0 + j.val < 6; omega))
  rw [View.canon_cons_of_not_mem (⟨r6, pay6 x0 x1 x2 x3⟩ : View.Piece (Elt F) S32768x42 .f32) _ n6, View.canon_cons_of_not_mem (⟨r5, pay5 x0 x1 x2 x3⟩ : View.Piece (Elt F) S32768x42 .f32) _ n5, View.canon_cons_of_not_mem (⟨r4, pay4 x0 x1 x2 x3⟩ : View.Piece (Elt F) S32768x42 .f32) _ n4, View.canon_cons_of_not_mem (⟨r3, pay3 x0 x1 x2 x3⟩ : View.Piece (Elt F) S32768x42 .f32) _ n3, View.canon_cons_of_not_mem (⟨r2, pay2 x0 x1 x2 x3⟩ : View.Piece (Elt F) S32768x42 .f32) _ n2, View.canon_cons_of_not_mem (⟨r1, pay1 x0 x1 x2 x3⟩ : View.Piece (Elt F) S32768x42 .f32) _ n1]
  have e : (ix2 r (⟨6 * 0 + j.val, by omega⟩ : Fin 42) : S32768x42.Idx) = r0.emb (ix2 r j : S32768x6.Idx) :=
    cols_emb 0 _ r j (by omega)
  rw [e]
  exact View.canon_cons_emb r0 _ _ _

end SlabSel

/-! ## Row r of the output block depends only on row r of the two input blocks -/

theorem col_lt (l : ℕ) (hl : l < 7) (j : Fin 6) : 6 * l + j.val < 42 := by
  have := j.isLt
  omega

/-- Row-locality, column 6l + j. -/
theorem out_congr_slab (x0 x0' x1 x1' : Vec F S32768 .f32) (x2 x3 : Vec F S7x6 .f32) (r r' : Fin 32768) (l : ℕ)
    (hl : l < 7) (j : Fin 6) (h0 : x0 (ix1 r) = x0' (ix1 r')) (h1 : x1 (ix1 r) = x1' (ix1 r')) :
    out x0 x1 x2 x3 (ix2 r ⟨6 * l + j.val, col_lt l hl j⟩) = out x0' x1' x2 x3 (ix2 r' ⟨6 * l + j.val, col_lt l hl j⟩) := by
  rcases (by omega : l = 0 ∨ l = 1 ∨ l = 2 ∨ l = 3 ∨ l = 4 ∨ l = 5 ∨ l = 6) with rfl | rfl | rfl | rfl | rfl | rfl | rfl
  · rw [out_slab0, out_slab0, pay0_apply, pay0_apply, h0, h1]
  · rw [out_slab1, out_slab1, pay1_apply, pay1_apply, h0, h1]
  · rw [out_slab2, out_slab2, pay2_apply, pay2_apply, h0, h1]
  · rw [out_slab3, out_slab3, pay3_apply, pay3_apply, h0, h1]
  · rw [out_slab4, out_slab4, pay4_apply, pay4_apply, h0, h1]
  · rw [out_slab5, out_slab5, pay5_apply, pay5_apply, h0, h1]
  · rw [out_slab6, out_slab6, pay6_apply, pay6_apply, h0, h1]

theorem out_congr (x0 x0' x1 x1' : Vec F S32768 .f32) (x2 x3 : Vec F S7x6 .f32) (r r' : Fin 32768) (q : Fin 42)
    (h0 : x0 (ix1 r) = x0' (ix1 r')) (h1 : x1 (ix1 r) = x1' (ix1 r')) :
    out x0 x1 x2 x3 (ix2 r q) = out x0' x1' x2 x3 (ix2 r' q) := by
  have hq := q.isLt
  have key := out_congr_slab x0 x0' x1 x1' x2 x3 r r' (q.val / 6) (by omega) ⟨q.val % 6, Nat.mod_lt _ (by omega)⟩ h0 h1
  have e : (⟨6 * (q.val / 6) + (⟨q.val % 6, Nat.mod_lt _ (by omega)⟩ : Fin 6).val,
      col_lt (q.val / 6) (by omega) ⟨q.val % 6, Nat.mod_lt _ (by omega)⟩⟩ : Fin 42) = q :=
    Fin.ext (by show 6 * (q.val / 6) + q.val % 6 = q.val; omega)
  rw [e] at key
  exact key

end Cert.KernelIdeal.Hand

end
-- ==== Proof.KIFinal.lean ====
/-
  From blocks to the array: after the pipelined call the output array holds, at row R and column q, the body's
  result computed from the distance and the angle of row R alone.

  A row of the output block depends only on the same row of the two input blocks (row locality), so what a grid
  point writes back — the rows of its block that lie inside the array — is the corresponding block of ONE function
  `Gout` of the whole arrays; the 62 blocks, the last one cut at the array's end, cover all 2,000,000 rows.
-/
import proofs.«157165_j27994596835747_2_alg».proof.Proof.KIDat
import proofs.«157165_j27994596835747_2_alg».proof.Proof.KIRow
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable {F : FTy → Type} [FloatOps F]

variable (m : (ℓ : Loc nD τ sig) → Buf (Elt F) ℓ) (ρ : Dev nD → PrngReg)

/-- The output array as one function of the whole arrays: entry (R, q) is the body's result on the blocks that are
    constantly the distance and the angle of row R, read in row 0. -/
def Gout (D A : Vec F S2000000 .f32) (Z N : Vec F S7x6 .f32) : Vec F S2000000x42 .f32 := fun i =>
  out (fun _ => D (ix1 (⟨(i 0).val, (i 0).isLt⟩ : Fin 2000000))) (fun _ => A (ix1 (⟨(i 0).val, (i 0).isLt⟩ : Fin 2000000))) Z N
    (ix2 (0 : Fin 32768) (⟨(i 1).val, (i 1).isLt⟩ : Fin 42))

theorem Gout_apply (D A : Vec F S2000000 .f32) (Z N : Vec F S7x6 .f32) (R : Fin 2000000) (q : Fin 42) :
    Gout D A Z N (ix2 R q) = out (fun _ => D (ix1 R)) (fun _ => A (ix1 R)) Z N (ix2 (0 : Fin 32768) q) := rfl

/-- The block index maps, decided over the 62 grid points: the distance, angle and output blocks move with the
    point along the rows; the tables do not move. -/
theorem idx_facts : ∀ t : Fin cfg0.N,
    win0_0.index t (0 : Fin 1) = t.val ∧ win0_1.index t (0 : Fin 1) = t.val
    ∧ win0_4.index t (0 : Fin 2) = t.val ∧ win0_4.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The rows of a block that lie inside the arrays: all 32768, but 1152 at the last point; the three moving windows
    are cut alike. -/
theorem xs_facts : ∀ t : Fin cfg0.N,
    win0_0.xsize (grid0.coords t) (0 : Fin 1) = min 32768 (2000000 - t.val * 32768)
    ∧ win0_1.xsize (grid0.coords t) (0 : Fin 1) = min 32768 (2000000 - t.val * 32768)
    ∧ win0_4.xsize (grid0.coords t) (0 : Fin 2) = min 32768 (2000000 - t.val * 32768)
    ∧ win0_4.xsize (grid0.coords t) (1 : Fin 2) = 42 :=
  (by decide +kernel : ∀ t : Fin grid0.N, _)

/-- The table blocks are the whole tables. -/
theorem iblk2_eq (c : Dev nD) (t : Fin cfg0.N) : Gen.iblk m c 2 t = Gen.V m c main_arg3 := by
  obtain ⟨-, -, -, -, e0, e1, -, -⟩ := idx_facts t
  funext k
  unfold Gen.iblk
  rw [View.read_apply]
  refine congrArg (Gen.V m c main_arg3) ?_
  funext a; apply Fin.ext
  match a with
  | ⟨0, _⟩ => show win0_2.index t (0 : Fin 2) * 7 + 1 * (k 0).val = (k 0).val; omega
  | ⟨1, _⟩ => show win0_2.index t (1 : Fin 2) * 6 + 1 * (k 1).val = (k 1).val; omega

theorem iblk3_eq (c : Dev nD) (t : Fin cfg0.N) : Gen.iblk m c 3 t = Gen.V m c main_arg4 := by
  obtain ⟨-, -, -, -, -, -, e0, e1⟩ := idx_facts t
  funext k
  unfold Gen.iblk
  rw [View.read_apply]
  refine congrArg (Gen.V m c main_arg4) ?_
  funext a; apply Fin.ext
  match a with
  | ⟨0, _⟩ => show win0_3.index t (0 : Fin 2) * 7 + 1 * (k 0).val = (k 0).val; omega
  | ⟨1, _⟩ => show win0_3.index t (1 : Fin 2) * 6 + 1 * (k 1).val = (k 1).val; omega

/-- The distance block at point `t`, read at a row inside the array, is the array's row 32768·t + r. -/
theorem blk0_apply (c : Dev nD) (t : Fin cfg0.N) (r : Nat) (hr : r < 32768) (hx : r < win0_0.xsize (grid0.coords t) (0 : Fin 1))
    (hR : t.val * 32768 + r < 2000000) :
    blk0 m c t (ix1 (⟨r, hr⟩ : Fin 32768)) = Gen.V m c main_call0_v10 (ix1 (⟨t.val * 32768 + r, hR⟩ : Fin 2000000)) := by
  obtain ⟨i0, -, -, -, -, -, -, -⟩ := idx_facts t
  let y0 : (win0_0.xblock (grid0.coords t)).Idx := fun a => match a with | ⟨0, _⟩ => ⟨r, hx⟩
  have hi : (ix1 (⟨r, hr⟩ : Fin 32768) : S32768.Idx) = win0_0.xinj (grid0.coords t) y0 := by
    funext a; apply Fin.ext
    match a with
    | ⟨0, _⟩ => rfl
  unfold blk0
  rw [hi, Window.fill_xinj]
  unfold Gen.iblk
  rw [View.read_apply]
  refine congrArg (Gen.V m c main_call0_v10) ?_
  funext a; apply Fin.ext
  match a with
  | ⟨0, _⟩ => show win0_0.index t (0 : Fin 1) * 32768 + 1 * r = t.val * 32768 + r; omega

/-- The angle block likewise. -/
theorem blk1_apply (c : Dev nD) (t : Fin cfg0.N) (r : Nat) (hr : r < 32768) (hx : r < win0_1.xsize (grid0.coords t) (0 : Fin 1))
    (hR : t.val * 32768 + r < 2000000) :
    blk1 m c t (ix1 (⟨r, hr⟩ : Fin 32768)) = Gen.V m c main_arg1 (ix1 (⟨t.val * 32768 + r, hR⟩ : Fin 2000000)) := by
  obtain ⟨-, i1, -, -, -, -, -, -⟩ := idx_facts t
  let y0 : (win0_1.xblock (grid0.coords t)).Idx := fun a => match a with | ⟨0, _⟩ => ⟨r, hx⟩
  have hi : (ix1 (⟨r, hr⟩ : Fin 32768) : S32768.Idx) = win0_1.xinj (grid0.coords t) y0 := by
    funext a; apply Fin.ext
    match a with
    | ⟨0, _⟩ => rfl
  unfold blk1
  rw [hi, Window.fill_xinj]
  unfold Gen.iblk
  rw [View.read_apply]
  refine congrArg (Gen.V m c main_arg1) ?_
  funext a; apply Fin.ext
  match a with
  | ⟨0, _⟩ => show win0_1.index t (0 : Fin 1) * 32768 + 1 * r = t.val * 32768 + r; omega

/-- Row locality at a block: if row r of two blocks holds rows R of the arrays `D`, `A`, the body's result at
    (r, q) is `Gout` at (R, q). -/
theorem out_eq_Gout (b0 b1 : Vec F S32768 .f32) (D A : Vec F S2000000 .f32) (Z N : Vec F S7x6 .f32)
    (r : Fin 32768) (R : Fin 2000000) (q : Fin 42) (h0 : b0 (ix1 r) = D (ix1 R)) (h1 : b1 (ix1 r) = A (ix1 R)) :
    out b0 b1 Z N (ix2 r q) = Gout D A Z N (ix2 R q) := by
  rw [Gout_apply]
  exact out_congr b0 (fun _ => D (ix1 R)) b1 (fun _ => A (ix1 R)) Z N r (0 : Fin 32768) q h0 h1

/-- Reading an array through point `t`'s output block: the array at the block's index. -/
theorem read4_apply (t : Fin cfg0.N) (G : Vec F S2000000x42 .f32) (y : ((cfg0.win 4).xblock (grid0.coords t)).Idx) :
    ((cfg0.win 4).blk t).view.read (Elt F) G y = G (((cfg0.win 4).blk t).view.emb y) := rfl

/-- The part of a block's contents that the write-back moves, at an index. -/
theorem cut4_apply (t : Fin cfg0.N) (X : Vec F S32768x42 .f32) (y : ((cfg0.win 4).xblock (grid0.coords t)).Idx) :
    (cfg0.win 4).cut (grid0.coords t) X y = X (win0_4.xinj (grid0.coords t) y) := rfl

/-- WHAT POINT `t` WRITES BACK is block `t` of `Gout` of the arrays as the call finds them: row r of the block is
    computed from row r of the distance and angle blocks, which inside the array are rows 32768·t + r of the arrays. -/
theorem flushed4_eq (c : Dev nD) (t : Fin cfg0.N) :
    (dats m 0 c).flushed 4 t = ((cfg0.win 4).blk t).view.read (Elt F)
      (Gout (Gen.V m c main_call0_v10) (Gen.V m c main_arg1) (Gen.V m c main_arg3) (Gen.V m c main_arg4)) := by
  show (cfg0.win 4).cut (grid0.coords t) ((dats m 0 c).after 4 t) = _
  rw [after0_4, iblk2_eq, iblk3_eq]
  obtain ⟨i0, i1, i4, i4', -, -, -, -⟩ := idx_facts t
  obtain ⟨s0, s1, s4, s4'⟩ := xs_facts t
  funext y
  have hy0 : (y 0).val < win0_4.xsize (grid0.coords t) (0 : Fin 2) := (y 0).isLt
  have hy1 : (y 1).val < win0_4.xsize (grid0.coords t) (1 : Fin 2) := (y 1).isLt
  have ht : t.val < 62 := t.isLt
  have hr : (y 0).val < 32768 := by omega
  have hq : (y 1).val < 42 := by omega
  have hR : t.val * 32768 + (y 0).val < 2000000 := by omega
  have hx : win0_4.xinj (grid0.coords t) y = ix2 (⟨(y 0).val, hr⟩ : Fin 32768) (⟨(y 1).val, hq⟩ : Fin 42) := by
    funext a; apply Fin.ext
    match a with
    | ⟨0, _⟩ => rfl
    | ⟨1, _⟩ => rfl
  have he : ((cfg0.win 4).blk t).view.emb y
      = ix2 (⟨t.val * 32768 + (y 0).val, hR⟩ : Fin 2000000) (⟨(y 1).val, hq⟩ : Fin 42) := by
    funext a; apply Fin.ext
    match a with
    | ⟨0, _⟩ => show win0_4.index t (0 : Fin 2) * 32768 + 1 * (y 0).val = t.val * 32768 + (y 0).val; omega
    | ⟨1, _⟩ => show win0_4.index t (1 : Fin 2) * 42 + 1 * (y 1).val = (y 1).val; omega
  rw [read4_apply, cut4_apply, hx, he]
  have h0 := blk0_apply m c t (y 0).val hr (by omega) hR
  have h1 := blk1_apply m c t (y 0).val hr (by omega) hR
  generalize Gen.V m c main_call0_v10 = D at h0 ⊢
  generalize Gen.V m c main_arg1 = A at h1 ⊢
  generalize Gen.V m c main_arg3 = Z
  generalize Gen.V m c main_arg4 = N
  generalize blk0 m c t = b0 at h0 ⊢
  generalize blk1 m c t = b1 at h1 ⊢
  exact out_eq_Gout b0 b1 D A Z N (⟨(y 0).val, hr⟩ : Fin 32768) (⟨t.val * 32768 + (y 0).val, hR⟩ : Fin 2000000) (⟨(y 1).val, hq⟩ : Fin 42) h0 h1

/-- An index of the output array is in point `t`'s block iff its row is among the block's rows inside the array. -/
theorem mem_blk4 (t : Fin cfg0.N) (i : S2000000x42.Idx) :
    i ∈ ((cfg0.win 4).blk t).view.set ↔ ∀ a : Fin 2, win0_4.index t a * S32768x42.size a ≤ (i a).val
      ∧ (i a).val < win0_4.index t a * S32768x42.size a + win0_4.xsize (grid0.coords t) a := by
  show i ∈ ((View.whole main_call0_v11).slice (win0_4.rect t)).set ↔ _
  rw [View.set_slice_whole, Rect.mem_set_unit]
  exact Iff.rfl

/-- Every row of the output array is in the block of the point ⌊R / 32768⌋. -/
theorem cover4 (i : S2000000x42.Idx) :
    ∃ t : Fin cfg0.N, (cfg0.win 4).flush t = true ∧ i ∈ ((cfg0.win 4).blk t).view.set := by
  have hi0 : (i 0).val < 2000000 := (i 0).isLt
  have hi1 : (i 1).val < 42 := (i 1).isLt
  have hN : cfg0.N = 62 := Gen.N_0
  let t : Fin cfg0.N := ⟨(i 0).val / 32768, by omega⟩
  obtain ⟨-, -, i4, i4', -, -, -, -⟩ := idx_facts t
  obtain ⟨-, -, s4, s4'⟩ := xs_facts t
  have htv : t.val = (i 0).val / 32768 := rfl
  refine ⟨t, Gen.flush0_4 t, ?_⟩
  rw [mem_blk4]
  intro a
  match a with
  | ⟨0, _⟩ =>
    show win0_4.index t (0 : Fin 2) * 32768 ≤ (i 0).val ∧ (i 0).val < win0_4.index t (0 : Fin 2) * 32768 + win0_4.xsize (grid0.coords t) (0 : Fin 2)
    rw [i4, s4, htv]; omega
  | ⟨1, _⟩ =>
    show win0_4.index t (1 : Fin 2) * 42 ≤ (i 1).val ∧ (i 1).val < win0_4.index t (1 : Fin 2) * 42 + win0_4.xsize (grid0.coords t) (1 : Fin 2)
    rw [i4', s4']; omega

/-- THE OUTPUT ARRAY after the call is `Gout` of the arrays as the call finds them. -/
theorem final4 (c : Dev nD) : (dats m 0 c).arrAt 4 cfg0.N
    = Gout (Gen.V m c main_call0_v10) (Gen.V m c main_arg1) (Gen.V m c main_arg3) (Gen.V m c main_arg4) :=
  (dats m 0 c).arrAt_eq_of_cover 4 _ (fun t _ => flushed4_eq m c t) cover4

end Cert.KernelIdeal.Hand

end
-- ==== Proof.KIBodyExec.lean ====
/-
  The kernel body as a triple: on whole staging memrefs, the four inputs at read contents and the output at any
  contents, the body runs to the continuation with the inputs as they were and the output block at `out` of them.
-/
import proofs.«157165_j27994596835747_2_alg».proof.Proof.KIOut
import proofs.«157165_j27994596835747_2_alg».proof.Proof.Gen.KernelIdeal.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The body: four whole loads, then seven stores of the slabs (each after a load of the slab nothing reads). -/
theorem sound_kernel (c : Dev nD) (E : Set ℕ) (i : grid0.Coords)
    (arg1 : Memref sig .tc .vmem S32768 .f32) (harg1 : arg1.IsWhole) (arg2 : Memref sig .tc .vmem S32768 .f32) (harg2 : arg2.IsWhole)
    (arg3 : Memref sig .tc .vmem S7x6 .f32) (harg3 : arg3.IsWhole) (arg4 : Memref sig .tc .vmem S7x6 .f32) (harg4 : arg4.IsWhole)
    (arg5 : Memref sig .tc .vmem S32768x42 .f32) (harg5 : arg5.IsWhole)
    (x0 x1 : Vec F S32768 .f32) (x2 x3 : Vec F S7x6 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out x0 x1 x2 x3)) -∗ K ⟨⟩))
      ⊢ wp frame (wpE (defs₀ (F := F)) Variants.none c none) E
          (cc0__mpnn_kernel i arg1 harg1 arg2 harg2 arg3 harg3 arg4 harg4 arg5 harg5) K := by
  simp only [cc0__mpnn_kernel_eq_skeleton]; unfold cc0__mpnn_kernel_skel
  simp only [k0_part1_eq_skeleton, k0_part2_eq_skeleton, k0_part3_eq_skeleton, k0_part4_eq_skeleton,
    k0_part5_eq_skeleton, k0_part6_eq_skeleton]
  unfold k0_part1_skel k0_part2_skel k0_part3_skel k0_part4_skel k0_part5_skel k0_part6_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  have hz1 : (![0] : Fin 1 → Nat) = fun _ => 0 := funext fun a => by fin_cases a; rfl
  have hz2 : (![0, 0] : Fin 2 → Nat) = fun _ => 0 := funext fun a => by fin_cases a <;> rfl
  simp only [View.readAt_eq_ld, View.ld_unit_zero (S := S32768) hz1, View.ld_unit_zero (S := S7x6) hz2]
  exact View.read_writes_eq_canon _ _ _ (cover _ _ _ _)

end Cert.KernelIdeal.Hand

end
-- ==== Proof.KIBody.lean ====
/-
  The frame run of the kernel: what each staging buffer holds when the body runs at a grid point, the body's
  obligation at every point, and the run of the program around the pipeline.

  The blocks of the two long inputs and of the output overhang their arrays at the last grid point, so their
  transfers move only the rows inside the arrays. A staging buffer's rows past the array's end hold words nothing
  names; the body computes on them too, but a row of the output block depends only on the same row of the two
  input blocks, so on the rows a write-back moves the output block is what it is with those rows at zero.
-/
import proofs.«157165_j27994596835747_2_alg».proof.Proof.KIDat
import proofs.«157165_j27994596835747_2_alg».proof.Proof.KIBodyExec
import proofs.«157165_j27994596835747_2_alg».proof.Proof.KIRow
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Rows a transfer moves -/

/-- Where a transfer moves the index, what the buffer held before the fetch does not matter. -/
theorem fill_congr_moved {sg : RefSig} {G : Pipeline.Grid} (w : Pipeline.Window sg G) {α : Type} (i : G.Coords)
    (d d' : w.block.Idx → α) (g : (w.xblock i).Idx → α) (j : w.block.Idx) (h : w.moved i j = true) :
    w.fill i d g j = w.fill i d' g j := by
  unfold Pipeline.Window.fill; rw [dif_pos h, dif_pos h]

/-- The three clipped windows cut alike along the rows. -/
theorem xsize4_eq0 (i : grid0.Coords) : win0_4.xsize i 0 = win0_0.xsize i 0 := rfl
theorem xsize4_eq1 (i : grid0.Coords) : win0_4.xsize i 0 = win0_1.xsize i 0 := rfl

/-- On the rows the output's write-back moves, the output block depends on the input blocks only on the rows their
    fetches move. -/
theorem cut_out_congr (i : grid0.Coords) (X0 X0' X1 X1' : Vec F S32768 .f32) (z n : Vec F S7x6 .f32)
    (h0 : ∀ j, win0_0.moved i j = true → X0 j = X0' j) (h1 : ∀ j, win0_1.moved i j = true → X1 j = X1' j) :
    win0_4.cut i (out X0 X1 z n) = win0_4.cut i (out X0' X1' z n) := by
  funext j
  show out X0 X1 z n (win0_4.xinj i j) = out X0' X1' z n (win0_4.xinj i j)
  have hr : (j 0).val < 32768 := Nat.lt_of_lt_of_le (j 0).isLt (win0_4.xsize_le i 0)
  have hq : (j 1).val < 42 := Nat.lt_of_lt_of_le (j 1).isLt (win0_4.xsize_le i 1)
  have hy : win0_4.xinj i j = ValueIdx.ix2 (⟨(j 0).val, hr⟩ : Fin 32768) (⟨(j 1).val, hq⟩ : Fin 42) := by
    funext a; match a with | ⟨0, _⟩ => rfl | ⟨1, _⟩ => rfl
  rw [hy]
  refine out_congr X0 X0' X1 X1' z n _ _ _ (h0 _ ?_) (h1 _ ?_)
  · rw [Pipeline.Window.moved_iff]; intro a
    match a with
    | ⟨0, _⟩ => exact (xsize4_eq0 i) ▸ (j 0).isLt
  · rw [Pipeline.Window.moved_iff]; intro a
    match a with
    | ⟨0, _⟩ => exact (xsize4_eq1 i) ▸ (j 0).isLt

variable (m : (ℓ : Loc nD τ sig) → Buf (Elt F) ℓ) (ρ : Dev nD → PrngReg)

/-! ## What the body finds -/

/-- The two long inputs are fetched at every point: the block on the rows inside the array, `d` past them. -/
theorem before0_0 (c : Dev nD) (t : Fin cfg0.N) (d) :
    (dats m 0 c).before 0 t d = win0_0.fill (grid0.coords t) d (Gen.iblk m c 0 t) := by
  unfold Dat.before; rw [if_pos (Gen.fetch0_0 t)]; unfold Dat.fetched Dat.blockOf Gen.iblk; rw [A_eq]
theorem before0_1 (c : Dev nD) (t : Fin cfg0.N) (d) :
    (dats m 0 c).before 1 t d = win0_1.fill (grid0.coords t) d (Gen.iblk m c 1 t) := by
  unfold Dat.before; rw [if_pos (Gen.fetch0_1 t)]; unfold Dat.fetched Dat.blockOf Gen.iblk; rw [A_eq]
/-- The two tables are fetched once and kept. -/
theorem before0_2 (c : Dev nD) (t : Fin cfg0.N) (d) : (dats m 0 c).before 2 t d = Gen.iblk m c 2 t :=
  Gen.before0_2_of m (dats m 0 c) (A_eq m c 2) (after0_2 m c) t d
theorem before0_3 (c : Dev nD) (t : Fin cfg0.N) (d) : (dats m 0 c).before 3 t d = Gen.iblk m c 3 t :=
  Gen.before0_3_of m (dats m 0 c) (A_eq m c 3) (after0_3 m c) t d
/-- The output is written back at every point: its buffer is fresh at each. -/
theorem before0_4 (c : Dev nD) (t : Fin cfg0.N) (d) : (dats m 0 c).before 4 t d = d :=
  (dats m 0 c).before_out_reset 4 rfl t (by
    by_cases h : t.val = 0
    · exact .inl h
    · exact .inr ⟨h, Gen.flush0_4 _⟩) d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the three clipped windows' buffers stated on the rows their transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ (∃ d, owns (c : Thread nD τ) (st0_1 t) fullShare
        ((cfg0.win 1).fill (cfg0.grid.coords t) d ((cfg0.win 1).cut (cfg0.grid.coords t) ((dats m 0 c).after 1 t))))
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare
        ((cfg0.win 4).fill (cfg0.grid.coords t) d ((cfg0.win 4).cut (cfg0.grid.coords t) ((dats m 0 c).after 4 t)))))

set_option maxHeartbeats 1000000 in
/-- The body at any point: the inputs' buffers hold their blocks, the clipped ones filled out past the array's end
    with what the buffer held; the body leaves them so and the output's buffer at `out` of them, which on the rows
    the write-back moves is `out` of the zero-filled blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3, before0_4 m c t d4]
  iapply (sound_kernel (F := F) c Set.univ (grid0.coords t) _ _ _ _ _ _ _ _ _ _
    (win0_0.fill (grid0.coords t) d0 (Gen.iblk m c 0 t)) (win0_1.fill (grid0.coords t) d1 (Gen.iblk m c 1 t))
    (Gen.iblk m c 2 t) (Gen.iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  have hx0 : win0_0.cut (grid0.coords t) (blk0 m c t) = Gen.iblk m c 0 t := win0_0.cut_fill _ _ _
  have hx1 : win0_1.cut (grid0.coords t) (blk1 m c t) = Gen.iblk m c 1 t := win0_1.cut_fill _ _ _
  have hx4 : win0_4.fill (grid0.coords t)
        (out (win0_0.fill (grid0.coords t) d0 (Gen.iblk m c 0 t)) (win0_1.fill (grid0.coords t) d1 (Gen.iblk m c 1 t))
          (Gen.iblk m c 2 t) (Gen.iblk m c 3 t))
        (win0_4.cut (grid0.coords t) (out (blk0 m c t) (blk1 m c t) (Gen.iblk m c 2 t) (Gen.iblk m c 3 t)))
      = out (win0_0.fill (grid0.coords t) d0 (Gen.iblk m c 0 t)) (win0_1.fill (grid0.coords t) d1 (Gen.iblk m c 1 t))
          (Gen.iblk m c 2 t) (Gen.iblk m c 3 t) :=
    win0_4.fill_congr_cut _ (cut_out_congr (grid0.coords t) _ (blk0 m c t) _ (blk1 m c t) _ _
      (fun j hj => fill_congr_moved win0_0 (grid0.coords t) d0 _ (Gen.iblk m c 0 t) j hj)
      (fun j hj => fill_congr_moved win0_1 (grid0.coords t) d1 _ (Gen.iblk m c 1 t) j hj))
  isplitl [H0]
  · iexists d0
    change _ ⊢ owns (c : Thread nD τ) (st0_0 t) fullShare
      (win0_0.fill (grid0.coords t) d0 (win0_0.cut (grid0.coords t) (blk0 m c t)))
    rw [hx0]
  isplitl [H1]
  · iexists d1
    change _ ⊢ owns (c : Thread nD τ) (st0_1 t) fullShare
      (win0_1.fill (grid0.coords t) d1 (win0_1.cut (grid0.coords t) (blk1 m c t)))
    rw [hx1]
  isplitl [H2]; · iexact H2
  isplitl [H3]; · iexact H3
  iexists (out (win0_0.fill (grid0.coords t) d0 (Gen.iblk m c 0 t)) (win0_1.fill (grid0.coords t) d1 (Gen.iblk m c 1 t))
          (Gen.iblk m c 2 t) (Gen.iblk m c 3 t))
  change _ ⊢ owns (c : Thread nD τ) (st0_4 t) fullShare (win0_4.fill (grid0.coords t) _
    (win0_4.cut (grid0.coords t) (out (blk0 m c t) (blk1 m c t) (Gen.iblk m c 2 t) (Gen.iblk m c 3 t))))
  rw [hx4]

/-- The body's obligation at every point (no point is idle; windows 0, 1 and 4 are the clipped ones). -/
theorem body_obligation (c : Dev nD) :
    BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the
    program on the TensorCores terminates, and every final state has every array of the pipeline at the contents the
    proof data determine and every other unscoped buffer as the lines after the pipeline leave it. -/
theorem run_main : θ_run defs (onTc (τ := τ) (main (F := F))) (s₀ m ρ)
    (Pipeline.FramePost cfgs (dats m) 0 (Pipeline.afterTail₀ cfgs (dats m) 0 (Gen.V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := Gen.V0 m) (opss := [hostOps1]) (hsub := Gen.sfx_sub) (hfresh := Gen.sfx_fresh)
    (hkeep := Gen.sfx_keeps) (hmain := Gen.hmain m Variants.none) (hA := A_eq m) (hΦ := fun _ _ => rfl)

/-- The frame: the program leaves its five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_of m ρ (dats m) (A_eq m) (run_main m ρ)

end Cert.KernelIdeal.Hand

end
-- ==== Proof.KIValue.lean ====
/-
  The kernel program's result: after the host reshape the result array holds, at (R, l, n), entry (R, 6l + n) of
  `Gout` of the scaled distances (the host gather and division before the call), the angles and the two tables.
-/
import proofs.«157165_j27994596835747_2_alg».proof.Proof.KIFinal
import proofs.«157165_j27994596835747_2_alg».proof.Proof.KIBody
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)
open Idealize.ShloMosaic.ValueIdx

variable {F : FTy → Type} [FloatOps F]

variable (m : (ℓ : Loc nD τ sig) → Buf (Elt F) ℓ) (ρ : Dev nD → PrngReg)

/-- The result array after the host reshape that follows the call. -/
theorem result_eq (c : Dev nD) : Pipeline.afterTail₀ cfgs (dats m) 0 (Gen.V0 m) [hostOps1] c main_v0
    = shapeCast S2000000x7x6 (Gout (Gen.V m c main_call0_v10) (Gen.V m c main_arg1) (Gen.V m c main_arg3) (Gen.V m c main_arg4))
        shapeCasts_S2000000x42_S2000000x7x6 := by
  unfold Pipeline.afterTail₀
  show StableHlo.after hostOps1 _ (Proc.devRef .tc main_v0) = _
  after_results
  rw [Pipeline.withArrays_arr spec0 launch0.win.arr_inj c _ _ 4]
  exact congrArg (fun g => shapeCast S2000000x7x6 g shapeCasts_S2000000x42_S2000000x7x6) (final4 m c)

/-- The kernel program's run, read: the result at the reshaped `Gout`, the argument arrays unchanged. -/
theorem run_value : θ_run defs (onTc (τ := τ) (main (F := F))) ⟨m, fun _ => 0, ρ⟩ fun r => ∀ c : Dev nD,
      r.2.mem ((c.tc : Thread nD τ).loc main_v0)
        = shapeCast S2000000x7x6 (Gout (Gen.V m c main_call0_v10) (Gen.V m c main_arg1) (Gen.V m c main_arg3) (Gen.V m c main_arg4))
            shapeCasts_S2000000x42_S2000000x7x6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v0 (Pipeline.mem_restRefs_of main_v0 (by decide) (by decide))).trans (result_eq m c),
      (((h c).2 main_arg0 (Pipeline.mem_restRefs_of main_arg0 (by decide) (by decide))).trans (Gen.W_main_arg0 m (dats m) c)),
      ((h c).1 1).trans ((((dats m) 0 c).arrAt_in 1 rfl _).trans ((A_eq m c 1).trans (Gen.V_main_arg1 m c))),
      (((h c).2 main_arg2 (Pipeline.mem_restRefs_of main_arg2 (by decide) (by decide))).trans (Gen.W_main_arg2 m (dats m) c)),
      ((h c).1 2).trans ((((dats m) 0 c).arrAt_in 2 rfl _).trans ((A_eq m c 2).trans (Gen.V_main_arg3 m c))),
      ((h c).1 3).trans ((((dats m) 0 c).arrAt_in 3 rfl _).trans ((A_eq m c 3).trans (Gen.V_main_arg4 m c)))⟩)
    (run_main m ρ)

end Cert.KernelIdeal.Hand

end
-- ==== Proof.DistEq.lean ====
/-
  The scaled distance of every row is the same array in both programs.

  Before the call the kernel program takes row 0 of the index table, wraps the negative indices by the length 500000
  of the distance array, gathers the distances at them and divides by 5; the reference does the same in its first
  fourteen operations. From memories that agree on the distance array and on the index table the two arrays are
  equal.
-/
import proofs.«157165_j27994596835747_2_alg».proof.Proof.Gen.KernelIdeal.Frame
import proofs.«157165_j27994596835747_2_alg».proof.Proof.Gen.ReferenceIdeal.Run
import Idealize.ShloMosaic.Lib.StableHlo.Run
import Idealize.ShloMosaic.PureOps.Ideal

set_option maxRecDepth 16384

noncomputable section

namespace Cert.Proof.Bridge

open Idealize.ShloMosaic Idealize.ShloMosaic.TcCoe Idealize.SL.Sem Idealize.ShloMosaic.StableHlo

/-- The scaled-distance array the kernel program hands to the call is the reference's. -/
theorem dist_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.KernelIdeal.Gen.V (F := Ideal) m c Cert.KernelIdeal.main_call0_v10
      = Cert.ReferenceIdeal.Value.res_main_v10 (F := Ideal) (Idealize.ShloMosaic.StableHlo.launchContents m' c) := by
  show StableHlo.after Cert.KernelIdeal.Gen.hostOps0 (fun b => m (c, b)) (Proc.devRef .tc Cert.KernelIdeal.main_call0_v10) = _
  after_results
  unfold Cert.ReferenceIdeal.Value.res_main_v10 Cert.ReferenceIdeal.Value.res_main_v1
  have e0 : launchContents m' c (Proc.devRef .tc Cert.ReferenceIdeal.main_arg0) = m (c, Proc.devRef .tc Cert.KernelIdeal.main_arg0) := h0
  have e2 : launchContents m' c (Proc.devRef .tc Cert.ReferenceIdeal.main_arg2) = m (c, Proc.devRef .tc Cert.KernelIdeal.main_arg2) := h2
  rw [e0, e2]
  rfl

end Cert.Proof.Bridge

end
-- ==== Proof.SpecIdeal.lean ====
/-
  Over the extended reals the two ways of computing the envelope agree: multiplication is associative and
  commutative there, so the two groupings of d⁵ are one number, and a product with the 0/1 value of a comparison is
  the selection between the factor and 0 (x · 1 = x, x · 0 = 0 for every extended real x, the infinities included).
-/
import proofs.«157165_j27994596835747_2_alg».proof.Proof.Spec
import Idealize.ShloMosaic.PureOps.Ideal.Laws

noncomputable section

namespace Cert.Spec

open Idealize.ShloMosaic

/-- d⁵ does not depend on the grouping of its products. -/
theorem pow5K_eq_pow5R (d : EReal) : pow5K (F := Ideal) d = pow5R (F := Ideal) d := by
  show ((((d * d) * d) * d) * d : EReal) = d * ((d * d) * (d * d))
  simp only [mul_assoc, mul_comm, mul_left_comm]

/-- The envelope by selection is the envelope by the 0/1 mask. -/
theorem envK_eq_envR (d : EReal) : envK (F := Ideal) d = envR (F := Ideal) d := by
  unfold envK envR
  rw [pow5K_eq_pow5R]
  show Scalar.select (Ideal.cmp .olt d (Ideal.ofBits .f32 0x3F800000#32)) (envPoly (F := Ideal) d (pow5R (F := Ideal) d)) (Ideal.ofBits .f32 0x00000000#32)
    = envPoly (F := Ideal) d (pow5R (F := Ideal) d) * (((Ideal.cmp .olt d (Ideal.ofBits .f32 0x3F800000#32)).toNat : ℝ) : EReal)
  rw [Ideal.ofBits_zero_f32]
  unfold Scalar.select Ideal.cmp
  by_cases h : d < Ideal.ofBits .f32 0x3F800000#32
  · simp [h]
  · simp [h]

end Cert.Spec

end
-- ==== Proof.RefAtLemmas.lean ====
/-
  Layout operations of the reference read at an index given by coordinates, and the elementwise operations read at an
  index for an arbitrary float instance.  Every lemma says: the operation applied at a result index is its operand at
  the index with the matching coordinates (a broadcast repeats its operand along the new axes, a stack of unit-extent
  pieces along an axis picks the piece the axis coordinate names, a row slice of a table reads that row).
-/
import proofs.«157165_j27994596835747_2_alg».proof.Proof.Gen.ReferenceIdeal
import Idealize.ShloMosaic.Lib.ValueLayout

noncomputable section

namespace Cert.ReferenceIdeal.RefValue

open Idealize.ShloMosaic Idealize.ShloMosaic.ValueIdx Cert.ReferenceIdeal Cert.ReferenceIdeal.Gen

/-! ## The elementwise operations at an index (definitional, any float instance) -/

section Pointwise
variable {F : FTy → Type} [FloatOps F] {s : Shape} {φ : FTy}

theorem mulf_at (a b : FVec F s φ) (i : s.Idx) : mulf a b i = FloatOps.mulf (a i) (b i) := rfl
theorem addf_at (a b : FVec F s φ) (i : s.Idx) : addf a b i = FloatOps.addf (a i) (b i) := rfl
theorem subf_at (a b : FVec F s φ) (i : s.Idx) : subf a b i = FloatOps.subf (a i) (b i) := rfl
theorem hdivf_at (a b : FVec F s φ) (i : s.Idx) : Host.divf a b i = FloatOps.hostDivf (a i) (b i) := rfl
theorem hsin_at (a : FVec F s φ) (i : s.Idx) : Host.sin a i = FloatOps.hostUnary .sin (a i) := rfl
theorem hcos_at (a : FVec F s φ) (i : s.Idx) : Host.cos a i = FloatOps.hostUnary .cos (a i) := rfl
theorem cmpf_at (p : CmpFPredicate) (a b : FVec F s φ) (i : s.Idx) : cmpf p a b i = FloatOps.cmpf p (a i) (b i) := rfl
theorem uitofp_at {w : Nat} (x : IVec s w) (i : s.Idx) : (uitofp φ x : FVec F s φ) i = FloatOps.uitofp φ (x i) := rfl
theorem const_at (b : BitVec φ.bits) (i : s.Idx) : constant (F := F) s φ b i = FloatOps.ofBits φ b := rfl

end Pointwise

/-! ## The host's division, sine and cosine at an index, over the extended reals: the kernel-side operations -/

section PointwiseIdeal
variable {s : Shape} {φ : FTy}

theorem hdivf_atI (a b : FVec Ideal s φ) (i : s.Idx) : Host.divf a b i = FloatOps.divf (a i) (b i) := rfl
theorem hsin_atI (a : FVec Ideal s φ) (i : s.Idx) : Host.sin a i = FloatOps.sin (a i) := rfl
theorem hcos_atI (a : FVec Ideal s φ) (i : s.Idx) : Host.cos a i = FloatOps.cos (a i) := rfl

end PointwiseIdeal

/-! ## Broadcasts -/

section Layout
variable {α : Type}

/-- A scalar broadcast over a vector reads the scalar. -/
theorem bcast_S_A (x : S_.Idx → α) (R : Fin 2000000) :
    broadcastInDim S2000000 ![] bcast_S_S2000000 x (ix1 R) = x ix0 :=
  broadcastInDim_apply _ _ _ _ _ (fun a => a.elim0)

/-- A scalar broadcast over an array reads the scalar. -/
theorem bcast_S_A6 (x : S_.Idx → α) (R : Fin 2000000) (j : Fin 6) :
    broadcastInDim S2000000x6 ![] bcast_S_S2000000x6 x (ix2 R j) = x ix0 :=
  broadcastInDim_apply _ _ _ _ _ (fun a => a.elim0)

/-- A vector as a column reads the vector at the row. -/
theorem bcast_A_A1 (v : S2000000.Idx → α) (R : Fin 2000000) (u : Fin 1) :
    broadcastInDim S2000000x1 ![0] bcast_S2000000_S2000000x1_0 v (ix2 R u) = v (ix1 R) :=
  broadcastInDim_apply _ _ _ _ (ix1 R) (fun a => match a with | ⟨0, _⟩ => rfl)

/-- A column repeated along the second axis reads the column at the row. -/
theorem bcast_A1_A6 (v : S2000000x1.Idx → α) (R : Fin 2000000) (j : Fin 6) :
    broadcastInDim S2000000x6 ![0, 1] bcast_S2000000x1_S2000000x6_0_1 v (ix2 R j) = v (ix2 R (0 : Fin 1)) :=
  broadcastInDim_apply _ _ _ _ (ix2 R (0 : Fin 1)) (fun a => match a with | ⟨0, _⟩ => rfl | ⟨1, _⟩ => rfl)

/-- A row repeated along the first axis reads the row at the column. -/
theorem bcast_16_A6 (v : S1x6.Idx → α) (R : Fin 2000000) (j : Fin 6) :
    broadcastInDim S2000000x6 ![0, 1] bcast_S1x6_S2000000x6_0_1 v (ix2 R j) = v (ix2 (0 : Fin 1) j) :=
  broadcastInDim_apply _ _ _ _ (ix2 (0 : Fin 1) j) (fun a => match a with | ⟨0, _⟩ => rfl | ⟨1, _⟩ => rfl)

/-- A vector as a row reads the vector. -/
theorem bcast_6_16 (v : S6.Idx → α) (u : Fin 1) (j : Fin 6) :
    broadcastInDim S1x6 ![1] bcast_S6_S1x6_1 v (ix2 u j) = v (ix1 j) :=
  broadcastInDim_apply _ _ _ _ (ix1 j) (fun a => match a with | ⟨0, _⟩ => rfl)

/-- An array with a unit middle axis inserted reads the array at the outer coordinates. -/
theorem bcast_A6_A16 (w : S2000000x6.Idx → α) (R : Fin 2000000) (u : Fin 1) (j : Fin 6) :
    broadcastInDim S2000000x1x6 ![0, 2] bcast_S2000000x6_S2000000x1x6_0_2 w (ix3 R u j) = w (ix2 R j) :=
  broadcastInDim_apply _ _ _ _ (ix2 R j) (fun a => match a with | ⟨0, _⟩ => rfl | ⟨1, _⟩ => rfl)

/-- A vector with two unit axes appended reads the vector at the row. -/
theorem bcast_A_A11 (v : S2000000.Idx → α) (R : Fin 2000000) (u u' : Fin 1) :
    broadcastInDim S2000000x1x1 ![0] bcast_S2000000_S2000000x1x1_0 v (ix3 R u u') = v (ix1 R) :=
  broadcastInDim_apply _ _ _ _ (ix1 R) (fun a => match a with | ⟨0, _⟩ => rfl)

/-- A row-indexed value repeated along both trailing axes reads it at the row. -/
theorem bcast_A11_A76 (v : S2000000x1x1.Idx → α) (R : Fin 2000000) (l : Fin 7) (j : Fin 6) :
    broadcastInDim S2000000x7x6 ![0, 1, 2] bcast_S2000000x1x1_S2000000x7x6_0_1_2 v (ix3 R l j)
      = v (ix3 R (0 : Fin 1) (0 : Fin 1)) :=
  broadcastInDim_apply _ _ _ _ (ix3 R (0 : Fin 1) (0 : Fin 1))
    (fun a => match a with | ⟨0, _⟩ => rfl | ⟨1, _⟩ => rfl | ⟨2, _⟩ => rfl)

/-- An array with a unit last axis appended reads the array. -/
theorem bcast_A7_A71 (w : S2000000x7.Idx → α) (R : Fin 2000000) (l : Fin 7) (u : Fin 1) :
    broadcastInDim S2000000x7x1 ![0, 1] bcast_S2000000x7_S2000000x7x1_0_1 w (ix3 R l u) = w (ix2 R l) :=
  broadcastInDim_apply _ _ _ _ (ix2 R l) (fun a => match a with | ⟨0, _⟩ => rfl | ⟨1, _⟩ => rfl)

/-- A unit last axis repeated reads the array at the first two coordinates. -/
theorem bcast_A71_A76 (w : S2000000x7x1.Idx → α) (R : Fin 2000000) (l : Fin 7) (j : Fin 6) :
    broadcastInDim S2000000x7x6 ![0, 1, 2] bcast_S2000000x7x1_S2000000x7x6_0_1_2 w (ix3 R l j)
      = w (ix3 R l (0 : Fin 1)) :=
  broadcastInDim_apply _ _ _ _ (ix3 R l (0 : Fin 1))
    (fun a => match a with | ⟨0, _⟩ => rfl | ⟨1, _⟩ => rfl | ⟨2, _⟩ => rfl)

/-! ## A row of a table -/

/-- Row l of a 7×6 table, as a vector, reads the table at (l, j). -/
theorem row_apply (l : Nat) (hl : l < 7) (T : S7x6.Idx → α) (hs : S7x6.Slices ![l, 0] S1x6) (j : Fin 6) :
    shapeCast S6 (extractStridedSlice S1x6 ![l, 0] T hs) shapeCasts_S1x6_S6 (ix1 j) = T (ix2 (⟨l, hl⟩ : Fin 7) j) :=
  (shapeCast_1a_a_apply _ _ j).trans (slice2_axis0_apply l T hs (0 : Fin 1) j ⟨l, hl⟩ rfl)

end Layout

/-! ## A stack of seven unit-extent pieces along axis 1 -/

section Stack
variable {α : Type}

/-- The l-th of seven. -/
def pick7 {β : Type} (u0 u1 u2 u3 u4 u5 u6 : β) : Fin 7 → β
  | ⟨0, _⟩ => u0 | ⟨1, _⟩ => u1 | ⟨2, _⟩ => u2 | ⟨3, _⟩ => u3 | ⟨4, _⟩ => u4 | ⟨5, _⟩ => u5 | ⟨6, _⟩ => u6

/-- Seven [A,1,6] pieces stacked along axis 1 read, at (R, l, j), piece l at (R, 0, j). -/
theorem stack3_apply (u0 u1 u2 u3 u4 u5 u6 : S2000000x1x6.Idx → α) (R : Fin 2000000) (l : Fin 7) (j : Fin 6) :
    concatenate S2000000x7x6 1 [⟨S2000000x1x6, u0⟩, ⟨S2000000x1x6, u1⟩, ⟨S2000000x1x6, u2⟩, ⟨S2000000x1x6, u3⟩,
        ⟨S2000000x1x6, u4⟩, ⟨S2000000x1x6, u5⟩, ⟨S2000000x1x6, u6⟩]
        concatenates_S2000000x1x6_S2000000x1x6_S2000000x1x6_S2000000x1x6_S2000000x1x6_S2000000x1x6_S2000000x1x6_S2000000x7x6_d1
        (ix3 R l j)
      = pick7 u0 u1 u2 u3 u4 u5 u6 l (ix3 R (0 : Fin 1) j) := by
  have hi : ∀ (l : Fin 7) (b : Fin S2000000x1x6.rank), b.cast (rfl : S2000000x1x6.rank = S2000000x7x6.rank) ≠ (1 : Fin 3) →
      ((ix3 R (0 : Fin 1) j : S2000000x1x6.Idx) b).val = ((ix3 R l j : S2000000x7x6.Idx) (b.cast rfl)).val := fun l b =>
    match b with
    | ⟨0, _⟩ => fun _ => rfl
    | ⟨1, _⟩ => fun h => absurd rfl h
    | ⟨2, _⟩ => fun _ => rfl
  match l with
  | ⟨0, h⟩ =>
    exact concatenate_apply_piece (t := S2000000x7x6) (1 : Fin 3) [⟨S2000000x1x6, u0⟩, ⟨S2000000x1x6, u1⟩, ⟨S2000000x1x6, u2⟩, ⟨S2000000x1x6, u3⟩, ⟨S2000000x1x6, u4⟩, ⟨S2000000x1x6, u5⟩, ⟨S2000000x1x6, u6⟩]
      concatenates_S2000000x1x6_S2000000x1x6_S2000000x1x6_S2000000x1x6_S2000000x1x6_S2000000x1x6_S2000000x1x6_S2000000x7x6_d1 _ 0 (by show (0 : ℕ) < 7; decide) S2000000x1x6 u0 rfl rfl 0 rfl _ (hi _) rfl
  | ⟨1, h⟩ =>
    exact concatenate_apply_piece (t := S2000000x7x6) (1 : Fin 3) [⟨S2000000x1x6, u0⟩, ⟨S2000000x1x6, u1⟩, ⟨S2000000x1x6, u2⟩, ⟨S2000000x1x6, u3⟩, ⟨S2000000x1x6, u4⟩, ⟨S2000000x1x6, u5⟩, ⟨S2000000x1x6, u6⟩]
      concatenates_S2000000x1x6_S2000000x1x6_S2000000x1x6_S2000000x1x6_S2000000x1x6_S2000000x1x6_S2000000x1x6_S2000000x7x6_d1 _ 1 (by show (1 : ℕ) < 7; decide) S2000000x1x6 u1 rfl rfl 1 rfl _ (hi _) rfl
  | ⟨2, h⟩ =>
    exact concatenate_apply_piece (t := S2000000x7x6) (1 : Fin 3) [⟨S2000000x1x6, u0⟩, ⟨S2000000x1x6, u1⟩, ⟨S2000000x1x6, u2⟩, ⟨S2000000x1x6, u3⟩, ⟨S2000000x1x6, u4⟩, ⟨S2000000x1x6, u5⟩, ⟨S2000000x1x6, u6⟩]
      concatenates_S2000000x1x6_S2000000x1x6_S2000000x1x6_S2000000x1x6_S2000000x1x6_S2000000x1x6_S2000000x1x6_S2000000x7x6_d1 _ 2 (by show (2 : ℕ) < 7; decide) S2000000x1x6 u2 rfl rfl 2 rfl _ (hi _) rfl
  | ⟨3, h⟩ =>
    exact concatenate_apply_piece (t := S2000000x7x6) (1 : Fin 3) [⟨S2000000x1x6, u0⟩, ⟨S2000000x1x6, u1⟩, ⟨S2000000x1x6, u2⟩, ⟨S2000000x1x6, u3⟩, ⟨S2000000x1x6, u4⟩, ⟨S2000000x1x6, u5⟩, ⟨S2000000x1x6, u6⟩]
      concatenates_S2000000x1x6_S2000000x1x6_S2000000x1x6_S2000000x1x6_S2000000x1x6_S2000000x1x6_S2000000x1x6_S2000000x7x6_d1 _ 3 (by show (3 : ℕ) < 7; decide) S2000000x1x6 u3 rfl rfl 3 rfl _ (hi _) rfl
  | ⟨4, h⟩ =>
    exact concatenate_apply_piece (t := S2000000x7x6) (1 : Fin 3) [⟨S2000000x1x6, u0⟩, ⟨S2000000x1x6, u1⟩, ⟨S2000000x1x6, u2⟩, ⟨S2000000x1x6, u3⟩, ⟨S2000000x1x6, u4⟩, ⟨S2000000x1x6, u5⟩, ⟨S2000000x1x6, u6⟩]
      concatenates_S2000000x1x6_S2000000x1x6_S2000000x1x6_S2000000x1x6_S2000000x1x6_S2000000x1x6_S2000000x1x6_S2000000x7x6_d1 _ 4 (by show (4 : ℕ) < 7; decide) S2000000x1x6 u4 rfl rfl 4 rfl _ (hi _) rfl
  | ⟨5, h⟩ =>
    exact concatenate_apply_piece (t := S2000000x7x6) (1 : Fin 3) [⟨S2000000x1x6, u0⟩, ⟨S2000000x1x6, u1⟩, ⟨S2000000x1x6, u2⟩, ⟨S2000000x1x6, u3⟩, ⟨S2000000x1x6, u4⟩, ⟨S2000000x1x6, u5⟩, ⟨S2000000x1x6, u6⟩]
      concatenates_S2000000x1x6_S2000000x1x6_S2000000x1x6_S2000000x1x6_S2000000x1x6_S2000000x1x6_S2000000x1x6_S2000000x7x6_d1 _ 5 (by show (5 : ℕ) < 7; decide) S2000000x1x6 u5 rfl rfl 5 rfl _ (hi _) rfl
  | ⟨6, h⟩ =>
    exact concatenate_apply_piece (t := S2000000x7x6) (1 : Fin 3) [⟨S2000000x1x6, u0⟩, ⟨S2000000x1x6, u1⟩, ⟨S2000000x1x6, u2⟩, ⟨S2000000x1x6, u3⟩, ⟨S2000000x1x6, u4⟩, ⟨S2000000x1x6, u5⟩, ⟨S2000000x1x6, u6⟩]
      concatenates_S2000000x1x6_S2000000x1x6_S2000000x1x6_S2000000x1x6_S2000000x1x6_S2000000x1x6_S2000000x1x6_S2000000x7x6_d1 _ 6 (by show (6 : ℕ) < 7; decide) S2000000x1x6 u6 rfl rfl 6 rfl _ (hi _) rfl

/-- Seven [A,1] columns stacked along axis 1 read, at (R, l), column l at (R, 0). -/
theorem stack2_apply (u0 u1 u2 u3 u4 u5 u6 : S2000000x1.Idx → α) (R : Fin 2000000) (l : Fin 7) :
    concatenate S2000000x7 1 [⟨S2000000x1, u0⟩, ⟨S2000000x1, u1⟩, ⟨S2000000x1, u2⟩, ⟨S2000000x1, u3⟩,
        ⟨S2000000x1, u4⟩, ⟨S2000000x1, u5⟩, ⟨S2000000x1, u6⟩]
        concatenates_S2000000x1_S2000000x1_S2000000x1_S2000000x1_S2000000x1_S2000000x1_S2000000x1_S2000000x7_d1
        (ix2 R l)
      = pick7 u0 u1 u2 u3 u4 u5 u6 l (ix2 R (0 : Fin 1)) := by
  have hi : ∀ (l : Fin 7) (b : Fin S2000000x1.rank), b.cast (rfl : S2000000x1.rank = S2000000x7.rank) ≠ (1 : Fin 2) →
      ((ix2 R (0 : Fin 1) : S2000000x1.Idx) b).val = ((ix2 R l : S2000000x7.Idx) (b.cast rfl)).val := fun l b =>
    match b with
    | ⟨0, _⟩ => fun _ => rfl
    | ⟨1, _⟩ => fun h => absurd rfl h
  match l with
  | ⟨0, h⟩ =>
    exact concatenate_apply_piece (t := S2000000x7) (1 : Fin 2) [⟨S2000000x1, u0⟩, ⟨S2000000x1, u1⟩, ⟨S2000000x1, u2⟩, ⟨S2000000x1, u3⟩, ⟨S2000000x1, u4⟩, ⟨S2000000x1, u5⟩, ⟨S2000000x1, u6⟩]
      concatenates_S2000000x1_S2000000x1_S2000000x1_S2000000x1_S2000000x1_S2000000x1_S2000000x1_S2000000x7_d1 _ 0 (by show (0 : ℕ) < 7; decide) S2000000x1 u0 rfl rfl 0 rfl _ (hi _) rfl
  | ⟨1, h⟩ =>
    exact concatenate_apply_piece (t := S2000000x7) (1 : Fin 2) [⟨S2000000x1, u0⟩, ⟨S2000000x1, u1⟩, ⟨S2000000x1, u2⟩, ⟨S2000000x1, u3⟩, ⟨S2000000x1, u4⟩, ⟨S2000000x1, u5⟩, ⟨S2000000x1, u6⟩]
      concatenates_S2000000x1_S2000000x1_S2000000x1_S2000000x1_S2000000x1_S2000000x1_S2000000x1_S2000000x7_d1 _ 1 (by show (1 : ℕ) < 7; decide) S2000000x1 u1 rfl rfl 1 rfl _ (hi _) rfl
  | ⟨2, h⟩ =>
    exact concatenate_apply_piece (t := S2000000x7) (1 : Fin 2) [⟨S2000000x1, u0⟩, ⟨S2000000x1, u1⟩, ⟨S2000000x1, u2⟩, ⟨S2000000x1, u3⟩, ⟨S2000000x1, u4⟩, ⟨S2000000x1, u5⟩, ⟨S2000000x1, u6⟩]
      concatenates_S2000000x1_S2000000x1_S2000000x1_S2000000x1_S2000000x1_S2000000x1_S2000000x1_S2000000x7_d1 _ 2 (by show (2 : ℕ) < 7; decide) S2000000x1 u2 rfl rfl 2 rfl _ (hi _) rfl
  | ⟨3, h⟩ =>
    exact concatenate_apply_piece (t := S2000000x7) (1 : Fin 2) [⟨S2000000x1, u0⟩, ⟨S2000000x1, u1⟩, ⟨S2000000x1, u2⟩, ⟨S2000000x1, u3⟩, ⟨S2000000x1, u4⟩, ⟨S2000000x1, u5⟩, ⟨S2000000x1, u6⟩]
      concatenates_S2000000x1_S2000000x1_S2000000x1_S2000000x1_S2000000x1_S2000000x1_S2000000x1_S2000000x7_d1 _ 3 (by show (3 : ℕ) < 7; decide) S2000000x1 u3 rfl rfl 3 rfl _ (hi _) rfl
  | ⟨4, h⟩ =>
    exact concatenate_apply_piece (t := S2000000x7) (1 : Fin 2) [⟨S2000000x1, u0⟩, ⟨S2000000x1, u1⟩, ⟨S2000000x1, u2⟩, ⟨S2000000x1, u3⟩, ⟨S2000000x1, u4⟩, ⟨S2000000x1, u5⟩, ⟨S2000000x1, u6⟩]
      concatenates_S2000000x1_S2000000x1_S2000000x1_S2000000x1_S2000000x1_S2000000x1_S2000000x1_S2000000x7_d1 _ 4 (by show (4 : ℕ) < 7; decide) S2000000x1 u4 rfl rfl 4 rfl _ (hi _) rfl
  | ⟨5, h⟩ =>
    exact concatenate_apply_piece (t := S2000000x7) (1 : Fin 2) [⟨S2000000x1, u0⟩, ⟨S2000000x1, u1⟩, ⟨S2000000x1, u2⟩, ⟨S2000000x1, u3⟩, ⟨S2000000x1, u4⟩, ⟨S2000000x1, u5⟩, ⟨S2000000x1, u6⟩]
      concatenates_S2000000x1_S2000000x1_S2000000x1_S2000000x1_S2000000x1_S2000000x1_S2000000x1_S2000000x7_d1 _ 5 (by show (5 : ℕ) < 7; decide) S2000000x1 u5 rfl rfl 5 rfl _ (hi _) rfl
  | ⟨6, h⟩ =>
    exact concatenate_apply_piece (t := S2000000x7) (1 : Fin 2) [⟨S2000000x1, u0⟩, ⟨S2000000x1, u1⟩, ⟨S2000000x1, u2⟩, ⟨S2000000x1, u3⟩, ⟨S2000000x1, u4⟩, ⟨S2000000x1, u5⟩, ⟨S2000000x1, u6⟩]
      concatenates_S2000000x1_S2000000x1_S2000000x1_S2000000x1_S2000000x1_S2000000x1_S2000000x1_S2000000x7_d1 _ 6 (by show (6 : ℕ) < 7; decide) S2000000x1 u6 rfl rfl 6 rfl _ (hi _) rfl

end Stack

end Cert.ReferenceIdeal.RefValue

end
-- ==== Proof.RefAt.lean ====
/-
  The reference's result read at one index (R, l, j), over the extended reals: it is the scalar entry of the
  specification, (envelope(d) · (n · j_l(d z))) · (c_l · P_l(cos θ)), at d the scaled distance of row R, θ the angle of
  row R, z and n the root and the normaliser at (l, j).  The index is pushed through the layout operations (broadcasts,
  row slices of the two tables, the two stacks along axis 1) and the elementwise operations are read at the index.
-/
import proofs.«157165_j27994596835747_2_alg».proof.Proof.Gen.ReferenceIdeal.Run
import proofs.«157165_j27994596835747_2_alg».proof.Proof.Spec
import proofs.«157165_j27994596835747_2_alg».proof.Proof.RefAtLemmas

noncomputable section

namespace Cert.ReferenceIdeal.RefValue

open Idealize.ShloMosaic Idealize.ShloMosaic.ValueIdx Idealize.SL.Sem Cert.ReferenceIdeal Cert.ReferenceIdeal.Gen Cert.ReferenceIdeal.Value

variable (V0 : Valuation τ sig (Elt Ideal)) (R : Fin 2000000) (j : Fin 6)

/-! ## The argument of the radial function: x_l = d · z_l

Each is the product of the distance column repeated along the second axis and row l of the table of roots repeated
along the first; at (R, j) that is d_R · z_{l,j}. -/

theorem x0_at : res_main_v40 V0 (ix2 R j)
    = FloatOps.mulf (res_main_v10 V0 (ix1 R)) (V0 (Proc.devRef .tc main_arg3) (ix2 (⟨0, by omega⟩ : Fin 7) j)) := by
  unfold res_main_v40
  rw [mulf_at, bcast_A1_A6, bcast_A_A1, bcast_16_A6, bcast_6_16, row_apply 0 (by omega)]

theorem x1_at : res_main_v54 V0 (ix2 R j)
    = FloatOps.mulf (res_main_v10 V0 (ix1 R)) (V0 (Proc.devRef .tc main_arg3) (ix2 (⟨1, by omega⟩ : Fin 7) j)) := by
  unfold res_main_v54
  rw [mulf_at, bcast_A1_A6, bcast_A_A1, bcast_16_A6, bcast_6_16, row_apply 1 (by omega)]

theorem x2_at : res_main_v74 V0 (ix2 R j)
    = FloatOps.mulf (res_main_v10 V0 (ix1 R)) (V0 (Proc.devRef .tc main_arg3) (ix2 (⟨2, by omega⟩ : Fin 7) j)) := by
  unfold res_main_v74
  rw [mulf_at, bcast_A1_A6, bcast_A_A1, bcast_16_A6, bcast_6_16, row_apply 2 (by omega)]

theorem x3_at : res_main_v98 V0 (ix2 R j)
    = FloatOps.mulf (res_main_v10 V0 (ix1 R)) (V0 (Proc.devRef .tc main_arg3) (ix2 (⟨3, by omega⟩ : Fin 7) j)) := by
  unfold res_main_v98
  rw [mulf_at, bcast_A1_A6, bcast_A_A1, bcast_16_A6, bcast_6_16, row_apply 3 (by omega)]

theorem x4_at : res_main_v126 V0 (ix2 R j)
    = FloatOps.mulf (res_main_v10 V0 (ix1 R)) (V0 (Proc.devRef .tc main_arg3) (ix2 (⟨4, by omega⟩ : Fin 7) j)) := by
  unfold res_main_v126
  rw [mulf_at, bcast_A1_A6, bcast_A_A1, bcast_16_A6, bcast_6_16, row_apply 4 (by omega)]

theorem x5_at : res_main_v158 V0 (ix2 R j)
    = FloatOps.mulf (res_main_v10 V0 (ix1 R)) (V0 (Proc.devRef .tc main_arg3) (ix2 (⟨5, by omega⟩ : Fin 7) j)) := by
  unfold res_main_v158
  rw [mulf_at, bcast_A1_A6, bcast_A_A1, bcast_16_A6, bcast_6_16, row_apply 5 (by omega)]

theorem x6_at : res_main_v194 V0 (ix2 R j)
    = FloatOps.mulf (res_main_v10 V0 (ix1 R)) (V0 (Proc.devRef .tc main_arg3) (ix2 (⟨6, by omega⟩ : Fin 7) j)) := by
  unfold res_main_v194
  rw [mulf_at, bcast_A1_A6, bcast_A_A1, bcast_16_A6, bcast_6_16, row_apply 6 (by omega)]

/-! ## The named values of the upward recurrence j_k(x) = (2k−1)/x · j_{k−1}(x) − j_{k−2}(x)

Read at (R, j), each named intermediate array is the scalar recurrence value at the argument array's entry. -/

theorem v106_at : res_main_v106 V0 (ix2 R j) = Cert.Spec.sJ1 (F := Ideal) (res_main_v98 V0 (ix2 R j)) := by
  unfold res_main_v106
  simp -dsimp only [subf_at, mulf_at, hdivf_atI, hsin_atI, hcos_atI, bcast_S_A6, const_at]
  rfl

theorem v134_at : res_main_v134 V0 (ix2 R j) = Cert.Spec.sJ1 (F := Ideal) (res_main_v126 V0 (ix2 R j)) := by
  unfold res_main_v134
  simp -dsimp only [subf_at, mulf_at, hdivf_atI, hsin_atI, hcos_atI, bcast_S_A6, const_at]
  rfl

theorem v138_at : res_main_v138 V0 (ix2 R j) = Cert.Spec.sJ2 (F := Ideal) (res_main_v126 V0 (ix2 R j)) := by
  unfold res_main_v138
  simp -dsimp only [subf_at, mulf_at, hdivf_atI, hsin_atI, hcos_atI, bcast_S_A6, const_at, v134_at]
  rfl

theorem v166_at : res_main_v166 V0 (ix2 R j) = Cert.Spec.sJ1 (F := Ideal) (res_main_v158 V0 (ix2 R j)) := by
  unfold res_main_v166
  simp -dsimp only [subf_at, mulf_at, hdivf_atI, hsin_atI, hcos_atI, bcast_S_A6, const_at]
  rfl

theorem v170_at : res_main_v170 V0 (ix2 R j) = Cert.Spec.sJ2 (F := Ideal) (res_main_v158 V0 (ix2 R j)) := by
  unfold res_main_v170
  simp -dsimp only [subf_at, mulf_at, hdivf_atI, hsin_atI, hcos_atI, bcast_S_A6, const_at, v166_at]
  rfl

theorem v174_at : res_main_v174 V0 (ix2 R j) = Cert.Spec.sJ3 (F := Ideal) (res_main_v158 V0 (ix2 R j)) := by
  unfold res_main_v174
  simp -dsimp only [subf_at, mulf_at, hdivf_atI, hsin_atI, hcos_atI, bcast_S_A6, const_at, v170_at, v166_at]
  rfl

theorem v202_at : res_main_v202 V0 (ix2 R j) = Cert.Spec.sJ1 (F := Ideal) (res_main_v194 V0 (ix2 R j)) := by
  unfold res_main_v202
  simp -dsimp only [subf_at, mulf_at, hdivf_atI, hsin_atI, hcos_atI, bcast_S_A6, const_at]
  rfl

theorem v206_at : res_main_v206 V0 (ix2 R j) = Cert.Spec.sJ2 (F := Ideal) (res_main_v194 V0 (ix2 R j)) := by
  unfold res_main_v206
  simp -dsimp only [subf_at, mulf_at, hdivf_atI, hsin_atI, hcos_atI, bcast_S_A6, const_at, v202_at]
  rfl

theorem v210_at : res_main_v210 V0 (ix2 R j) = Cert.Spec.sJ3 (F := Ideal) (res_main_v194 V0 (ix2 R j)) := by
  unfold res_main_v210
  simp -dsimp only [subf_at, mulf_at, hdivf_atI, hsin_atI, hcos_atI, bcast_S_A6, const_at, v206_at, v202_at]
  rfl

theorem v214_at : res_main_v214 V0 (ix2 R j) = Cert.Spec.sJ4 (F := Ideal) (res_main_v194 V0 (ix2 R j)) := by
  unfold res_main_v214
  simp -dsimp only [subf_at, mulf_at, hdivf_atI, hsin_atI, hcos_atI, bcast_S_A6, const_at, v210_at, v206_at]
  rfl

/-! ## The Legendre values P_k(cos θ) by Bonnet's recurrence -/

theorem c_at : (res_main_v234 V0 (ix1 R) : Ideal .f32)
    = FloatOps.cos (F := Ideal) (φ := .f32) (V0 (Proc.devRef .tc main_arg1) (ix1 R) : Ideal .f32) := by
  unfold res_main_v234
  rw [hcos_atI]

theorem one_at : res_main_v235 V0 (ix1 R) = Cert.Spec.lit (F := Ideal) 0x3F800000#32 := by
  unfold res_main_v235
  rw [bcast_S_A, const_at]

theorem v243_at : res_main_v243 V0 (ix1 R)
    = Cert.Spec.sP2 (F := Ideal) (FloatOps.cos (F := Ideal) (φ := .f32) (V0 (Proc.devRef .tc main_arg1) (ix1 R) : Ideal .f32)) := by
  unfold res_main_v243
  simp -dsimp only [subf_at, mulf_at, hdivf_atI, bcast_S_A, const_at, c_at, one_at]
  rfl

theorem v251_at : res_main_v251 V0 (ix1 R)
    = Cert.Spec.sP3 (F := Ideal) (FloatOps.cos (F := Ideal) (φ := .f32) (V0 (Proc.devRef .tc main_arg1) (ix1 R) : Ideal .f32)) := by
  unfold res_main_v251
  simp -dsimp only [subf_at, mulf_at, hdivf_atI, bcast_S_A, const_at, c_at, v243_at]
  rfl

theorem v259_at : res_main_v259 V0 (ix1 R)
    = Cert.Spec.sP4 (F := Ideal) (FloatOps.cos (F := Ideal) (φ := .f32) (V0 (Proc.devRef .tc main_arg1) (ix1 R) : Ideal .f32)) := by
  unfold res_main_v259
  simp -dsimp only [subf_at, mulf_at, hdivf_atI, bcast_S_A, const_at, c_at, v251_at, v243_at]
  rfl

theorem v267_at : res_main_v267 V0 (ix1 R)
    = Cert.Spec.sP5 (F := Ideal) (FloatOps.cos (F := Ideal) (φ := .f32) (V0 (Proc.devRef .tc main_arg1) (ix1 R) : Ideal .f32)) := by
  unfold res_main_v267
  simp -dsimp only [subf_at, mulf_at, hdivf_atI, bcast_S_A, const_at, c_at, v259_at, v251_at]
  rfl

/-! ## The result at (R, l, j)

The result is (bcast(envelope) · stack_l(n_l · j_l(d z_l))) · bcast(stack_l(c_l · P_l(cos θ))).  The two outer products
are read at the index, the envelope's broadcast reads row R, each stack picks its piece l, and what is left is the
scalar entry of the specification with its definitions unfolded.  (The dependent arguments of the layout operations
are left as printed, so that the layout lemmas keep matching while the index is pushed inwards.) -/

theorem ref_apply0 : val6 V0 (Proc.devRef .tc main_v303) (ix3 R (⟨0, by omega⟩ : Fin 7) j)
    = Cert.Spec.out0 (F := Ideal) (Cert.Spec.envR (res_main_v10 V0 (ix1 R))) (res_main_v10 V0 (ix1 R))
        (V0 (Proc.devRef .tc main_arg1) (ix1 R)) (V0 (Proc.devRef .tc main_arg3) (ix2 (⟨0, by omega⟩ : Fin 7) j))
        (V0 (Proc.devRef .tc main_arg4) (ix2 (⟨0, by omega⟩ : Fin 7) j)) := by
  rw [val6_main_v303]
  simp -dsimp only [mulf_at, addf_at, subf_at, hdivf_atI, hsin_atI, hcos_atI, cmpf_at, uitofp_at, const_at,
    bcast_A11_A76, bcast_A_A11, bcast_A71_A76, bcast_A7_A71, stack2_apply, stack3_apply, pick7, bcast_A_A1, bcast_S_A,
    bcast_S_A6, res_main_v233, bcast_A6_A16, bcast_16_A6, bcast_6_16, row_apply 0 (by omega),
    res_main_v13, res_main_v11, x0_at, one_at]
  rfl

theorem ref_apply1 : val6 V0 (Proc.devRef .tc main_v303) (ix3 R (⟨1, by omega⟩ : Fin 7) j)
    = Cert.Spec.out1 (F := Ideal) (Cert.Spec.envR (res_main_v10 V0 (ix1 R))) (res_main_v10 V0 (ix1 R))
        (V0 (Proc.devRef .tc main_arg1) (ix1 R)) (V0 (Proc.devRef .tc main_arg3) (ix2 (⟨1, by omega⟩ : Fin 7) j))
        (V0 (Proc.devRef .tc main_arg4) (ix2 (⟨1, by omega⟩ : Fin 7) j)) := by
  rw [val6_main_v303]
  simp -dsimp only [mulf_at, addf_at, subf_at, hdivf_atI, hsin_atI, hcos_atI, cmpf_at, uitofp_at, const_at,
    bcast_A11_A76, bcast_A_A11, bcast_A71_A76, bcast_A7_A71, stack2_apply, stack3_apply, pick7, bcast_A_A1, bcast_S_A,
    bcast_S_A6, res_main_v233, bcast_A6_A16, bcast_16_A6, bcast_6_16, row_apply 1 (by omega),
    res_main_v13, res_main_v11, x1_at, c_at]
  rfl

theorem ref_apply2 : val6 V0 (Proc.devRef .tc main_v303) (ix3 R (⟨2, by omega⟩ : Fin 7) j)
    = Cert.Spec.out2 (F := Ideal) (Cert.Spec.envR (res_main_v10 V0 (ix1 R))) (res_main_v10 V0 (ix1 R))
        (V0 (Proc.devRef .tc main_arg1) (ix1 R)) (V0 (Proc.devRef .tc main_arg3) (ix2 (⟨2, by omega⟩ : Fin 7) j))
        (V0 (Proc.devRef .tc main_arg4) (ix2 (⟨2, by omega⟩ : Fin 7) j)) := by
  rw [val6_main_v303]
  simp -dsimp only [mulf_at, addf_at, subf_at, hdivf_atI, hsin_atI, hcos_atI, cmpf_at, uitofp_at, const_at,
    bcast_A11_A76, bcast_A_A11, bcast_A71_A76, bcast_A7_A71, stack2_apply, stack3_apply, pick7, bcast_A_A1, bcast_S_A,
    bcast_S_A6, res_main_v233, bcast_A6_A16, bcast_16_A6, bcast_6_16, row_apply 2 (by omega),
    res_main_v13, res_main_v11, x2_at, v243_at]
  rfl

theorem ref_apply3 : val6 V0 (Proc.devRef .tc main_v303) (ix3 R (⟨3, by omega⟩ : Fin 7) j)
    = Cert.Spec.out3 (F := Ideal) (Cert.Spec.envR (res_main_v10 V0 (ix1 R))) (res_main_v10 V0 (ix1 R))
        (V0 (Proc.devRef .tc main_arg1) (ix1 R)) (V0 (Proc.devRef .tc main_arg3) (ix2 (⟨3, by omega⟩ : Fin 7) j))
        (V0 (Proc.devRef .tc main_arg4) (ix2 (⟨3, by omega⟩ : Fin 7) j)) := by
  rw [val6_main_v303]
  simp -dsimp only [mulf_at, addf_at, subf_at, hdivf_atI, hsin_atI, hcos_atI, cmpf_at, uitofp_at, const_at,
    bcast_A11_A76, bcast_A_A11, bcast_A71_A76, bcast_A7_A71, stack2_apply, stack3_apply, pick7, bcast_A_A1, bcast_S_A,
    bcast_S_A6, res_main_v233, bcast_A6_A16, bcast_16_A6, bcast_6_16, row_apply 3 (by omega),
    res_main_v13, res_main_v11, v106_at, x3_at, v251_at]
  rfl

theorem ref_apply4 : val6 V0 (Proc.devRef .tc main_v303) (ix3 R (⟨4, by omega⟩ : Fin 7) j)
    = Cert.Spec.out4 (F := Ideal) (Cert.Spec.envR (res_main_v10 V0 (ix1 R))) (res_main_v10 V0 (ix1 R))
        (V0 (Proc.devRef .tc main_arg1) (ix1 R)) (V0 (Proc.devRef .tc main_arg3) (ix2 (⟨4, by omega⟩ : Fin 7) j))
        (V0 (Proc.devRef .tc main_arg4) (ix2 (⟨4, by omega⟩ : Fin 7) j)) := by
  rw [val6_main_v303]
  simp -dsimp only [mulf_at, addf_at, subf_at, hdivf_atI, hsin_atI, hcos_atI, cmpf_at, uitofp_at, const_at,
    bcast_A11_A76, bcast_A_A11, bcast_A71_A76, bcast_A7_A71, stack2_apply, stack3_apply, pick7, bcast_A_A1, bcast_S_A,
    bcast_S_A6, res_main_v233, bcast_A6_A16, bcast_16_A6, bcast_6_16, row_apply 4 (by omega),
    res_main_v13, res_main_v11, v138_at, v134_at, x4_at, v259_at]
  rfl

theorem ref_apply5 : val6 V0 (Proc.devRef .tc main_v303) (ix3 R (⟨5, by omega⟩ : Fin 7) j)
    = Cert.Spec.out5 (F := Ideal) (Cert.Spec.envR (res_main_v10 V0 (ix1 R))) (res_main_v10 V0 (ix1 R))
        (V0 (Proc.devRef .tc main_arg1) (ix1 R)) (V0 (Proc.devRef .tc main_arg3) (ix2 (⟨5, by omega⟩ : Fin 7) j))
        (V0 (Proc.devRef .tc main_arg4) (ix2 (⟨5, by omega⟩ : Fin 7) j)) := by
  rw [val6_main_v303]
  simp -dsimp only [mulf_at, addf_at, subf_at, hdivf_atI, hsin_atI, hcos_atI, cmpf_at, uitofp_at, const_at,
    bcast_A11_A76, bcast_A_A11, bcast_A71_A76, bcast_A7_A71, stack2_apply, stack3_apply, pick7, bcast_A_A1, bcast_S_A,
    bcast_S_A6, res_main_v233, bcast_A6_A16, bcast_16_A6, bcast_6_16, row_apply 5 (by omega),
    res_main_v13, res_main_v11, v174_at, v170_at, x5_at, v267_at]
  rfl

theorem ref_apply6 : val6 V0 (Proc.devRef .tc main_v303) (ix3 R (⟨6, by omega⟩ : Fin 7) j)
    = Cert.Spec.out6 (F := Ideal) (Cert.Spec.envR (res_main_v10 V0 (ix1 R))) (res_main_v10 V0 (ix1 R))
        (V0 (Proc.devRef .tc main_arg1) (ix1 R)) (V0 (Proc.devRef .tc main_arg3) (ix2 (⟨6, by omega⟩ : Fin 7) j))
        (V0 (Proc.devRef .tc main_arg4) (ix2 (⟨6, by omega⟩ : Fin 7) j)) := by
  rw [val6_main_v303]
  simp -dsimp only [mulf_at, addf_at, subf_at, hdivf_atI, hsin_atI, hcos_atI, cmpf_at, uitofp_at, const_at,
    bcast_A11_A76, bcast_A_A11, bcast_A71_A76, bcast_A7_A71, stack2_apply, stack3_apply, pick7, bcast_A_A1, bcast_S_A,
    bcast_S_A6, res_main_v233, bcast_A6_A16, bcast_16_A6, bcast_6_16, row_apply 6 (by omega),
    res_main_v13, res_main_v11, v214_at, v210_at, x6_at, c_at, v267_at, v259_at]
  rfl

end Cert.ReferenceIdeal.RefValue

end
-- ==== Proof.Bridge.lean ====
/-
  The two results are one function. The kernel program's result array is the reshaped `Gout` of the scaled
  distances, the angles and the two tables; at (R, l, n) that is entry (R, 6l + n), which is slab l of the body's
  result: (envelope(d_R) · (N_{l,n} · j_l(d_R · z_{l,n}))) · (c_l · P_l(cos θ_R)), the envelope taken by selection.
  The reference's result at (R, l, n) is the same product with the envelope taken by the 0/1 mask; over the extended
  reals the two envelopes are one number.
-/
import proofs.«157165_j27994596835747_2_alg».proof.Proof.KIFinal
import proofs.«157165_j27994596835747_2_alg».proof.Proof.SpecIdeal
import proofs.«157165_j27994596835747_2_alg».proof.Proof.RefAt

set_option maxRecDepth 16384

noncomputable section

namespace Cert.Proof.Bridge

open Idealize.ShloMosaic Idealize.ShloMosaic.TcCoe Idealize.SL.Sem Idealize.ShloMosaic.StableHlo
open Idealize.ShloMosaic.ValueIdx
open Cert.KernelIdeal.Hand

/-- The reshape [2000000, 42] → [2000000, 7, 6] read at an index: column 6l + n. -/
theorem reshape_apply {α : Type} (G : Cert.KernelIdeal.S2000000x42.Idx → α) (R : Fin 2000000) (l : Fin 7) (j : Fin 6) :
    shapeCast Cert.KernelIdeal.S2000000x7x6 G Cert.KernelIdeal.Facts₀.shapeCasts_S2000000x42_S2000000x7x6 (ix3 R l j)
      = G (ix2 R (⟨6 * l.val + j.val, by omega⟩ : Fin 42)) :=
  shapeCast_apply G _ _ _ (by
    rw [Shape.rowMajor_val_two, Shape.rowMajor_val_three]
    show R.val * 42 + (6 * l.val + j.val) = (R.val * 7 + l.val) * 6 + j.val
    omega)

open Cert.ReferenceIdeal Cert.ReferenceIdeal.Gen Cert.ReferenceIdeal.Value Cert.ReferenceIdeal.RefValue in
/-- The reshaped `Gout` of the reference's own scaled distances, angles and tables is the reference's result. -/
theorem result_bridge (V0 : Valuation Cert.ReferenceIdeal.τ Cert.ReferenceIdeal.sig (Elt Ideal)) :
    shapeCast Cert.KernelIdeal.S2000000x7x6
        (Gout (F := Ideal) (res_main_v10 V0) (V0 (Proc.devRef .tc main_arg1)) (V0 (Proc.devRef .tc main_arg3)) (V0 (Proc.devRef .tc main_arg4)))
        Cert.KernelIdeal.Facts₀.shapeCasts_S2000000x42_S2000000x7x6
      = val6 V0 (Proc.devRef .tc main_v303) := by
  funext i
  obtain ⟨R, l, j, rfl⟩ : ∃ (R : Fin 2000000) (l : Fin 7) (j : Fin 6), i = ix3 R l j := ⟨i 0, i 1, i 2, eq_ix3 i⟩
  rw [reshape_apply, Gout_apply]
  match l with
  | ⟨0, _⟩ => exact (out_slab0 _ _ _ _ 0 j).trans ((pay0_apply _ _ _ _ 0 j).trans (by rw [Cert.Spec.envK_eq_envR]; exact (ref_apply0 V0 R j).symm))
  | ⟨1, _⟩ => exact (out_slab1 _ _ _ _ 0 j).trans ((pay1_apply _ _ _ _ 0 j).trans (by rw [Cert.Spec.envK_eq_envR]; exact (ref_apply1 V0 R j).symm))
  | ⟨2, _⟩ => exact (out_slab2 _ _ _ _ 0 j).trans ((pay2_apply _ _ _ _ 0 j).trans (by rw [Cert.Spec.envK_eq_envR]; exact (ref_apply2 V0 R j).symm))
  | ⟨3, _⟩ => exact (out_slab3 _ _ _ _ 0 j).trans ((pay3_apply _ _ _ _ 0 j).trans (by rw [Cert.Spec.envK_eq_envR]; exact (ref_apply3 V0 R j).symm))
  | ⟨4, _⟩ => exact (out_slab4 _ _ _ _ 0 j).trans ((pay4_apply _ _ _ _ 0 j).trans (by rw [Cert.Spec.envK_eq_envR]; exact (ref_apply4 V0 R j).symm))
  | ⟨5, _⟩ => exact (out_slab5 _ _ _ _ 0 j).trans ((pay5_apply _ _ _ _ 0 j).trans (by rw [Cert.Spec.envK_eq_envR]; exact (ref_apply5 V0 R j).symm))
  | ⟨6, _⟩ => exact (out_slab6 _ _ _ _ 0 j).trans ((pay6_apply _ _ _ _ 0 j).trans (by rw [Cert.Spec.envK_eq_envR]; exact (ref_apply6 V0 R j).symm))

end Cert.Proof.Bridge

end
-- ==== Proof.lean ====
/-
  The certificate: a kernel that evaluates the envelope-weighted spherical Bessel × Legendre basis
      out[R, l, n] = envelope(d_R) · (N_{l,n} · j_l(d_R · z_{l,n})) · (c_l · P_l(cos θ_R)),   d_R = distance[index_R] / 5,
  row block by row block (62 blocks of 32768 rows over 2,000,000 rows, the last block cut at the arrays' end),
  against the same formula written with whole-array operations.

  Frames. Both kernel programs (the word-level one and its reading over the extended reals) run to the end, fault
  nowhere and leave their arguments unchanged: the body only reads its four input blocks and stores seven slabs that
  tile the output block, and — a row of the output block depending only on the same row of the distance and angle
  blocks — what it leaves on the rows inside the array does not depend on the unnamed words past the array's end.
  The reference is a straight line of whole-array operations; its run is read back operation by operation.

  Values, over the extended reals. After the call the output array holds, at row R and column 6l + n, slab l of the
  body's result computed from d_R and θ_R alone; the host reshape makes that entry (R, l, n). The reference's result
  at (R, l, n) is the same product of the same factors in the same order, except that it takes the envelope as a
  product with the 0/1 value of (d < 1) where the kernel selects, and groups d⁵ differently: over the extended
  reals multiplication is associative and commutative and x · 1 = x, x · 0 = 0, so the two envelopes are one number.
  The scaled distances are computed by the same host operations in both programs.
-/
import proofs.«157165_j27994596835747_2_alg».proof.Defs
import proofs.«157165_j27994596835747_2_alg».proof.Proof.Gen.Kernel
import proofs.«157165_j27994596835747_2_alg».proof.Proof.Gen.Kernel.Skeleton
import proofs.«157165_j27994596835747_2_alg».proof.Proof.Gen.Kernel.Launch
import proofs.«157165_j27994596835747_2_alg».proof.Proof.Gen.Kernel.Points
import proofs.«157165_j27994596835747_2_alg».proof.Proof.Gen.Kernel.Frame
import proofs.«157165_j27994596835747_2_alg».proof.Proof.Gen.KernelIdeal
import proofs.«157165_j27994596835747_2_alg».proof.Proof.Gen.KernelIdeal.Skeleton
import proofs.«157165_j27994596835747_2_alg».proof.Proof.Gen.KernelIdeal.Launch
import proofs.«157165_j27994596835747_2_alg».proof.Proof.Gen.KernelIdeal.Points
import proofs.«157165_j27994596835747_2_alg».proof.Proof.Gen.KernelIdeal.Frame
import proofs.«157165_j27994596835747_2_alg».proof.Proof.Gen.ReferenceIdeal
import proofs.«157165_j27994596835747_2_alg».proof.Proof.Gen.ReferenceIdeal.Run
import proofs.«157165_j27994596835747_2_alg».proof.Proof.Gen.Pre_finite_inputs
import proofs.«157165_j27994596835747_2_alg».proof.Proof.KBBody
import proofs.«157165_j27994596835747_2_alg».proof.Proof.KIValue
import proofs.«157165_j27994596835747_2_alg».proof.Proof.DistEq
import proofs.«157165_j27994596835747_2_alg».proof.Proof.Bridge
import Idealize.ShloMosaic.Adequacy
import Idealize.ShloMosaic.Init

set_option maxRecDepth 16384

noncomputable section

namespace Cert.Proof

open Idealize.ShloMosaic Idealize.SL.Sem Idealize.ShloMosaic.StableHlo

/-- The word-level kernel program runs, faults nowhere and leaves its arguments unchanged. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference runs to its composed term and leaves its arguments unchanged. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Over the extended reals the two programs, run from memories that agree on the arguments, end with the same
    result array: the reshaped `Gout` of the scaled distances, the angles and the two tables. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => shapeCast Cert.KernelIdeal.S2000000x7x6
      (Cert.KernelIdeal.Hand.Gout (F := Ideal) (Cert.KernelIdeal.Gen.V m c Cert.KernelIdeal.main_call0_v10)
        (Cert.KernelIdeal.Gen.V m c Cert.KernelIdeal.main_arg1) (Cert.KernelIdeal.Gen.V m c Cert.KernelIdeal.main_arg3)
        (Cert.KernelIdeal.Gen.V m c Cert.KernelIdeal.main_arg4)) Cert.KernelIdeal.Facts₀.shapeCasts_S2000000x42_S2000000x7x6,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Value.val6_main_v303 (launchContents m' c)).symm.trans ?_
  refine (Cert.Proof.Bridge.result_bridge (launchContents m' c)).symm.trans ?_
  beta_reduce
  rw [Cert.Proof.Bridge.dist_eq m m' c (hagree c).1 (hagree c).2.2.1, Cert.KernelIdeal.Gen.V_main_arg1 m c,
    Cert.KernelIdeal.Gen.V_main_arg3 m c, Cert.KernelIdeal.Gen.V_main_arg4 m c,
    ← (hagree c).2.1, ← (hagree c).2.2.2.1, ← (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
